-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v96)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v96) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v144) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S47x128 : Shape := ⟨2, ![47, 128]⟩
abbrev S47 : Shape := ⟨1, ![47]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S47x128 : S_.BroadcastsInDim S47x128 (![] : Fin 0 → Fin S47x128.rank)
  reducesTo_S47x128_S_d0_1 : S47x128.ReducesTo [0, 1] S_
  bcast_S_S47 : S_.BroadcastsInDim S47 (![] : Fin 0 → Fin S47.rank)
  reducesTo_S47_S_d0 : S47.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg12 : FVec F S47x128 .f32) (main_arg13 : FVec F S47 .f32) (main_arg14 : FVec F S47x128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S47x128 .f32 := Host.absf main_arg12
  let main_cst_20 : FVec F S_ .f32 := constant S_ .f32 0x7F800000#32
  let main_v55 : FVec F S47x128 .f32 := broadcastInDim S47x128 ![] bcast_S_S47x128 main_cst_20
  let main_v56 : IVec S47x128 1 := cmpf .olt main_v54 main_v55
  let main_c_21 : IVec S_ 1 := constantI S_ 1 1#1
  let main_v57 : IVec S_ 1 := (fun x v => Host.reduce IntOp.andi x v reducesTo_S47x128_S_d0_1 h_S_) main_v56 main_c_21
  let main_v58 : IVec S_ 1 := andi main_v53 main_v57
  let main_v59 : FVec F S47 .f32 := Host.absf main_arg13
  let main_cst_22 : FVec F S_ .f32 := constant S_ .f32 0x7F800000#32
  let main_v60 : FVec F S47 .f32 := broadcastInDim S47 ![] bcast_S_S47 main_cst_22
  let main_v61 : IVec S47 1 := cmpf .olt main_v59 main_v60
  let main_c_23 : IVec S_ 1 := constantI S_ 1 1#1
  let main_v62 : IVec S_ 1 := (fun x v => Host.reduce IntOp.andi x v reducesTo_S47_S_d0 h_S_) main_v61 main_c_23
  let main_v63 : IVec S_ 1 := andi main_v58 main_v62
  let main_v64 : FVec F S47x128 .f32 := Host.absf main_arg14
  let main_cst_24 : FVec F S_ .f32 := constant S_ .f32 0x7F800000#32
  let main_v65 : FVec F S47x128 .f32 := broadcastInDim S47x128 ![] bcast_S_S47x128 main_cst_24
  let main_v66 : IVec S47x128 1 := cmpf .olt main_v64 main_v65
  let main_c_25 : IVec S_ 1 := constantI S_ 1 1#1
  let main_v67 : IVec S_ 1 := (fun x v => Host.reduce IntOp.andi x v reducesTo_S47x128_S_d0_1 h_S_) main_v66 main_c_25
  fn_part4 (F := F) main_v63 main_v67

def fn_part2 {F : FTy → Type} [FloatOps F] (main_arg8 : FVec F S128 .f32) (main_arg9 : FVec F S128x128 .f32) (main_arg10 : FVec F S128 .f32) (main_arg11 : FVec F S128 .f32) (main_arg12 : FVec F S47x128 .f32) (main_arg13 : FVec F S47 .f32) (main_arg14 : FVec F S47x128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_v48 main_v49 main_v50

def fn_part1 {F : FTy → Type} [FloatOps F] (main_arg5 : FVec F S128 .f32) (main_arg6 : FVec F S128 .f32) (main_arg7 : FVec F S128x128 .f32) (main_arg8 : FVec F S128 .f32) (main_arg9 : FVec F S128x128 .f32) (main_arg10 : FVec F S128 .f32) (main_arg11 : FVec F S128 .f32) (main_arg12 : FVec F S47x128 .f32) (main_arg13 : FVec F S47 .f32) (main_arg14 : FVec F S47x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S128 .f32) (main_arg7 : FVec F S128x128 .f32) (main_arg8 : FVec F S128 .f32) (main_arg9 : FVec F S128x128 .f32) (main_arg10 : FVec F S128 .f32) (main_arg11 : FVec F S128 .f32) (main_arg12 : FVec F S47x128 .f32) (main_arg13 : FVec F S47 .f32) (main_arg14 : FVec F S47x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_arg12 main_arg13 main_arg14 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S47x128 : Shape := ⟨2, ![47, 128]⟩
abbrev S47 : Shape := ⟨1, ![47]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S5000x128 : Shape := ⟨2, ![5000, 128]⟩
abbrev S128x47 : Shape := ⟨2, ![128, 47]⟩
abbrev S1x47 : Shape := ⟨2, ![1, 47]⟩
abbrev S100000x47 : Shape := ⟨2, ![100000, 47]⟩
abbrev S5000x47 : Shape := ⟨2, ![5000, 47]⟩

abbrev nBuf : Space → Nat
  | .hbm => 135
  | .vmem => 43
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x128, .f32⟩
  | 5 => ⟨S128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128, .f32⟩
  | 12 => ⟨S47x128, .f32⟩
  | 13 => ⟨S47, .f32⟩
  | 14 => ⟨S47x128, .f32⟩
  | 15 => ⟨S1x1600000, .i32⟩
  | 16 => ⟨S1600000, .i32⟩
  | 17 => ⟨S1x1600000, .i32⟩
  | 18 => ⟨S1600000, .i32⟩
  | 19 => ⟨S_, .f32⟩
  | 20 => ⟨S1600000, .f32⟩
  | 21 => ⟨S_, .f32⟩
  | 22 => ⟨S100000, .f32⟩
  | 23 => ⟨S1600000x1, .i32⟩
  | 24 => ⟨S100000, .f32⟩
  | 25 => ⟨S_, .f32⟩
  | 26 => ⟨S100000, .f32⟩
  | 27 => ⟨S100000, .f32⟩
  | 28 => ⟨S_, .f32⟩
  | 29 => ⟨S100000, .f32⟩
  | 30 => ⟨S100000, .f32⟩
  | 31 => ⟨S_, .i32⟩
  | 32 => ⟨S1600000, .i32⟩
  | 33 => ⟨S1600000, .i1⟩
  | 34 => ⟨S_, .i32⟩
  | 35 => ⟨S1600000, .i32⟩
  | 36 => ⟨S1600000, .i32⟩
  | 37 => ⟨S1600000, .i32⟩
  | 38 => ⟨S1600000x1, .i32⟩
  | 39 => ⟨S1600000x128, .f32⟩
  | 40 => ⟨S_, .f32⟩
  | 41 => ⟨S100000x128, .f32⟩
  | 42 => ⟨S1600000x1, .i32⟩
  | 43 => ⟨S100000x128, .f32⟩
  | 44 => ⟨S100000x1, .f32⟩
  | 45 => ⟨S100000x128, .f32⟩
  | 46 => ⟨S100000x128, .f32⟩
  | 47 => ⟨S128x128, .f32⟩
  | 48 => ⟨S128x128, .f32⟩
  | 49 => ⟨S1x128, .f32⟩
  | 50 => ⟨S100000x128, .f32⟩
  | 51 => ⟨S1x128, .f32⟩
  | 52 => ⟨S1x128, .f32⟩
  | 53 => ⟨S128, .f32⟩
  | 54 => ⟨S_, .f32⟩
  | 55 => ⟨S128, .f32⟩
  | 56 => ⟨S128, .f32⟩
  | 57 => ⟨S128, .f32⟩
  | 58 => ⟨S_, .f32⟩
  | 59 => ⟨S128, .f32⟩
  | 60 => ⟨S128, .f32⟩
  | 61 => ⟨S128, .f32⟩
  | 62 => ⟨S128, .f32⟩
  | 63 => ⟨S_, .f32⟩
  | 64 => ⟨S128, .f32⟩
  | 65 => ⟨S128, .f32⟩
  | 66 => ⟨S128, .f32⟩
  | 67 => ⟨S128, .f32⟩
  | 68 => ⟨S128, .f32⟩
  | 69 => ⟨S128, .f32⟩
  | 70 => ⟨S1x128, .f32⟩
  | 71 => ⟨S1x128, .f32⟩
  | 72 => ⟨S100000x128, .f32⟩
  | 73 => ⟨S_, .i32⟩
  | 74 => ⟨S1600000, .i32⟩
  | 75 => ⟨S1600000, .i1⟩
  | 76 => ⟨S_, .i32⟩
  | 77 => ⟨S1600000, .i32⟩
  | 78 => ⟨S1600000, .i32⟩
  | 79 => ⟨S1600000, .i32⟩
  | 80 => ⟨S1600000x1, .i32⟩
  | 81 => ⟨S1600000x128, .f32⟩
  | 82 => ⟨S_, .f32⟩
  | 83 => ⟨S100000x128, .f32⟩
  | 84 => ⟨S1600000x1, .i32⟩
  | 85 => ⟨S100000x128, .f32⟩
  | 86 => ⟨S100000x1, .f32⟩
  | 87 => ⟨S100000x128, .f32⟩
  | 88 => ⟨S100000x128, .f32⟩
  | 89 => ⟨S128x128, .f32⟩
  | 90 => ⟨S128x128, .f32⟩
  | 91 => ⟨S1x128, .f32⟩
  | 92 => ⟨S100000x128, .f32⟩
  | 93 => ⟨S1x128, .f32⟩
  | 94 => ⟨S1x128, .f32⟩
  | 95 => ⟨S128, .f32⟩
  | 96 => ⟨S_, .f32⟩
  | 97 => ⟨S128, .f32⟩
  | 98 => ⟨S128, .f32⟩
  | 99 => ⟨S128, .f32⟩
  | 100 => ⟨S_, .f32⟩
  | 101 => ⟨S128, .f32⟩
  | 102 => ⟨S128, .f32⟩
  | 103 => ⟨S128, .f32⟩
  | 104 => ⟨S128, .f32⟩
  | 105 => ⟨S_, .f32⟩
  | 106 => ⟨S128, .f32⟩
  | 107 => ⟨S128, .f32⟩
  | 108 => ⟨S128, .f32⟩
  | 109 => ⟨S128, .f32⟩
  | 110 => ⟨S128, .f32⟩
  | 111 => ⟨S128, .f32⟩
  | 112 => ⟨S1x128, .f32⟩
  | 113 => ⟨S1x128, .f32⟩
  | 114 => ⟨S100000x128, .f32⟩
  | 115 => ⟨S_, .i32⟩
  | 116 => ⟨S1600000, .i32⟩
  | 117 => ⟨S1600000, .i1⟩
  | 118 => ⟨S_, .i32⟩
  | 119 => ⟨S1600000, .i32⟩
  | 120 => ⟨S1600000, .i32⟩
  | 121 => ⟨S1600000, .i32⟩
  | 122 => ⟨S1600000x1, .i32⟩
  | 123 => ⟨S1600000x128, .f32⟩
  | 124 => ⟨S_, .f32⟩
  | 125 => ⟨S100000x128, .f32⟩
  | 126 => ⟨S1600000x1, .i32⟩
  | 127 => ⟨S100000x128, .f32⟩
  | _ => ⟨S100000x128, .f32⟩

abbrev hbmTy0_1 (i : Nat) : BufTy := match i % 128 with
  | 0 => ⟨S100000x1, .f32⟩
  | 1 => ⟨S100000x128, .f32⟩
  | 2 => ⟨S100000x128, .f32⟩
  | 3 => ⟨S128x47, .f32⟩
  | 4 => ⟨S128x47, .f32⟩
  | 5 => ⟨S1x47, .f32⟩
  | 6 => ⟨S100000x47, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | .local _ .vmem, ⟨9, _⟩ => ⟨S1x128, .f32⟩
  | .local _ .vmem, ⟨10, _⟩ => ⟨S1x128, .f32⟩
  | .local _ .vmem, ⟨11, _⟩ => ⟨S5000x128, .f32⟩
  | .local _ .vmem, ⟨12, _⟩ => ⟨S5000x128, .f32⟩
  | .local _ .vmem, ⟨13, _⟩ => ⟨S1x128, .f32⟩
  | .local _ .vmem, ⟨14, _⟩ => ⟨S1x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S128x128, .f32⟩
  | .local _ .vmem, ⟨22, _⟩ => ⟨S1x128, .f32⟩
  | .local _ .vmem, ⟨23, _⟩ => ⟨S128x128, .f32⟩
  | .local _ .vmem, ⟨24, _⟩ => ⟨S5000x128, .f32⟩
  | .local _ .vmem, ⟨25, _⟩ => ⟨S5000x128, .f32⟩
  | .local _ .vmem, ⟨26, _⟩ => ⟨S1x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | .local _ .vmem, ⟨30, _⟩ => ⟨S1x128, .f32⟩
  | .local _ .vmem, ⟨31, _⟩ => ⟨S1x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | .local _ .vmem, ⟨38, _⟩ => ⟨S128x47, .f32⟩
  | .local _ .vmem, ⟨39, _⟩ => ⟨S1x47, .f32⟩
  | .local _ .vmem, ⟨40, _⟩ => ⟨S128x47, .f32⟩
  | .local _ .vmem, ⟨41, _⟩ => ⟨S5000x47, .f32⟩
  | .local _ .vmem, ⟨42, _⟩ => ⟨S5000x47, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_cst_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_1 : Ref sig .tc := ⟨.hbm, 25, rfl⟩
abbrev main_v8 : Ref sig .tc := ⟨.hbm, 26, rfl⟩
abbrev main_v9 : Ref sig .tc := ⟨.hbm, 27, rfl⟩
abbrev main_cst_2 : Ref sig .tc := ⟨.hbm, 28, rfl⟩
abbrev main_v10 : Ref sig .tc := ⟨.hbm, 29, rfl⟩
abbrev main_v11 : Ref sig .tc := ⟨.hbm, 30, rfl⟩
abbrev main_c : Ref sig .tc := ⟨.hbm, 31, rfl⟩
abbrev main_v12 : Ref sig .tc := ⟨.hbm, 32, rfl⟩
abbrev main_v13 : Ref sig .tc := ⟨.hbm, 33, rfl⟩
abbrev main_c_3 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_cst_4 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28_0 : Ref sig .tc := ⟨.hbm, 50, rfl⟩
abbrev main_v28_1 : Ref sig .tc := ⟨.hbm, 51, rfl⟩
abbrev main_v28_2 : Ref sig .tc := ⟨.hbm, 52, rfl⟩
abbrev main_v29 : Ref sig .tc := ⟨.hbm, 53, rfl⟩
abbrev main_cst_5 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst_6 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_cst_7 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_c_8 : Ref sig .tc := ⟨.hbm, 73, rfl⟩
abbrev main_v46 : Ref sig .tc := ⟨.hbm, 74, rfl⟩
abbrev main_v47 : Ref sig .tc := ⟨.hbm, 75, rfl⟩
abbrev main_c_9 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_cst_10 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62_0 : Ref sig .tc := ⟨.hbm, 92, rfl⟩
abbrev main_v62_1 : Ref sig .tc := ⟨.hbm, 93, rfl⟩
abbrev main_v62_2 : Ref sig .tc := ⟨.hbm, 94, rfl⟩
abbrev main_v63 : Ref sig .tc := ⟨.hbm, 95, rfl⟩
abbrev main_cst_11 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_cst_12 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_cst_13 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_c_14 : Ref sig .tc := ⟨.hbm, 115, rfl⟩
abbrev main_v80 : Ref sig .tc := ⟨.hbm, 116, rfl⟩
abbrev main_v81 : Ref sig .tc := ⟨.hbm, 117, rfl⟩
abbrev main_c_15 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_cst_16 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg3_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc2_stg6_0 : Ref sig .tc := ⟨.vmem, 26, rfl⟩
abbrev cc2_stg7_0 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg3_1 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg1_1 : Ref sig .tc := ⟨.vmem, 37, rfl⟩
abbrev cc4_stg2_0 : Ref sig .tc := ⟨.vmem, 38, rfl⟩
abbrev cc4_stg3_0 : Ref sig .tc := ⟨.vmem, 39, rfl⟩
abbrev cc4_stg4_0 : Ref sig .tc := ⟨.vmem, 40, rfl⟩
abbrev cc4_stg5_0 : Ref sig .tc := ⟨.vmem, 41, rfl⟩
abbrev cc4_stg5_1 : Ref sig .tc := ⟨.vmem, 42, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem3_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem5_1 : DmaSem sig := 25
abbrev cc2_sem6_0 : DmaSem sig := 26
abbrev cc2_sem7_0 : DmaSem sig := 27
abbrev cc3_sem0_0 : DmaSem sig := 28
abbrev cc3_sem0_1 : DmaSem sig := 29
abbrev cc3_sem1_0 : DmaSem sig := 30
abbrev cc3_sem2_0 : DmaSem sig := 31
abbrev cc3_sem3_0 : DmaSem sig := 32
abbrev cc3_sem3_1 : DmaSem sig := 33
abbrev cc4_sem0_0 : DmaSem sig := 34
abbrev cc4_sem0_1 : DmaSem sig := 35
abbrev cc4_sem1_0 : DmaSem sig := 36
abbrev cc4_sem1_1 : DmaSem sig := 37
abbrev cc4_sem2_0 : DmaSem sig := 38
abbrev cc4_sem3_0 : DmaSem sig := 39
abbrev cc4_sem4_0 : DmaSem sig := 40
abbrev cc4_sem5_0 : DmaSem sig := 41
abbrev cc4_sem5_1 : DmaSem sig := 42

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x47 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x47 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x47 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x47 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S128 : S5000x128.Reduces [0] S128
  shapeCasts_S1x128_S128 : S1x128.ShapeCasts S128
  bcast_S_S128 : S_.BroadcastsInDim S128 (![] : Fin 0 → Fin S128.rank)
  transposes_S47x128_S128x47_1_0 : S47x128.Transposes [1, 0] S128x47
  shapeCasts_S47_S1x47 : S47.ShapeCasts S1x47
  inb_S128x47_S128x47_0_0 : ∀ a, (![0, 0] : Fin 2 → Nat) a + S128x47.size a ≤ S128x47.size a
  h_S128x47 : 0 < S128x47.numel
  shapeCasts_S128x47_S128x47 : S128x47.ShapeCasts S128x47
  inb_S1x47_S1x47_0_0 : ∀ a, (![0, 0] : Fin 2 → Nat) a + S1x47.size a ≤ S1x47.size a
  h_S1x47 : 0 < S1x47.numel
  shapeCasts_S1x47_S1x47 : S1x47.ShapeCasts S1x47
  broadcasts_S1x47_S5000x47 : S1x47.Broadcasts S5000x47
  inb_S5000x47_S5000x47_0_0 : ∀ a, (![0, 0] : Fin 2 → Nat) a + S5000x47.size a ≤ S5000x47.size a
  h_S5000x47 : 0 < S5000x47.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x47_S5000x47_1_0_0_1_n_n_wf : DotDims.WF S5000x128 S128x47 S5000x47 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .f32 = 32 ∨ (Rect.block (s := S100000x128) S5000x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S100000x128.size a
  hwx3_3 : ∀ i : grid3.Coords, EltTy.bits .f32 = 32 ∨ (Rect.block (s := S100000x128) S5000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S100000x128.size a
  hwx4_1 : ∀ i : grid4.Coords, EltTy.bits .f32 = 32 ∨ (Rect.block (s := S100000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x47.size a ≤ S128x47.size a
  hwx4_2 : ∀ i : grid4.Coords, EltTy.bits .f32 = 32 ∨ (Rect.block (s := S128x47) S128x47.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x47.size a ≤ S1x47.size a
  hwx4_3 : ∀ i : grid4.Coords, EltTy.bits .f32 = 32 ∨ (Rect.block (s := S1x47) S1x47.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x47.size a ≤ S128x47.size a
  hwx4_4 : ∀ i : grid4.Coords, EltTy.bits .f32 = 32 ∨ (Rect.block (s := S128x47) S128x47.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x47.size a ≤ S100000x47.size a
  hwx4_5 : ∀ i : grid4.Coords, EltTy.bits .f32 = 32 ∨ (Rect.block (s := S100000x47) S5000x47.size (cc4_transform_5 i) (hinb4_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x47_S5000x47_1_0_0_1_n_n : DotDims S5000x128 S128x47 S5000x47 where
  lhsContracting := [1]
  rhsContracting := [0]
  lhsNonContracting := [0]
  rhsNonContracting := [1]
  lhsBatch := []
  rhsBatch := []
  wf := dot_S5000x128_S128x47_S5000x47_1_0_0_1_n_n_wf

abbrev win0_0 : Pipeline.Window sig grid0 :=
  Pipeline.Window.ofSpec (Memref.whole main_v24) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v27) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28_0) S5000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v28_1) S1x128.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v28_2) S1x128.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v28_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v44) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v58) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v45) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v59) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v61) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v60) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v62_0) S5000x128.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v62_1) S1x128.size cc2_transform_6 reads2_6 true true 1 stage2_6 sem2_6
    hrank2 hreads2_6 hinb2_6 nbuf2_6 (Memref.isWhole_whole _) hwx2_6 hstage2_6

abbrev win2_7 : Pipeline.Window sig grid2 :=
  Pipeline.Window.ofSpec (Memref.whole main_v62_2) S1x128.size cc2_transform_7 reads2_7 true true 1 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v62_0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v77) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v78) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v79) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v92) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v79) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v93) S128x47.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v95) S1x47.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v94) S128x47.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v96) S5000x47.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S47x128 : Shape := ⟨2, ![47, 128]⟩
abbrev S47 : Shape := ⟨1, ![47]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S128x47 : Shape := ⟨2, ![128, 47]⟩
abbrev S100000x47 : Shape := ⟨2, ![100000, 47]⟩
abbrev S1x47 : Shape := ⟨2, ![1, 47]⟩

abbrev nBuf : Space → Nat
  | .hbm => 192
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x128, .f32⟩
  | 5 => ⟨S128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128, .f32⟩
  | 12 => ⟨S47x128, .f32⟩
  | 13 => ⟨S47, .f32⟩
  | 14 => ⟨S47x128, .f32⟩
  | 15 => ⟨S1x1600000, .i32⟩
  | 16 => ⟨S1600000, .i32⟩
  | 17 => ⟨S1x1600000, .i32⟩
  | 18 => ⟨S1600000, .i32⟩
  | 19 => ⟨S_, .i32⟩
  | 20 => ⟨S1600000, .i32⟩
  | 21 => ⟨S1600000, .i1⟩
  | 22 => ⟨S_, .i32⟩
  | 23 => ⟨S1600000, .i32⟩
  | 24 => ⟨S1600000, .i32⟩
  | 25 => ⟨S1600000, .i32⟩
  | 26 => ⟨S1600000x1, .i32⟩
  | 27 => ⟨S1600000x128, .f32⟩
  | 28 => ⟨S_, .f32⟩
  | 29 => ⟨S100000x128, .f32⟩
  | 30 => ⟨S1600000x1, .i32⟩
  | 31 => ⟨S100000x128, .f32⟩
  | 32 => ⟨S_, .f32⟩
  | 33 => ⟨S1600000, .f32⟩
  | 34 => ⟨S_, .f32⟩
  | 35 => ⟨S100000, .f32⟩
  | 36 => ⟨S1600000x1, .i32⟩
  | 37 => ⟨S100000, .f32⟩
  | 38 => ⟨S_, .f32⟩
  | 39 => ⟨S100000, .f32⟩
  | 40 => ⟨S100000, .f32⟩
  | 41 => ⟨S100000x1, .f32⟩
  | 42 => ⟨S100000x128, .f32⟩
  | 43 => ⟨S100000x128, .f32⟩
  | 44 => ⟨S128x128, .f32⟩
  | 45 => ⟨S100000x128, .f32⟩
  | 46 => ⟨S1x128, .f32⟩
  | 47 => ⟨S100000x128, .f32⟩
  | 48 => ⟨S100000x128, .f32⟩
  | 49 => ⟨S128x128, .f32⟩
  | 50 => ⟨S100000x128, .f32⟩
  | 51 => ⟨S100000x128, .f32⟩
  | 52 => ⟨S_, .f32⟩
  | 53 => ⟨S128, .f32⟩
  | 54 => ⟨S_, .f32⟩
  | 55 => ⟨S128, .f32⟩
  | 56 => ⟨S128, .f32⟩
  | 57 => ⟨S1x128, .f32⟩
  | 58 => ⟨S100000x128, .f32⟩
  | 59 => ⟨S100000x128, .f32⟩
  | 60 => ⟨S100000x128, .f32⟩
  | 61 => ⟨S_, .f32⟩
  | 62 => ⟨S128, .f32⟩
  | 63 => ⟨S_, .f32⟩
  | 64 => ⟨S128, .f32⟩
  | 65 => ⟨S128, .f32⟩
  | 66 => ⟨S1x128, .f32⟩
  | 67 => ⟨S100000x128, .f32⟩
  | 68 => ⟨S100000x128, .f32⟩
  | 69 => ⟨S_, .f32⟩
  | 70 => ⟨S128, .f32⟩
  | 71 => ⟨S128, .f32⟩
  | 72 => ⟨S128, .f32⟩
  | 73 => ⟨S1x128, .f32⟩
  | 74 => ⟨S100000x128, .f32⟩
  | 75 => ⟨S100000x128, .f32⟩
  | 76 => ⟨S1x128, .f32⟩
  | 77 => ⟨S100000x128, .f32⟩
  | 78 => ⟨S100000x128, .f32⟩
  | 79 => ⟨S1x128, .f32⟩
  | 80 => ⟨S100000x128, .f32⟩
  | 81 => ⟨S100000x128, .f32⟩
  | 82 => ⟨S_, .f32⟩
  | 83 => ⟨S100000x128, .f32⟩
  | 84 => ⟨S100000x128, .f32⟩
  | 85 => ⟨S1x1600000, .i32⟩
  | 86 => ⟨S1600000, .i32⟩
  | 87 => ⟨S1x1600000, .i32⟩
  | 88 => ⟨S1600000, .i32⟩
  | 89 => ⟨S_, .i32⟩
  | 90 => ⟨S1600000, .i32⟩
  | 91 => ⟨S1600000, .i1⟩
  | 92 => ⟨S_, .i32⟩
  | 93 => ⟨S1600000, .i32⟩
  | 94 => ⟨S1600000, .i32⟩
  | 95 => ⟨S1600000, .i32⟩
  | 96 => ⟨S1600000x1, .i32⟩
  | 97 => ⟨S1600000x128, .f32⟩
  | 98 => ⟨S_, .f32⟩
  | 99 => ⟨S100000x128, .f32⟩
  | 100 => ⟨S1600000x1, .i32⟩
  | 101 => ⟨S100000x128, .f32⟩
  | 102 => ⟨S_, .f32⟩
  | 103 => ⟨S1600000, .f32⟩
  | 104 => ⟨S_, .f32⟩
  | 105 => ⟨S100000, .f32⟩
  | 106 => ⟨S1600000x1, .i32⟩
  | 107 => ⟨S100000, .f32⟩
  | 108 => ⟨S_, .f32⟩
  | 109 => ⟨S100000, .f32⟩
  | 110 => ⟨S100000, .f32⟩
  | 111 => ⟨S100000x1, .f32⟩
  | 112 => ⟨S100000x128, .f32⟩
  | 113 => ⟨S100000x128, .f32⟩
  | 114 => ⟨S128x128, .f32⟩
  | 115 => ⟨S100000x128, .f32⟩
  | 116 => ⟨S1x128, .f32⟩
  | 117 => ⟨S100000x128, .f32⟩
  | 118 => ⟨S100000x128, .f32⟩
  | 119 => ⟨S128x128, .f32⟩
  | 120 => ⟨S100000x128, .f32⟩
  | 121 => ⟨S100000x128, .f32⟩
  | 122 => ⟨S_, .f32⟩
  | 123 => ⟨S128, .f32⟩
  | 124 => ⟨S_, .f32⟩
  | 125 => ⟨S128, .f32⟩
  | 126 => ⟨S128, .f32⟩
  | 127 => ⟨S1x128, .f32⟩
  | _ => ⟨S100000x128, .f32⟩

abbrev hbmTy0_1 (i : Nat) : BufTy := match i % 128 with
  | 0 => ⟨S100000x128, .f32⟩
  | 1 => ⟨S100000x128, .f32⟩
  | 2 => ⟨S100000x128, .f32⟩
  | 3 => ⟨S_, .f32⟩
  | 4 => ⟨S128, .f32⟩
  | 5 => ⟨S_, .f32⟩
  | 6 => ⟨S128, .f32⟩
  | 7 => ⟨S128, .f32⟩
  | 8 => ⟨S1x128, .f32⟩
  | 9 => ⟨S100000x128, .f32⟩
  | 10 => ⟨S100000x128, .f32⟩
  | 11 => ⟨S_, .f32⟩
  | 12 => ⟨S128, .f32⟩
  | 13 => ⟨S128, .f32⟩
  | 14 => ⟨S128, .f32⟩
  | 15 => ⟨S1x128, .f32⟩
  | 16 => ⟨S100000x128, .f32⟩
  | 17 => ⟨S100000x128, .f32⟩
  | 18 => ⟨S1x128, .f32⟩
  | 19 => ⟨S100000x128, .f32⟩
  | 20 => ⟨S100000x128, .f32⟩
  | 21 => ⟨S1x128, .f32⟩
  | 22 => ⟨S100000x128, .f32⟩
  | 23 => ⟨S100000x128, .f32⟩
  | 24 => ⟨S_, .f32⟩
  | 25 => ⟨S100000x128, .f32⟩
  | 26 => ⟨S100000x128, .f32⟩
  | 27 => ⟨S1x1600000, .i32⟩
  | 28 => ⟨S1600000, .i32⟩
  | 29 => ⟨S1x1600000, .i32⟩
  | 30 => ⟨S1600000, .i32⟩
  | 31 => ⟨S_, .i32⟩
  | 32 => ⟨S1600000, .i32⟩
  | 33 => ⟨S1600000, .i1⟩
  | 34 => ⟨S_, .i32⟩
  | 35 => ⟨S1600000, .i32⟩
  | 36 => ⟨S1600000, .i32⟩
  | 37 => ⟨S1600000, .i32⟩
  | 38 => ⟨S1600000x1, .i32⟩
  | 39 => ⟨S1600000x128, .f32⟩
  | 40 => ⟨S_, .f32⟩
  | 41 => ⟨S100000x128, .f32⟩
  | 42 => ⟨S1600000x1, .i32⟩
  | 43 => ⟨S100000x128, .f32⟩
  | 44 => ⟨S_, .f32⟩
  | 45 => ⟨S1600000, .f32⟩
  | 46 => ⟨S_, .f32⟩
  | 47 => ⟨S100000, .f32⟩
  | 48 => ⟨S1600000x1, .i32⟩
  | 49 => ⟨S100000, .f32⟩
  | 50 => ⟨S_, .f32⟩
  | 51 => ⟨S100000, .f32⟩
  | 52 => ⟨S100000, .f32⟩
  | 53 => ⟨S100000x1, .f32⟩
  | 54 => ⟨S100000x128, .f32⟩
  | 55 => ⟨S100000x128, .f32⟩
  | 56 => ⟨S128x47, .f32⟩
  | 57 => ⟨S100000x47, .f32⟩
  | 58 => ⟨S1x47, .f32⟩
  | 59 => ⟨S100000x47, .f32⟩
  | 60 => ⟨S100000x47, .f32⟩
  | 61 => ⟨S128x47, .f32⟩
  | 62 => ⟨S100000x47, .f32⟩
  | 63 => ⟨S100000x47, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_1 : Ref sig .tc := ⟨.hbm, 32, rfl⟩
abbrev main_v14 : Ref sig .tc := ⟨.hbm, 33, rfl⟩
abbrev main_cst_2 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_3 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_4 : Ref sig .tc := ⟨.hbm, 52, rfl⟩
abbrev main_v31 : Ref sig .tc := ⟨.hbm, 53, rfl⟩
abbrev main_cst_5 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_6 : Ref sig .tc := ⟨.hbm, 61, rfl⟩
abbrev main_v38 : Ref sig .tc := ⟨.hbm, 62, rfl⟩
abbrev main_cst_7 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_8 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_call0_cst : Ref sig .tc := ⟨.hbm, 82, rfl⟩
abbrev main_call0_v0 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_c_9 : Ref sig .tc := ⟨.hbm, 89, rfl⟩
abbrev main_v61 : Ref sig .tc := ⟨.hbm, 90, rfl⟩
abbrev main_v62 : Ref sig .tc := ⟨.hbm, 91, rfl⟩
abbrev main_c_10 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_cst_11 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_cst_12 : Ref sig .tc := ⟨.hbm, 102, rfl⟩
abbrev main_v71 : Ref sig .tc := ⟨.hbm, 103, rfl⟩
abbrev main_cst_13 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_cst_14 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_cst_15 : Ref sig .tc := ⟨.hbm, 122, rfl⟩
abbrev main_v88 : Ref sig .tc := ⟨.hbm, 123, rfl⟩
abbrev main_cst_16 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_cst_17 : Ref sig .tc := ⟨.hbm, 131, rfl⟩
abbrev main_v95 : Ref sig .tc := ⟨.hbm, 132, rfl⟩
abbrev main_cst_18 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_cst_19 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_call1_cst : Ref sig .tc := ⟨.hbm, 152, rfl⟩
abbrev main_call1_v0 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_c_20 : Ref sig .tc := ⟨.hbm, 159, rfl⟩
abbrev main_v118 : Ref sig .tc := ⟨.hbm, 160, rfl⟩
abbrev main_v119 : Ref sig .tc := ⟨.hbm, 161, rfl⟩
abbrev main_c_21 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_cst_22 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_cst_23 : Ref sig .tc := ⟨.hbm, 172, rfl⟩
abbrev main_v128 : Ref sig .tc := ⟨.hbm, 173, rfl⟩
abbrev main_cst_24 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_cst_25 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  transposes_S47x128_S128x47_1_0 : S47x128.Transposes [1, 0] S128x47
  bcast_S47_S1x47_1 : S47.BroadcastsInDim S1x47 (![1] : Fin 1 → Fin S1x47.rank)
  bcast_S1x47_S100000x47_0_1 : S1x47.BroadcastsInDim S100000x47 (![0, 1] : Fin 2 → Fin S100000x47.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  dot_S100000x128_S128x47_S100000x47_1_0_0_1_n_n_wf : DotDims.WF S100000x128 S128x47 S100000x47 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x47_S100000x47_1_0_0_1_n_n : DotDims S100000x128 S128x47 S100000x47 where
  lhsContracting := [1]
  rhsContracting := [0]
  lhsNonContracting := [0]
  rhsNonContracting := [1]
  lhsBatch := []
  rhsBatch := []
  wf := dot_S100000x128_S128x47_S100000x47_1_0_0_1_n_n_wf

class Facts : Prop extends Facts₀ where

variable [Facts]
-- ==== Proof.KRun.lean ====
/-
  The idealized kernel's run with its result named.  The program is five kernel launches among stretches of host
  operations; the contents of every buffer at each boundary are a fold from the launch memory (a stretch applies its
  operations, a launch replaces its arrays by what its write-backs leave).  Every weakly fair execution terminates
  with the result buffer at the last boundary's contents and the arguments as launched.
-/
import proofs.«156934_j7851200217408_1_alg».proof.Proof.Gen.KernelIdeal.Frame

set_option maxRecDepth 16384

noncomputable section

namespace Cert.Sage.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, each argument as launched. -/
theorem run_value : θ_run defs (onTc (τ := τ) (main (F := F))) ⟨m, fun _ => 0, ρ⟩ (fun r => ∀ c : Dev nD,
      r.2.mem ((c.tc : Thread nD τ).loc main_v96) = W10 m ρ c (Proc.devRef .tc main_v96)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v96 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c),
       (h c _ (mem_uc main_arg13 (by decide))).trans (W10_main_arg13 m ρ c),
       (h c _ (mem_uc main_arg14 (by decide))).trans (W10_main_arg14 m ρ c)⟩)

end Cert.Sage.KRun

end
-- ==== Proof.Spec.lean ====
/-
  One SAGE layer's dense part, as functions of whole arrays read index by index over the extended reals.

  lin   : row p of the aggregate times the left weights plus row p of the features times the right weights plus the
          bias, column by column;
  colSum, colSumSq : the column sums of a matrix and of its squares over all 100000 rows, started at zero;
  bnRelu : a column-wise scale and shift followed by the positive part.
-/
import Idealize.ShloMosaic.PureOps.Ideal
import Idealize.ShloMosaic.Lib.ValueIdx

noncomputable section

open scoped BigOperators

namespace Cert.Sage.Spec

open Idealize.ShloMosaic Idealize.ShloMosaic.ValueIdx

/-- Matrices with r rows and c columns of extended reals. -/
abbrev M (r c : Nat) : Type := (⟨2, ![r, c]⟩ : Shape).Idx → EReal

/-- Entry (p, q) of the linear combine: (Σₖ a[p,k]·wl[k,q] + Σₖ h[p,k]·wr[k,q]) + bl[0,q]. -/
def linE {C : Nat} (a h : M 100000 128) (wl wr : M 128 C) (bl : M 1 C) (p : Fin 100000) (q : Fin C) : EReal :=
  (∑ k : Fin 128, a (ix2 p k) * wl (ix2 k q) + ∑ k : Fin 128, h (ix2 p k) * wr (ix2 k q)) + bl (ix2 (0 : Fin 1) q)

/-- The linear combine as a matrix. -/
def lin {C : Nat} (a h : M 100000 128) (wl wr : M 128 C) (bl : M 1 C) : M 100000 C :=
  fun i => linE a h wl wr bl (i 0) (i 1)

/-- The sum of column q over the rows below n (n ≤ 100000 in every use; rows past the end count as zero). -/
def partialCol (x : M 100000 128) (n : Nat) (q : Fin 128) : EReal :=
  ∑ i ∈ Finset.range n, if h : i < 100000 then x (ix2 ⟨i, h⟩ q) else 0

/-- Column sums over all rows, started at zero, as a one-row matrix. -/
def colSum (x : M 100000 128) : M 1 128 := fun j => (0 : EReal) + ∑ r : Fin 100000, x (ix2 r (j 1))

/-- Column sums of squares over all rows, started at zero. -/
def colSumSq (x : M 100000 128) : M 1 128 := fun j => (0 : EReal) + ∑ r : Fin 100000, x (ix2 r (j 1)) * x (ix2 r (j 1))

/-- Scale and shift column by column, then the positive part. -/
def bnRelu (x : M 100000 128) (sc sh : M 1 128) : M 100000 128 :=
  fun i => max (x i * sc (ix2 (0 : Fin 1) (i 1)) + sh (ix2 (0 : Fin 1) (i 1))) 0

theorem lin_apply {C : Nat} (a h : M 100000 128) (wl wr : M 128 C) (bl : M 1 C) (p : Fin 100000) (q : Fin C) :
    lin a h wl wr bl (ix2 p q) = linE a h wl wr bl p q := rfl

theorem bnRelu_apply (x : M 100000 128) (sc sh : M 1 128) (p : Fin 100000) (q : Fin 128) :
    bnRelu x sc sh (ix2 p q) = max (x (ix2 p q) * sc (ix2 (0 : Fin 1) q) + sh (ix2 (0 : Fin 1) q)) 0 := rfl

/-- The sum over all rows is the partial sum at 100000. -/
theorem partialCol_full (x : M 100000 128) (q : Fin 128) :
    partialCol x 100000 q = ∑ r : Fin 100000, x (ix2 r q) := by
  unfold partialCol
  rw [← Fin.sum_univ_eq_sum_range (fun i => if h : i < 100000 then x (ix2 ⟨i, h⟩ q) else 0) 100000]
  refine Finset.sum_congr rfl fun r _ => ?_
  rw [dif_pos r.isLt]

/-- One more tile of s rows: the partial sum advances by the tile's sum. -/
theorem partialCol_add (x : M 100000 128) (n s : Nat) (q : Fin 128) :
    partialCol x (n + s) q = partialCol x n q
      + ∑ i ∈ Finset.range s, if h : n + i < 100000 then x (ix2 ⟨n + i, h⟩ q) else 0 := by
  unfold partialCol
  rw [Finset.sum_range_add]

end Cert.Sage.Spec

end
-- ==== Proof.KHost.lean ====
/-
  The host operations between the kernel launches, as functions of whole arrays, and what the buffers hold at each
  boundary of the program.

  Before each linear kernel the host gathers the source rows of the features along the edges, adds them up at the
  destination rows and multiplies row n by the reciprocal of max(deg n, 1); it transposes the two weight matrices and
  lays the bias out as one row.  After a linear kernel with statistics it turns the column sums s and sums of squares ss
  into the batch norm's scale g · rsqrt(ss/N − (s/N)² + ε) and shift b − (s/N) · scale, each laid out as one row.
-/
import proofs.«156934_j7851200217408_1_alg».proof.Proof.Gen.KernelIdeal.Frame
import proofs.«156934_j7851200217408_1_alg».proof.Proof.Spec
import Idealize.ShloMosaic.Lib.StableHlo.Run

set_option maxRecDepth 16384

noncomputable section

namespace Cert.Sage.KHost

open Cert.KernelIdeal Cert.KernelIdeal.Gen
open Idealize.ShloMosaic Idealize.ShloMosaic.TcCoe Idealize.SL.Sem Idealize.ShloMosaic.StableHlo

/-! ## The host functions -/

/-- The destination row of every edge: row 0 of the edge list. -/
def dstI (e : IVec S2x1600000 32) : IVec S1600000 32 :=
  shapeCast _ (extractStridedSlice S1x1600000 ![0, 0] e slices_S2x1600000_S1x1600000_0_0) shapeCasts_S1x1600000_S1600000

/-- The source row of every edge: row 1 of the edge list. -/
def srcI (e : IVec S2x1600000 32) : IVec S1600000 32 :=
  shapeCast _ (extractStridedSlice S1x1600000 ![1, 0] e slices_S2x1600000_S1x1600000_1_0) shapeCasts_S1x1600000_S1600000

/-- The in-degree of every node: ones added up at the destination rows. -/
def degK (v1 : IVec S1600000 32) : FVec Ideal S100000 .f32 :=
  Host.scatterAdd scatter_S100000_S1600000x1_S1600000_n_0_0_1
    (broadcastInDim S100000 ![] bcast_S_S100000 (constant S_ .f32 0x00000000#32))
    (broadcastInDim S1600000x1 ![0] bcast_S1600000_S1600000x1_0 v1)
    (broadcastInDim S1600000 ![] bcast_S_S1600000 (constant S_ .f32 0x3F800000#32))

/-- The reciprocal of max(deg, 1). -/
def invDeg (v1 : IVec S1600000 32) : FVec Ideal S100000 .f32 :=
  Host.divf (broadcastInDim S100000 ![] bcast_S_S100000 (constant S_ .f32 0x3F800000#32))
    (maximumf (degK v1) (broadcastInDim S100000 ![] bcast_S_S100000 (constant S_ .f32 0x3F800000#32)))

/-- The source rows added up at the destination rows. -/
def summedK (h : FVec Ideal S100000x128 .f32) (v1 v3 : IVec S1600000 32) : FVec Ideal S100000x128 .f32 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 v1)
    (Host.gather gather_S100000x128_S1600000x1_S1600000x128_1_0_n_n_0_1_1128 h
      (broadcastInDim S1600000x1 ![0] bcast_S1600000_S1600000x1_0
        (select (cmpi .slt v3 (broadcastInDim S1600000 ![] bcast_S_S1600000 (constantI S_ 32 0#32)))
          (addi v3 (broadcastInDim S1600000 ![] bcast_S_S1600000 (constantI S_ 32 100000#32))) v3)))

/-- The mean aggregate: the summed rows times the reciprocal of max(deg, 1), row by row. -/
def aggK (h : FVec Ideal S100000x128 .f32) (v1 v3 : IVec S1600000 32) (v11 : FVec Ideal S100000 .f32) :
    FVec Ideal S100000x128 .f32 :=
  mulf (summedK h v1 v3)
    (broadcastInDim S100000x128 ![0, 1] bcast_S100000x1_S100000x128_0_1
      (broadcastInDim S100000x1 ![0] bcast_S100000_S100000x1_0 v11))

/-! ## The batch norm's scale and shift from the column sums -/

/-- The column means: the sums laid out as a vector, divided by the number of rows. -/
def muV (s1 : FVec Ideal S1x128 .f32) : FVec Ideal S128 .f32 :=
  Host.divf (shapeCast _ s1 shapeCasts_S1x128_S128) (broadcastInDim S128 ![] bcast_S_S128 (constant S_ .f32 0x47C35000#32))

/-- The scale g · rsqrt(ss/N − mean² + ε). -/
def scaleV (s1 s2 : FVec Ideal S1x128 .f32) (g : FVec Ideal S128 .f32) : FVec Ideal S128 .f32 :=
  mulf g (Host.rsqrt (addf (subf (Host.divf (shapeCast _ s2 shapeCasts_S1x128_S128)
      (broadcastInDim S128 ![] bcast_S_S128 (constant S_ .f32 0x47C35000#32))) (mulf (muV s1) (muV s1)))
    (broadcastInDim S128 ![] bcast_S_S128 (constant S_ .f32 0x3727C5AC#32))))

/-- The shift b − mean · scale. -/
def shiftV (s1 s2 : FVec Ideal S1x128 .f32) (g b : FVec Ideal S128 .f32) : FVec Ideal S128 .f32 :=
  subf b (mulf (muV s1) (scaleV s1 s2 g))

/-- The scale as one row. -/
def scale2d (s1 s2 : FVec Ideal S1x128 .f32) (g : FVec Ideal S128 .f32) : FVec Ideal S1x128 .f32 :=
  shapeCast _ (scaleV s1 s2 g) shapeCasts_S128_S1x128

/-- The shift as one row. -/
def shift2d (s1 s2 : FVec Ideal S1x128 .f32) (g b : FVec Ideal S128 .f32) : FVec Ideal S1x128 .f32 :=
  shapeCast _ (shiftV s1 s2 g b) shapeCasts_S128_S1x128

/-! ## One layer, and the whole network, on the kernel's side -/

/-- The mean aggregate of h along the edges e. -/
def aggE (h : FVec Ideal S100000x128 .f32) (e : IVec S2x1600000 32) : FVec Ideal S100000x128 .f32 :=
  aggK h (dstI e) (srcI e) (invDeg (dstI e))

/-- A layer's linear combine: aggregate · Wlᵀ + h · Wrᵀ + bl. -/
def linK (h : FVec Ideal S100000x128 .f32) (e : IVec S2x1600000 32) (wl : FVec Ideal S128x128 .f32)
    (bl : FVec Ideal S128 .f32) (wr : FVec Ideal S128x128 .f32) : Spec.M 100000 128 :=
  Spec.lin (aggE h e) h (transpose S128x128 [1, 0] wl transposes_S128x128_S128x128_1_0)
    (transpose S128x128 [1, 0] wr transposes_S128x128_S128x128_1_0) (shapeCast _ bl shapeCasts_S128_S1x128)

/-- A layer: the linear combine, batch-normalised by its own column statistics, then the positive part. -/
def layerK (h : FVec Ideal S100000x128 .f32) (e : IVec S2x1600000 32) (wl : FVec Ideal S128x128 .f32)
    (bl : FVec Ideal S128 .f32) (wr : FVec Ideal S128x128 .f32) (g b : FVec Ideal S128 .f32) : Spec.M 100000 128 :=
  Spec.bnRelu (linK h e wl bl wr)
    (scale2d (Spec.colSum (linK h e wl bl wr)) (Spec.colSumSq (linK h e wl bl wr)) g)
    (shift2d (Spec.colSum (linK h e wl bl wr)) (Spec.colSumSq (linK h e wl bl wr)) g b)

/-- The last linear combine, 47 columns. -/
def lin47K (h : FVec Ideal S100000x128 .f32) (e : IVec S2x1600000 32) (wl : FVec Ideal S47x128 .f32)
    (bl : FVec Ideal S47 .f32) (wr : FVec Ideal S47x128 .f32) : Spec.M 100000 47 :=
  Spec.lin (aggE h e) h (transpose S128x47 [1, 0] wl transposes_S47x128_S128x47_1_0)
    (transpose S128x47 [1, 0] wr transposes_S47x128_S128x47_1_0) (shapeCast _ bl shapeCasts_S47_S1x47)

/-- A buffer that no operation of a stretch writes holds after the stretch what it held before. -/
macro "host_keep" ops:ident : tactic => `(tactic|
  exact StableHlo.after_of_forall_not_mem _ _ (List.forall_iff_forall_mem.mp (by
    simp only [$ops:ident, List.flatten_cons, List.flatten_nil, List.append_nil, List.cons_append, List.nil_append,
      List.Forall, StableHlo.nullary_writes, StableHlo.unary_writes, StableHlo.binary_writes,
      StableHlo.ternary_writes, StableHlo.quaternary_writes, StableHlo.reshape_writes,
      StableHlo.binaryIndexed_writes, Finset.mem_singleton]
    repeat' apply And.intro
    all_goals exact StableHlo.devRef_ne_of_ne (by decide))))

variable (m : (ℓ : Loc nD τ sig) → Buf (Elt Ideal) ℓ) (ρ : Dev nD → PrngReg)

/-! ## Boundary 1: after the first stretch -/

set_option maxHeartbeats 2000000 in
theorem W1_v1 (c : Dev nD) : W1 m ρ c (Proc.devRef .tc main_v1) = dstI (m ((c : Thread nD τ).loc main_arg1)) := by
  show StableHlo.after hostOps0 (W0 m ρ c) (Proc.devRef .tc main_v1) = _
  after_results_simp
  all_goals rfl

set_option maxHeartbeats 2000000 in
theorem W1_v3 (c : Dev nD) : W1 m ρ c (Proc.devRef .tc main_v3) = srcI (m ((c : Thread nD τ).loc main_arg1)) := by
  show StableHlo.after hostOps0 (W0 m ρ c) (Proc.devRef .tc main_v3) = _
  after_results_simp
  all_goals rfl

set_option maxHeartbeats 2000000 in
theorem W1_v11 (c : Dev nD) :
    W1 m ρ c (Proc.devRef .tc main_v11) = invDeg (dstI (m ((c : Thread nD τ).loc main_arg1))) := by
  show StableHlo.after hostOps0 (W0 m ρ c) (Proc.devRef .tc main_v11) = _
  after_results_simp
  all_goals rfl

set_option maxHeartbeats 2000000 in
theorem W1_v24 (c : Dev nD) :
    W1 m ρ c (Proc.devRef .tc main_v24) = aggK (m ((c : Thread nD τ).loc main_arg0))
      (dstI (m ((c : Thread nD τ).loc main_arg1))) (srcI (m ((c : Thread nD τ).loc main_arg1)))
      (invDeg (dstI (m ((c : Thread nD τ).loc main_arg1)))) := by
  show StableHlo.after hostOps0 (W0 m ρ c) (Proc.devRef .tc main_v24) = _
  after_results_simp
  all_goals rfl

/-! ## The later boundaries -/

theorem W1_arg0 (c : Dev nD) : W1 m ρ c (Proc.devRef .tc main_arg0) = m ((c : Thread nD τ).loc main_arg0) :=
  calc W1 m ρ c (Proc.devRef .tc main_arg0)
    _ = W0 m ρ c (Proc.devRef .tc main_arg0) := by host_keep hostOps0
    _ = m ((c : Thread nD τ).loc main_arg0) := rfl

set_option maxHeartbeats 2000000 in
theorem W1_v25 (c : Dev nD) :
    W1 m ρ c (Proc.devRef .tc main_v25) = transpose S128x128 [1, 0] (m ((c : Thread nD τ).loc main_arg2)) transposes_S128x128_S128x128_1_0 := by
  show StableHlo.after hostOps0 (W0 m ρ c) (Proc.devRef .tc main_v25) = _
  after_results_simp
  all_goals rfl

set_option maxHeartbeats 2000000 in
theorem W1_v26 (c : Dev nD) :
    W1 m ρ c (Proc.devRef .tc main_v26) = transpose S128x128 [1, 0] (m ((c : Thread nD τ).loc main_arg4)) transposes_S128x128_S128x128_1_0 := by
  show StableHlo.after hostOps0 (W0 m ρ c) (Proc.devRef .tc main_v26) = _
  after_results_simp
  all_goals rfl

set_option maxHeartbeats 2000000 in
theorem W1_v27 (c : Dev nD) :
    W1 m ρ c (Proc.devRef .tc main_v27) = shapeCast _ (m ((c : Thread nD τ).loc main_arg3)) shapeCasts_S128_S1x128 := by
  show StableHlo.after hostOps0 (W0 m ρ c) (Proc.devRef .tc main_v27) = _
  after_results_simp
  all_goals rfl

set_option maxHeartbeats 2000000 in
theorem W3_v43 (c : Dev nD) :
    W3 m ρ c (Proc.devRef .tc main_v43) = scale2d (W2 m ρ c (Proc.devRef .tc main_v28_1)) (W2 m ρ c (Proc.devRef .tc main_v28_2)) (W2 m ρ c (Proc.devRef .tc main_arg5)) := by
  show StableHlo.after hostOps1 (W2 m ρ c) (Proc.devRef .tc main_v43) = _
  after_results_simp
  all_goals rfl

set_option maxHeartbeats 2000000 in
theorem W3_v44 (c : Dev nD) :
    W3 m ρ c (Proc.devRef .tc main_v44) = shift2d (W2 m ρ c (Proc.devRef .tc main_v28_1)) (W2 m ρ c (Proc.devRef .tc main_v28_2)) (W2 m ρ c (Proc.devRef .tc main_arg5)) (W2 m ρ c (Proc.devRef .tc main_arg6)) := by
  show StableHlo.after hostOps1 (W2 m ρ c) (Proc.devRef .tc main_v44) = _
  after_results_simp
  all_goals rfl

theorem W3_v28_0 (c : Dev nD) : W3 m ρ c (Proc.devRef .tc main_v28_0) = W2 m ρ c (Proc.devRef .tc main_v28_0) := by
  host_keep hostOps1

set_option maxHeartbeats 2000000 in
theorem W5_v58 (c : Dev nD) :
    W5 m ρ c (Proc.devRef .tc main_v58) = aggK (W4 m ρ c (Proc.devRef .tc main_v45)) (W4 m ρ c (Proc.devRef .tc main_v1)) (W4 m ρ c (Proc.devRef .tc main_v3)) (W4 m ρ c (Proc.devRef .tc main_v11)) := by
  show StableHlo.after hostOps2 (W4 m ρ c) (Proc.devRef .tc main_v58) = _
  after_results_simp
  all_goals rfl

set_option maxHeartbeats 2000000 in
theorem W5_v59 (c : Dev nD) :
    W5 m ρ c (Proc.devRef .tc main_v59) = transpose S128x128 [1, 0] (W4 m ρ c (Proc.devRef .tc main_arg7)) transposes_S128x128_S128x128_1_0 := by
  show StableHlo.after hostOps2 (W4 m ρ c) (Proc.devRef .tc main_v59) = _
  after_results_simp
  all_goals rfl

set_option maxHeartbeats 2000000 in
theorem W5_v60 (c : Dev nD) :
    W5 m ρ c (Proc.devRef .tc main_v60) = transpose S128x128 [1, 0] (W4 m ρ c (Proc.devRef .tc main_arg9)) transposes_S128x128_S128x128_1_0 := by
  show StableHlo.after hostOps2 (W4 m ρ c) (Proc.devRef .tc main_v60) = _
  after_results_simp
  all_goals rfl

set_option maxHeartbeats 2000000 in
theorem W5_v61 (c : Dev nD) :
    W5 m ρ c (Proc.devRef .tc main_v61) = shapeCast _ (W4 m ρ c (Proc.devRef .tc main_arg8)) shapeCasts_S128_S1x128 := by
  show StableHlo.after hostOps2 (W4 m ρ c) (Proc.devRef .tc main_v61) = _
  after_results_simp
  all_goals rfl

theorem W5_v45 (c : Dev nD) : W5 m ρ c (Proc.devRef .tc main_v45) = W4 m ρ c (Proc.devRef .tc main_v45) := by
  host_keep hostOps2

set_option maxHeartbeats 2000000 in
theorem W7_v77 (c : Dev nD) :
    W7 m ρ c (Proc.devRef .tc main_v77) = scale2d (W6 m ρ c (Proc.devRef .tc main_v62_1)) (W6 m ρ c (Proc.devRef .tc main_v62_2)) (W6 m ρ c (Proc.devRef .tc main_arg10)) := by
  show StableHlo.after hostOps3 (W6 m ρ c) (Proc.devRef .tc main_v77) = _
  after_results_simp
  all_goals rfl

set_option maxHeartbeats 2000000 in
theorem W7_v78 (c : Dev nD) :
    W7 m ρ c (Proc.devRef .tc main_v78) = shift2d (W6 m ρ c (Proc.devRef .tc main_v62_1)) (W6 m ρ c (Proc.devRef .tc main_v62_2)) (W6 m ρ c (Proc.devRef .tc main_arg10)) (W6 m ρ c (Proc.devRef .tc main_arg11)) := by
  show StableHlo.after hostOps3 (W6 m ρ c) (Proc.devRef .tc main_v78) = _
  after_results_simp
  all_goals rfl

theorem W7_v62_0 (c : Dev nD) : W7 m ρ c (Proc.devRef .tc main_v62_0) = W6 m ρ c (Proc.devRef .tc main_v62_0) := by
  host_keep hostOps3

set_option maxHeartbeats 2000000 in
theorem W9_v92 (c : Dev nD) :
    W9 m ρ c (Proc.devRef .tc main_v92) = aggK (W8 m ρ c (Proc.devRef .tc main_v79)) (W8 m ρ c (Proc.devRef .tc main_v1)) (W8 m ρ c (Proc.devRef .tc main_v3)) (W8 m ρ c (Proc.devRef .tc main_v11)) := by
  show StableHlo.after hostOps4 (W8 m ρ c) (Proc.devRef .tc main_v92) = _
  after_results_simp
  all_goals rfl

set_option maxHeartbeats 2000000 in
theorem W9_v93 (c : Dev nD) :
    W9 m ρ c (Proc.devRef .tc main_v93) = transpose S128x47 [1, 0] (W8 m ρ c (Proc.devRef .tc main_arg12)) transposes_S47x128_S128x47_1_0 := by
  show StableHlo.after hostOps4 (W8 m ρ c) (Proc.devRef .tc main_v93) = _
  after_results_simp
  all_goals rfl

set_option maxHeartbeats 2000000 in
theorem W9_v94 (c : Dev nD) :
    W9 m ρ c (Proc.devRef .tc main_v94) = transpose S128x47 [1, 0] (W8 m ρ c (Proc.devRef .tc main_arg14)) transposes_S47x128_S128x47_1_0 := by
  show StableHlo.after hostOps4 (W8 m ρ c) (Proc.devRef .tc main_v94) = _
  after_results_simp
  all_goals rfl

set_option maxHeartbeats 2000000 in
theorem W9_v95 (c : Dev nD) :
    W9 m ρ c (Proc.devRef .tc main_v95) = shapeCast _ (W8 m ρ c (Proc.devRef .tc main_arg13)) shapeCasts_S47_S1x47 := by
  show StableHlo.after hostOps4 (W8 m ρ c) (Proc.devRef .tc main_v95) = _
  after_results_simp
  all_goals rfl

theorem W9_v79 (c : Dev nD) : W9 m ρ c (Proc.devRef .tc main_v79) = W8 m ρ c (Proc.devRef .tc main_v79) := by
  host_keep hostOps4

/-! ## Buffers that no later stretch or launch writes keep their contents -/

theorem W4_main_v1 (c : Dev nD) : W4 m ρ c (Proc.devRef .tc main_v1) = W1 m ρ c (Proc.devRef .tc main_v1) :=
  calc W4 m ρ c (Proc.devRef .tc main_v1)
    _ = W3 m ρ c (Proc.devRef .tc main_v1) := W4_of_ne m ρ c main_v1 (by decide)
    _ = W2 m ρ c (Proc.devRef .tc main_v1) := by host_keep hostOps1
    _ = W1 m ρ c (Proc.devRef .tc main_v1) := W2_of_ne m ρ c main_v1 (by decide)

theorem W8_main_v1 (c : Dev nD) : W8 m ρ c (Proc.devRef .tc main_v1) = W1 m ρ c (Proc.devRef .tc main_v1) :=
  calc W8 m ρ c (Proc.devRef .tc main_v1)
    _ = W7 m ρ c (Proc.devRef .tc main_v1) := W8_of_ne m ρ c main_v1 (by decide)
    _ = W6 m ρ c (Proc.devRef .tc main_v1) := by host_keep hostOps3
    _ = W5 m ρ c (Proc.devRef .tc main_v1) := W6_of_ne m ρ c main_v1 (by decide)
    _ = W4 m ρ c (Proc.devRef .tc main_v1) := by host_keep hostOps2
    _ = W3 m ρ c (Proc.devRef .tc main_v1) := W4_of_ne m ρ c main_v1 (by decide)
    _ = W2 m ρ c (Proc.devRef .tc main_v1) := by host_keep hostOps1
    _ = W1 m ρ c (Proc.devRef .tc main_v1) := W2_of_ne m ρ c main_v1 (by decide)

theorem W4_main_v3 (c : Dev nD) : W4 m ρ c (Proc.devRef .tc main_v3) = W1 m ρ c (Proc.devRef .tc main_v3) :=
  calc W4 m ρ c (Proc.devRef .tc main_v3)
    _ = W3 m ρ c (Proc.devRef .tc main_v3) := W4_of_ne m ρ c main_v3 (by decide)
    _ = W2 m ρ c (Proc.devRef .tc main_v3) := by host_keep hostOps1
    _ = W1 m ρ c (Proc.devRef .tc main_v3) := W2_of_ne m ρ c main_v3 (by decide)

theorem W8_main_v3 (c : Dev nD) : W8 m ρ c (Proc.devRef .tc main_v3) = W1 m ρ c (Proc.devRef .tc main_v3) :=
  calc W8 m ρ c (Proc.devRef .tc main_v3)
    _ = W7 m ρ c (Proc.devRef .tc main_v3) := W8_of_ne m ρ c main_v3 (by decide)
    _ = W6 m ρ c (Proc.devRef .tc main_v3) := by host_keep hostOps3
    _ = W5 m ρ c (Proc.devRef .tc main_v3) := W6_of_ne m ρ c main_v3 (by decide)
    _ = W4 m ρ c (Proc.devRef .tc main_v3) := by host_keep hostOps2
    _ = W3 m ρ c (Proc.devRef .tc main_v3) := W4_of_ne m ρ c main_v3 (by decide)
    _ = W2 m ρ c (Proc.devRef .tc main_v3) := by host_keep hostOps1
    _ = W1 m ρ c (Proc.devRef .tc main_v3) := W2_of_ne m ρ c main_v3 (by decide)

theorem W4_main_v11 (c : Dev nD) : W4 m ρ c (Proc.devRef .tc main_v11) = W1 m ρ c (Proc.devRef .tc main_v11) :=
  calc W4 m ρ c (Proc.devRef .tc main_v11)
    _ = W3 m ρ c (Proc.devRef .tc main_v11) := W4_of_ne m ρ c main_v11 (by decide)
    _ = W2 m ρ c (Proc.devRef .tc main_v11) := by host_keep hostOps1
    _ = W1 m ρ c (Proc.devRef .tc main_v11) := W2_of_ne m ρ c main_v11 (by decide)

theorem W8_main_v11 (c : Dev nD) : W8 m ρ c (Proc.devRef .tc main_v11) = W1 m ρ c (Proc.devRef .tc main_v11) :=
  calc W8 m ρ c (Proc.devRef .tc main_v11)
    _ = W7 m ρ c (Proc.devRef .tc main_v11) := W8_of_ne m ρ c main_v11 (by decide)
    _ = W6 m ρ c (Proc.devRef .tc main_v11) := by host_keep hostOps3
    _ = W5 m ρ c (Proc.devRef .tc main_v11) := W6_of_ne m ρ c main_v11 (by decide)
    _ = W4 m ρ c (Proc.devRef .tc main_v11) := by host_keep hostOps2
    _ = W3 m ρ c (Proc.devRef .tc main_v11) := W4_of_ne m ρ c main_v11 (by decide)
    _ = W2 m ρ c (Proc.devRef .tc main_v11) := by host_keep hostOps1
    _ = W1 m ρ c (Proc.devRef .tc main_v11) := W2_of_ne m ρ c main_v11 (by decide)

theorem W2_main_arg5 (c : Dev nD) : W2 m ρ c (Proc.devRef .tc main_arg5) = m ((c : Thread nD τ).loc main_arg5) :=
  calc W2 m ρ c (Proc.devRef .tc main_arg5)
    _ = W1 m ρ c (Proc.devRef .tc main_arg5) := W2_of_ne m ρ c main_arg5 (by decide)
    _ = W0 m ρ c (Proc.devRef .tc main_arg5) := by host_keep hostOps0
    _ = m ((c : Thread nD τ).loc main_arg5) := rfl

theorem W2_main_arg6 (c : Dev nD) : W2 m ρ c (Proc.devRef .tc main_arg6) = m ((c : Thread nD τ).loc main_arg6) :=
  calc W2 m ρ c (Proc.devRef .tc main_arg6)
    _ = W1 m ρ c (Proc.devRef .tc main_arg6) := W2_of_ne m ρ c main_arg6 (by decide)
    _ = W0 m ρ c (Proc.devRef .tc main_arg6) := by host_keep hostOps0
    _ = m ((c : Thread nD τ).loc main_arg6) := rfl

theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := by host_keep hostOps1
    _ = W1 m ρ c (Proc.devRef .tc main_arg7) := W2_of_ne m ρ c main_arg7 (by decide)
    _ = W0 m ρ c (Proc.devRef .tc main_arg7) := by host_keep hostOps0
    _ = m ((c : Thread nD τ).loc main_arg7) := rfl

theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := by host_keep hostOps1
    _ = W1 m ρ c (Proc.devRef .tc main_arg8) := W2_of_ne m ρ c main_arg8 (by decide)
    _ = W0 m ρ c (Proc.devRef .tc main_arg8) := by host_keep hostOps0
    _ = m ((c : Thread nD τ).loc main_arg8) := rfl

theorem W4_main_arg9 (c : Dev nD) : W4 m ρ c (Proc.devRef .tc main_arg9) = m ((c : Thread nD τ).loc main_arg9) :=
  calc W4 m ρ c (Proc.devRef .tc main_arg9)
    _ = W3 m ρ c (Proc.devRef .tc main_arg9) := W4_of_ne m ρ c main_arg9 (by decide)
    _ = W2 m ρ c (Proc.devRef .tc main_arg9) := by host_keep hostOps1
    _ = W1 m ρ c (Proc.devRef .tc main_arg9) := W2_of_ne m ρ c main_arg9 (by decide)
    _ = W0 m ρ c (Proc.devRef .tc main_arg9) := by host_keep hostOps0
    _ = m ((c : Thread nD τ).loc main_arg9) := rfl

theorem W6_main_arg10 (c : Dev nD) : W6 m ρ c (Proc.devRef .tc main_arg10) = m ((c : Thread nD τ).loc main_arg10) :=
  calc W6 m ρ c (Proc.devRef .tc main_arg10)
    _ = W5 m ρ c (Proc.devRef .tc main_arg10) := W6_of_ne m ρ c main_arg10 (by decide)
    _ = W4 m ρ c (Proc.devRef .tc main_arg10) := by host_keep hostOps2
    _ = W3 m ρ c (Proc.devRef .tc main_arg10) := W4_of_ne m ρ c main_arg10 (by decide)
    _ = W2 m ρ c (Proc.devRef .tc main_arg10) := by host_keep hostOps1
    _ = W1 m ρ c (Proc.devRef .tc main_arg10) := W2_of_ne m ρ c main_arg10 (by decide)
    _ = W0 m ρ c (Proc.devRef .tc main_arg10) := by host_keep hostOps0
    _ = m ((c : Thread nD τ).loc main_arg10) := rfl

theorem W6_main_arg11 (c : Dev nD) : W6 m ρ c (Proc.devRef .tc main_arg11) = m ((c : Thread nD τ).loc main_arg11) :=
  calc W6 m ρ c (Proc.devRef .tc main_arg11)
    _ = W5 m ρ c (Proc.devRef .tc main_arg11) := W6_of_ne m ρ c main_arg11 (by decide)
    _ = W4 m ρ c (Proc.devRef .tc main_arg11) := by host_keep hostOps2
    _ = W3 m ρ c (Proc.devRef .tc main_arg11) := W4_of_ne m ρ c main_arg11 (by decide)
    _ = W2 m ρ c (Proc.devRef .tc main_arg11) := by host_keep hostOps1
    _ = W1 m ρ c (Proc.devRef .tc main_arg11) := W2_of_ne m ρ c main_arg11 (by decide)
    _ = W0 m ρ c (Proc.devRef .tc main_arg11) := by host_keep hostOps0
    _ = m ((c : Thread nD τ).loc main_arg11) := rfl

theorem W8_main_arg12 (c : Dev nD) : W8 m ρ c (Proc.devRef .tc main_arg12) = m ((c : Thread nD τ).loc main_arg12) :=
  calc W8 m ρ c (Proc.devRef .tc main_arg12)
    _ = W7 m ρ c (Proc.devRef .tc main_arg12) := W8_of_ne m ρ c main_arg12 (by decide)
    _ = W6 m ρ c (Proc.devRef .tc main_arg12) := by host_keep hostOps3
    _ = W5 m ρ c (Proc.devRef .tc main_arg12) := W6_of_ne m ρ c main_arg12 (by decide)
    _ = W4 m ρ c (Proc.devRef .tc main_arg12) := by host_keep hostOps2
    _ = W3 m ρ c (Proc.devRef .tc main_arg12) := W4_of_ne m ρ c main_arg12 (by decide)
    _ = W2 m ρ c (Proc.devRef .tc main_arg12) := by host_keep hostOps1
    _ = W1 m ρ c (Proc.devRef .tc main_arg12) := W2_of_ne m ρ c main_arg12 (by decide)
    _ = W0 m ρ c (Proc.devRef .tc main_arg12) := by host_keep hostOps0
    _ = m ((c : Thread nD τ).loc main_arg12) := rfl

theorem W8_main_arg13 (c : Dev nD) : W8 m ρ c (Proc.devRef .tc main_arg13) = m ((c : Thread nD τ).loc main_arg13) :=
  calc W8 m ρ c (Proc.devRef .tc main_arg13)
    _ = W7 m ρ c (Proc.devRef .tc main_arg13) := W8_of_ne m ρ c main_arg13 (by decide)
    _ = W6 m ρ c (Proc.devRef .tc main_arg13) := by host_keep hostOps3
    _ = W5 m ρ c (Proc.devRef .tc main_arg13) := W6_of_ne m ρ c main_arg13 (by decide)
    _ = W4 m ρ c (Proc.devRef .tc main_arg13) := by host_keep hostOps2
    _ = W3 m ρ c (Proc.devRef .tc main_arg13) := W4_of_ne m ρ c main_arg13 (by decide)
    _ = W2 m ρ c (Proc.devRef .tc main_arg13) := by host_keep hostOps1
    _ = W1 m ρ c (Proc.devRef .tc main_arg13) := W2_of_ne m ρ c main_arg13 (by decide)
    _ = W0 m ρ c (Proc.devRef .tc main_arg13) := by host_keep hostOps0
    _ = m ((c : Thread nD τ).loc main_arg13) := rfl

theorem W8_main_arg14 (c : Dev nD) : W8 m ρ c (Proc.devRef .tc main_arg14) = m ((c : Thread nD τ).loc main_arg14) :=
  calc W8 m ρ c (Proc.devRef .tc main_arg14)
    _ = W7 m ρ c (Proc.devRef .tc main_arg14) := W8_of_ne m ρ c main_arg14 (by decide)
    _ = W6 m ρ c (Proc.devRef .tc main_arg14) := by host_keep hostOps3
    _ = W5 m ρ c (Proc.devRef .tc main_arg14) := W6_of_ne m ρ c main_arg14 (by decide)
    _ = W4 m ρ c (Proc.devRef .tc main_arg14) := by host_keep hostOps2
    _ = W3 m ρ c (Proc.devRef .tc main_arg14) := W4_of_ne m ρ c main_arg14 (by decide)
    _ = W2 m ρ c (Proc.devRef .tc main_arg14) := by host_keep hostOps1
    _ = W1 m ρ c (Proc.devRef .tc main_arg14) := W2_of_ne m ρ c main_arg14 (by decide)
    _ = W0 m ρ c (Proc.devRef .tc main_arg14) := by host_keep hostOps0
    _ = m ((c : Thread nD τ).loc main_arg14) := rfl

end Cert.Sage.KHost

end
-- ==== Proof.Payloads.lean ====
/- The arithmetic of each kernel body, read at one element over the extended reals: a row tile times two
   weight matrices plus a bias is two sums of products plus the bias; a column sum of the tile is a plain
   sum over its rows; the normalisation step is scale, shift and a maximum with zero. -/
import proofs.«156934_j7851200217408_1_alg».proof.Proof.Gen.KernelIdeal.Skeleton
import Idealize.ShloMosaic.PureOps.Ideal.Laws
import Idealize.ShloMosaic.Lib.ValueIdx
import Idealize.ShloMosaic.Lib.Pipeline.Value
import Idealize.ShloMosaic.Lib.ValueLayout

noncomputable section

namespace Cert.Sage.Pay

open Idealize.ShloMosaic Idealize.ShloMosaic.ValueIdx Cert.KernelIdeal Cert.KernelIdeal.Gen

theorem matmul_128_l0 (i : S5000x128.Idx) (c : dot_S5000x128_S128x128_S5000x128_1_0_0_1_n_n.contr.Idx) : (dot_S5000x128_S128x128_S5000x128_1_0_0_1_n_n.lhsIdx i c 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl
theorem matmul_128_l1 (i : S5000x128.Idx) (c : dot_S5000x128_S128x128_S5000x128_1_0_0_1_n_n.contr.Idx) : (dot_S5000x128_S128x128_S5000x128_1_0_0_1_n_n.lhsIdx i c 1).val = (c ⟨0, by decide⟩).val :=
  dot_S5000x128_S128x128_S5000x128_1_0_0_1_n_n.lhsIdx_val_of_single rfl i c
theorem matmul_128_r0 (i : S5000x128.Idx) (c : dot_S5000x128_S128x128_S5000x128_1_0_0_1_n_n.contr.Idx) : (dot_S5000x128_S128x128_S5000x128_1_0_0_1_n_n.rhsIdx i c 0).val = (c ⟨0, by decide⟩).val :=
  dot_S5000x128_S128x128_S5000x128_1_0_0_1_n_n.rhsIdx_val_of_single rfl i c
theorem matmul_128_r1 (i : S5000x128.Idx) (c : dot_S5000x128_S128x128_S5000x128_1_0_0_1_n_n.contr.Idx) : (dot_S5000x128_S128x128_S5000x128_1_0_0_1_n_n.rhsIdx i c 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- A [5000,128] by [128,128] matrix product into a zero accumulator, at row `p` and column `q`: the sum over `k` of the left factor at `(p, k)` times the right factor at `(k, q)`. -/
theorem matmul_128 (a : FVec Ideal S5000x128 .bf16) (b : FVec Ideal S128x128 .bf16) (p : Fin 5000) (q : Fin 128) :
    matmul dot_S5000x128_S128x128_S5000x128_1_0_0_1_n_n none a b (constant (F := Ideal) S5000x128 .f32 0x00000000#32) (ix2 p q)
      = ∑ k : Fin 128, a (ix2 p k) * b (ix2 k q) := by
  refine (Ideal.matmul_constant_zero_apply dot_S5000x128_S128x128_S5000x128_1_0_0_1_n_n none a b (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k :=
    funext fun ax => Fin.ext (by
      match ax with
      | ⟨0, _⟩ => exact matmul_128_l0 _ _
      | ⟨1, _⟩ => exact (matmul_128_l1 _ _).trans hk)
  have er : dot_S5000x128_S128x128_S5000x128_1_0_0_1_n_n.rhsIdx (ix2 p q) ((contrEquiv1 dot_S5000x128_S128x128_S5000x128_1_0_0_1_n_n 128 rfl rfl).symm k) = ix2 k q :=
    funext fun ax => Fin.ext (by
      match ax with
      | ⟨0, _⟩ => exact (matmul_128_r0 _ _).trans hk
      | ⟨1, _⟩ => exact matmul_128_r1 _ _)
  rw [el, er]

theorem matmul_47_l0 (i : S5000x47.Idx) (c : dot_S5000x128_S128x47_S5000x47_1_0_0_1_n_n.contr.Idx) : (dot_S5000x128_S128x47_S5000x47_1_0_0_1_n_n.lhsIdx i c 0).val = (i 0).val := by
  unfold DotDims.lhsIdx
  rw [dif_neg (show ¬(0 : Fin S5000x128.rank) ∈ dot_S5000x128_S128x47_S5000x47_1_0_0_1_n_n.lhsBatch by decide),
    dif_pos (show (0 : Fin S5000x128.rank) ∈ dot_S5000x128_S128x47_S5000x47_1_0_0_1_n_n.lhsNonContracting by decide)]
  rfl
theorem matmul_47_l1 (i : S5000x47.Idx) (c : dot_S5000x128_S128x47_S5000x47_1_0_0_1_n_n.contr.Idx) : (dot_S5000x128_S128x47_S5000x47_1_0_0_1_n_n.lhsIdx i c 1).val = (c ⟨0, by decide⟩).val :=
  dot_S5000x128_S128x47_S5000x47_1_0_0_1_n_n.lhsIdx_val_of_single rfl i c
theorem matmul_47_r0 (i : S5000x47.Idx) (c : dot_S5000x128_S128x47_S5000x47_1_0_0_1_n_n.contr.Idx) : (dot_S5000x128_S128x47_S5000x47_1_0_0_1_n_n.rhsIdx i c 0).val = (c ⟨0, by decide⟩).val :=
  dot_S5000x128_S128x47_S5000x47_1_0_0_1_n_n.rhsIdx_val_of_single rfl i c
theorem matmul_47_r1 (i : S5000x47.Idx) (c : dot_S5000x128_S128x47_S5000x47_1_0_0_1_n_n.contr.Idx) : (dot_S5000x128_S128x47_S5000x47_1_0_0_1_n_n.rhsIdx i c 1).val = (i 1).val := by
  unfold DotDims.rhsIdx
  rw [dif_neg (show ¬(1 : Fin S128x47.rank) ∈ dot_S5000x128_S128x47_S5000x47_1_0_0_1_n_n.rhsBatch by decide),
    dif_pos (show (1 : Fin S128x47.rank) ∈ dot_S5000x128_S128x47_S5000x47_1_0_0_1_n_n.rhsNonContracting by decide)]
  rfl

/-- A [5000,128] by [128,47] matrix product into a zero accumulator, at row `p` and column `q`: the sum over `k` of the left factor at `(p, k)` times the right factor at `(k, q)`. -/
theorem matmul_47 (a : FVec Ideal S5000x128 .bf16) (b : FVec Ideal S128x47 .bf16) (p : Fin 5000) (q : Fin 47) :
    matmul dot_S5000x128_S128x47_S5000x47_1_0_0_1_n_n none a b (constant (F := Ideal) S5000x47 .f32 0x00000000#32) (ix2 p q)
      = ∑ k : Fin 128, a (ix2 p k) * b (ix2 k q) := by
  refine (Ideal.matmul_constant_zero_apply dot_S5000x128_S128x47_S5000x47_1_0_0_1_n_n none a b (ix2 p q)).trans ?_
  rw [← Equiv.sum_comp (contrEquiv1 dot_S5000x128_S128x47_S5000x47_1_0_0_1_n_n 128 rfl rfl).symm]
  refine Finset.sum_congr rfl fun k _ => ?_
  have hk := contrEquiv1_symm_val dot_S5000x128_S128x47_S5000x47_1_0_0_1_n_n 128 rfl rfl k
  have el : dot_S5000x128_S128x47_S5000x47_1_0_0_1_n_n.lhsIdx (ix2 p q) ((contrEquiv1 dot_S5000x128_S128x47_S5000x47_1_0_0_1_n_n 128 rfl rfl).symm k) = ix2 p k :=
    funext fun ax => Fin.ext (by
      match ax with
      | ⟨0, _⟩ => exact matmul_47_l0 _ _
      | ⟨1, _⟩ => exact (matmul_47_l1 _ _).trans hk)
  have er : dot_S5000x128_S128x47_S5000x47_1_0_0_1_n_n.rhsIdx (ix2 p q) ((contrEquiv1 dot_S5000x128_S128x47_S5000x47_1_0_0_1_n_n 128 rfl rfl).symm k) = ix2 k q :=
    funext fun ax => Fin.ext (by
      match ax with
      | ⟨0, _⟩ => exact (matmul_47_r0 _ _).trans hk
      | ⟨1, _⟩ => exact matmul_47_r1 _ _)
  rw [el, er]

/-- The linear layer of region 0 at row `p`, column `q`: the two matrix products' elements plus the bias. -/
theorem pay2_0 (v0 v3 : Vec Ideal S5000x128 .f32) (v5 v8 : Vec Ideal S128x128 .f32) (v14 : Vec Ideal S1x128 .f32) (p : Fin 5000) (q : Fin 128) :
    k0_pay2 (F := Ideal) v0 v3 v5 v8 v14 (ix2 p q)
      = (∑ k : Fin 128, v0 (ix2 p k) * v5 (ix2 k q) + ∑ k : Fin 128, v3 (ix2 p k) * v8 (ix2 k q)) + v14 (ix2 0 q) := by
  unfold k0_pay2
  simp only [shapeCast_self]
  rw [addf_apply, addf_apply, matmul_128, matmul_128, broadcastTo_1b_ab_apply]
  rfl

/-- The linear layer of region 2 at row `p`, column `q`: the two matrix products' elements plus the bias. -/
theorem pay2_2 (v0 v3 : Vec Ideal S5000x128 .f32) (v6 v9 : Vec Ideal S128x128 .f32) (v15 : Vec Ideal S1x128 .f32) (p : Fin 5000) (q : Fin 128) :
    k2_pay2 (F := Ideal) v0 v3 v6 v9 v15 (ix2 p q)
      = (∑ k : Fin 128, v0 (ix2 p k) * v6 (ix2 k q) + ∑ k : Fin 128, v3 (ix2 p k) * v9 (ix2 k q)) + v15 (ix2 0 q) := by
  unfold k2_pay2
  simp only [shapeCast_self]
  rw [addf_apply, addf_apply, matmul_128, matmul_128, broadcastTo_1b_ab_apply]
  rfl

/-- The last linear layer (47 columns) at row `p`, column `q`: the two matrix products' elements plus the bias. -/
theorem pay1_4 (v0 v3 : Vec Ideal S5000x128 .f32) (v6 v9 : Vec Ideal S128x47 .f32) (v15 : Vec Ideal S1x47 .f32) (p : Fin 5000) (q : Fin 47) :
    k4_pay1 (F := Ideal) v0 v3 v6 v9 v15 (ix2 p q)
      = (∑ k : Fin 128, v0 (ix2 p k) * v6 (ix2 k q) + ∑ k : Fin 128, v3 (ix2 p k) * v9 (ix2 k q)) + v15 (ix2 0 q) := by
  unfold k4_pay1
  simp only [shapeCast_self]
  rw [addf_apply, addf_apply, matmul_47, matmul_47, broadcastTo_1b_ab_apply]
  rfl

/-- The normalisation step at row `p`, column `q`: the element scaled, shifted, and cut off below at zero. -/
theorem pay1_1 (v0 : Vec Ideal S5000x128 .f32) (v2 v6 : Vec Ideal S1x128 .f32) (p : Fin 5000) (q : Fin 128) :
    k1_pay1 (F := Ideal) v0 v2 v6 (ix2 p q) = max (v0 (ix2 p q) * v2 (ix2 0 q) + v6 (ix2 0 q)) 0 := by
  unfold k1_pay1
  simp only [shapeCast_self]
  rw [maximumf_apply, addf_apply, mulf_apply, broadcastTo_1b_ab_apply, broadcastTo_1b_ab_apply, broadcast_apply]
  exact congrArg (max _) Ideal.ofBits_zero_f32

/-- The normalisation step at row `p`, column `q`: the element scaled, shifted, and cut off below at zero. -/
theorem pay1_3 (v0 : Vec Ideal S5000x128 .f32) (v2 v6 : Vec Ideal S1x128 .f32) (p : Fin 5000) (q : Fin 128) :
    k3_pay1 (F := Ideal) v0 v2 v6 (ix2 p q) = max (v0 (ix2 p q) * v2 (ix2 0 q) + v6 (ix2 0 q)) 0 := by
  unfold k3_pay1
  simp only [shapeCast_self]
  rw [maximumf_apply, addf_apply, mulf_apply, broadcastTo_1b_ab_apply, broadcastTo_1b_ab_apply, broadcast_apply]
  exact congrArg (max _) Ideal.ofBits_zero_f32

/-- A sum of a [5000,128] tile over its rows, at column `q`: the sum over the rows `p` of the element at `(p, q)`. -/
theorem colsum (src : FVec Ideal S5000x128 .f32) (q : Fin 128) :
    multiReduction (F := Ideal) .add [0] S128 src 0x00000000#32 reduces_S5000x128_S128 (.inl rfl) rfl (ix1 q)
      = ∑ p : Fin 5000, src (ix2 p q) := by
  refine (Ideal.multiReduction_add_single src 0x00000000#32 reduces_S5000x128_S128 (.inl rfl) rfl (ix1 q)).trans ?_
  refine Finset.sum_congr rfl fun p _ => congrArg src ?_
  funext ax
  match ax with
  | ⟨0, _⟩ => rfl
  | ⟨1, _⟩ => rfl

/-- The same sum laid out as a one-row matrix, at `(0, q)`. -/
theorem rowsum (src : FVec Ideal S5000x128 .f32) (q : Fin 128) :
    shapeCast S1x128 (multiReduction (F := Ideal) .add [0] S128 src 0x00000000#32 reduces_S5000x128_S128 (.inl rfl) rfl)
      shapeCasts_S128_S1x128 (ix2 0 q) = (0 : EReal) + ∑ p : Fin 5000, src (ix2 p q) := by
  refine (shapeCast_a_1a_apply _ shapeCasts_S128_S1x128 (0 : Fin 1) q).trans ?_
  exact (colsum src q).trans (zero_add _).symm

/-- The running column sum after this tile, at column `q`: the old one plus the sum over the tile's rows of the linear layer's element. -/
theorem pay5_0 (v0 v3 : Vec Ideal S5000x128 .f32) (v5 v8 : Vec Ideal S128x128 .f32) (v14 : Vec Ideal S1x128 .f32) (v22 : Vec Ideal S1x128 .f32) (q : Fin 128) :
    k0_pay5 (F := Ideal) v0 v3 v5 v8 v14 v22 (ix2 0 q)
      = v22 (ix2 0 q) + ((0 : EReal) + ∑ p : Fin 5000, k0_pay2 (F := Ideal) v0 v3 v5 v8 v14 (ix2 p q)) := by
  unfold k0_pay5
  simp only [shapeCast_self]
  rw [addf_apply]
  exact congrArg (v22 (ix2 0 q) + ·) (rowsum _ q)

/-- The running column sum after this tile, at column `q`: the old one plus the sum over the tile's rows of the linear layer's element. -/
theorem pay5_2 (v0 v3 : Vec Ideal S5000x128 .f32) (v6 v9 : Vec Ideal S128x128 .f32) (v15 : Vec Ideal S1x128 .f32) (v23 : Vec Ideal S1x128 .f32) (q : Fin 128) :
    k2_pay5 (F := Ideal) v0 v3 v6 v9 v15 v23 (ix2 0 q)
      = v23 (ix2 0 q) + ((0 : EReal) + ∑ p : Fin 5000, k2_pay2 (F := Ideal) v0 v3 v6 v9 v15 (ix2 p q)) := by
  unfold k2_pay5
  simp only [shapeCast_self]
  rw [addf_apply]
  exact congrArg (v23 (ix2 0 q) + ·) (rowsum _ q)

/-- The tile's contribution to the running sum of squares, at column `q`: the sum over the tile's rows of the square of the linear layer's element. -/
theorem pay7_0 (v0 v3 : Vec Ideal S5000x128 .f32) (v5 v8 : Vec Ideal S128x128 .f32) (v14 : Vec Ideal S1x128 .f32) (q : Fin 128) :
    k0_pay7 (F := Ideal) v0 v3 v5 v8 v14 (ix1 q)
      = (0 : EReal) + ∑ p : Fin 5000, k0_pay2 (F := Ideal) v0 v3 v5 v8 v14 (ix2 p q) * k0_pay2 (F := Ideal) v0 v3 v5 v8 v14 (ix2 p q) := by
  unfold k0_pay7
  exact (colsum _ q).trans (zero_add _).symm

/-- The running sum of squares after this tile, at column `q`: the old one plus the tile's contribution. -/
theorem pay1_0 (v29 : FVec Ideal S1x128 .f32) (v31 : FVec Ideal S128 .f32) (q : Fin 128) :
    k0_pay1 (F := Ideal) v29 v31 (ix2 0 q) = v29 (ix2 0 q) + v31 (ix1 q) := by
  unfold k0_pay1
  rw [addf_apply]
  exact congrArg (v29 (ix2 0 q) + ·) (shapeCast_a_1a_apply v31 shapeCasts_S128_S1x128 (0 : Fin 1) q)

/-- Region 0's two steps together: the new running sum of squares at column `q` is the old one plus the sum over the tile's rows of the squared element. -/
theorem pay17_0 (v29 : FVec Ideal S1x128 .f32) (v0 v3 : Vec Ideal S5000x128 .f32) (v5 v8 : Vec Ideal S128x128 .f32) (v14 : Vec Ideal S1x128 .f32) (q : Fin 128) :
    k0_pay1 (F := Ideal) v29 (k0_pay7 (F := Ideal) v0 v3 v5 v8 v14) (ix2 0 q)
      = v29 (ix2 0 q) + ((0 : EReal) + ∑ p : Fin 5000, k0_pay2 (F := Ideal) v0 v3 v5 v8 v14 (ix2 p q) * k0_pay2 (F := Ideal) v0 v3 v5 v8 v14 (ix2 p q)) := by
  rw [pay1_0, pay7_0]

/-- The squared linear layer of region 2 at row `p`, column `q`. -/
theorem pay7_2 (v0 v3 : Vec Ideal S5000x128 .f32) (v6 v9 : Vec Ideal S128x128 .f32) (v15 : Vec Ideal S1x128 .f32) (p : Fin 5000) (q : Fin 128) :
    k2_pay7 (F := Ideal) v0 v3 v6 v9 v15 (ix2 p q)
      = k2_pay2 (F := Ideal) v0 v3 v6 v9 v15 (ix2 p q) * k2_pay2 (F := Ideal) v0 v3 v6 v9 v15 (ix2 p q) := by
  unfold k2_pay7
  rfl

/-- The running sum after a tile `v31` is added, at column `q`: the old one plus the sum over the tile's rows. -/
theorem pay1_2 (v30 : FVec Ideal S1x128 .f32) (v31 : FVec Ideal S5000x128 .f32) (q : Fin 128) :
    k2_pay1 (F := Ideal) v30 v31 (ix2 0 q) = v30 (ix2 0 q) + ((0 : EReal) + ∑ p : Fin 5000, v31 (ix2 p q)) := by
  unfold k2_pay1
  rw [addf_apply]
  exact congrArg (v30 (ix2 0 q) + ·) (rowsum v31 q)

/-- Region 2's two steps together: the new running sum of squares at column `q` is the old one plus the sum over the tile's rows of the squared element. -/
theorem pay17_2 (v30 : FVec Ideal S1x128 .f32) (v0 v3 : Vec Ideal S5000x128 .f32) (v6 v9 : Vec Ideal S128x128 .f32) (v15 : Vec Ideal S1x128 .f32) (q : Fin 128) :
    k2_pay1 (F := Ideal) v30 (k2_pay7 (F := Ideal) v0 v3 v6 v9 v15) (ix2 0 q)
      = v30 (ix2 0 q) + ((0 : EReal) + ∑ p : Fin 5000, k2_pay2 (F := Ideal) v0 v3 v6 v9 v15 (ix2 p q) * k2_pay2 (F := Ideal) v0 v3 v6 v9 v15 (ix2 p q)) := by
  rw [pay1_2]
  rfl

/-- A row of zeros. -/
theorem pay3_0 (j : S1x128.Idx) : k0_pay3 (F := Ideal) j = 0 := by
  unfold k0_pay3
  exact Ideal.ofBits_zero_f32

/-- A row of zeros. -/
theorem pay4_0 (j : S1x128.Idx) : k0_pay4 (F := Ideal) j = 0 := by
  unfold k0_pay4
  exact Ideal.ofBits_zero_f32

/-- A row of zeros. -/
theorem pay3_2 (j : S1x128.Idx) : k2_pay3 (F := Ideal) j = 0 := by
  unfold k2_pay3
  exact Ideal.ofBits_zero_f32

/-- A row of zeros. -/
theorem pay4_2 (j : S1x128.Idx) : k2_pay4 (F := Ideal) j = 0 := by
  unfold k2_pay4
  exact Ideal.ofBits_zero_f32

/-- A one-row matrix recast to its own shape is itself. -/
theorem pay6_0 (v28 : Vec Ideal S1x128 .f32) : k0_pay6 (F := Ideal) v28 = v28 := by
  unfold k0_pay6
  exact shapeCast_self _ _

/-- A one-row matrix recast to its own shape is itself. -/
theorem pay6_2 (v29 : Vec Ideal S1x128 .f32) : k2_pay6 (F := Ideal) v29 = v29 := by
  unfold k2_pay6
  exact shapeCast_self _ _

end Cert.Sage.Pay

end
-- ==== Proof.KReg0.lean ====
/- The first linear region in closed form: per grid point a tile of 5000 rows of the linear layer, and two running
   one-row accumulators (the column sums of the layer and of its squares) zeroed at the first point, carried from
   point to point, and written back after the last. -/
import proofs.«156934_j7851200217408_1_alg».proof.Proof.Gen.KernelIdeal.Frame
import Idealize.ShloMosaic.Lib.Pipeline.Value
import Idealize.ShloMosaic.Lib.ValueIdx
import Idealize.ShloMosaic.Lib.ValueLayout
import Idealize.ShloMosaic.Lib.Tactic
import proofs.«156934_j7851200217408_1_alg».proof.Proof.Spec
import proofs.«156934_j7851200217408_1_alg».proof.Proof.Payloads

noncomputable section

open Idealize.ShloMosaic Idealize.ShloMosaic.TcCoe Idealize.SL.Sem
open Idealize.ShloMosaic.Pipeline (Dat)

namespace Cert.Sage.KReg0

open Cert.KernelIdeal Cert.KernelIdeal.Gen Idealize.ShloMosaic.ValueIdx Cert.Sage

variable {F : FTy → Type} [FloatOps F]

theorem hz : (![0, 0] : Fin 2 → Nat) = fun _ => 0 := funext fun a => by fin_cases a <;> rfl

/-- Case A, output 5: the one covering store's payload is the linear layer of the input blocks. -/
theorem out_A_5 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : cond0_0 i) (x0 : Vec F S5000x128 .f32) (x1 : Vec F S5000x128 .f32) (x2 : Vec F S128x128 .f32) (x3 : Vec F S1x128 .f32) (x4 : Vec F S128x128 .f32) :
    out0_A_5 c i arg1 harg1 arg2 harg2 arg3 harg3 arg4 harg4 arg5 harg5 arg6 harg6 arg7 harg7 arg8 harg8 hc0 x0 x1 x2 x3 x4 = k0_pay2 x0 x1 x2 x4 x3 := by
  unfold out0_A_5
  rw [View.read_writes_eq_canon _ _ _ (cover0_A_5 c i arg1 harg1 arg2 harg2 arg3 harg3 arg4 harg4 arg5 harg5 arg6 harg6 arg7 harg7 arg8 harg8 hc0 x0 x1 x2 x3 x4)]
  unfold kernelRun0_A
  dsimp only
  sl_unfold_words
  rw [View.canon_unit_zero hz]
  simp only [View.readAt_eq_ld, harg1.read_unread, harg2.read_unread, harg3.read_unread, harg4.read_unread, harg5.read_unread, View.ld_unit_zero (S := S5000x128) hz, View.ld_unit_zero (S := S128x128) hz, View.ld_unit_zero (S := S1x128) hz]

/-- Case A, output 6: the zero row is stored, read back, and the tile's column sums are added to it. -/
theorem out_A_6 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : cond0_0 i) (x0 : Vec F S5000x128 .f32) (x1 : Vec F S5000x128 .f32) (x2 : Vec F S128x128 .f32) (x3 : Vec F S1x128 .f32) (x4 : Vec F S128x128 .f32) :
    out0_A_6 c i arg1 harg1 arg2 harg2 arg3 harg3 arg4 harg4 arg5 harg5 arg6 harg6 arg7 harg7 arg8 harg8 hc0 x0 x1 x2 x3 x4 = k0_pay5 x0 x1 x2 x4 x3 k0_pay3 := by
  unfold out0_A_6
  rw [View.read_writes_eq_canon _ _ _ (cover0_A_6 c i arg1 harg1 arg2 harg2 arg3 harg3 arg4 harg4 arg5 harg5 arg6 harg6 arg7 harg7 arg8 harg8 hc0 x0 x1 x2 x3 x4)]
  unfold kernelRun0_A
  dsimp only
  sl_unfold_words
  rw [View.canon_cons_unit_zero (S := S1x128) hz, View.readCov_unit_zero (S := S1x128) _ hz]
  simp only [View.readAt_eq_ld, harg1.read_unread, harg2.read_unread, harg3.read_unread, harg4.read_unread, harg5.read_unread, View.ld_unit_zero (S := S5000x128) hz, View.ld_unit_zero (S := S128x128) hz, View.ld_unit_zero (S := S1x128) hz]

/-- Case A, output 7: likewise for the column sums of squares. -/
theorem out_A_7 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : cond0_0 i) (x0 : Vec F S5000x128 .f32) (x1 : Vec F S5000x128 .f32) (x2 : Vec F S128x128 .f32) (x3 : Vec F S1x128 .f32) (x4 : Vec F S128x128 .f32) :
    out0_A_7 c i arg1 harg1 arg2 harg2 arg3 harg3 arg4 harg4 arg5 harg5 arg6 harg6 arg7 harg7 arg8 harg8 hc0 x0 x1 x2 x3 x4 = k0_pay1 (k0_pay6 k0_pay4) (k0_pay7 x0 x1 x2 x4 x3) := by
  unfold out0_A_7
  rw [View.read_writes_eq_canon _ _ _ (cover0_A_7 c i arg1 harg1 arg2 harg2 arg3 harg3 arg4 harg4 arg5 harg5 arg6 harg6 arg7 harg7 arg8 harg8 hc0 x0 x1 x2 x3 x4)]
  unfold kernelRun0_A
  dsimp only
  sl_unfold_words
  rw [View.canon_cons_unit_zero (S := S1x128) hz, View.readCov_unit_zero (S := S1x128) _ hz]
  simp only [View.readAt_eq_ld, harg1.read_unread, harg2.read_unread, harg3.read_unread, harg4.read_unread, harg5.read_unread, View.ld_unit_zero (S := S5000x128) hz, View.ld_unit_zero (S := S128x128) hz, View.ld_unit_zero (S := S1x128) hz]

/-- Case B, output 5: the linear layer of the input blocks. -/
theorem out_B_5 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (x0 : Vec F S5000x128 .f32) (x1 : Vec F S5000x128 .f32) (x2 : Vec F S128x128 .f32) (x3 : Vec F S1x128 .f32) (x4 : Vec F S128x128 .f32) (xo6 : Vec F S1x128 .f32) (xo7 : Vec F S1x128 .f32) :
    out0_B_5 c i arg1 harg1 arg2 harg2 arg3 harg3 arg4 harg4 arg5 harg5 arg6 harg6 arg7 harg7 arg8 harg8 hc0 x0 x1 x2 x3 x4 xo6 xo7 = k0_pay2 x0 x1 x2 x4 x3 := by
  unfold out0_B_5
  rw [View.read_writes_eq_canon _ _ _ (cover0_B_5 c i arg1 harg1 arg2 harg2 arg3 harg3 arg4 harg4 arg5 harg5 arg6 harg6 arg7 harg7 arg8 harg8 hc0 x0 x1 x2 x3 x4 xo6 xo7)]
  unfold kernelRun0_B
  dsimp only
  sl_unfold_words
  rw [View.canon_unit_zero hz]
  simp only [View.readAt_eq_ld, harg1.read_unread, harg2.read_unread, harg3.read_unread, harg4.read_unread, harg5.read_unread, harg7.read_unread, harg8.read_unread, View.ld_unit_zero (S := S5000x128) hz, View.ld_unit_zero (S := S128x128) hz, View.ld_unit_zero (S := S1x128) hz]

/-- Case B, output 6: the tile's column sums added to the row carried from the point before. -/
theorem out_B_6 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (x0 : Vec F S5000x128 .f32) (x1 : Vec F S5000x128 .f32) (x2 : Vec F S128x128 .f32) (x3 : Vec F S1x128 .f32) (x4 : Vec F S128x128 .f32) (xo6 : Vec F S1x128 .f32) (xo7 : Vec F S1x128 .f32) :
    out0_B_6 c i arg1 harg1 arg2 harg2 arg3 harg3 arg4 harg4 arg5 harg5 arg6 harg6 arg7 harg7 arg8 harg8 hc0 x0 x1 x2 x3 x4 xo6 xo7 = k0_pay5 x0 x1 x2 x4 x3 xo6 := by
  unfold out0_B_6
  rw [View.read_writes_eq_canon _ _ _ (cover0_B_6 c i arg1 harg1 arg2 harg2 arg3 harg3 arg4 harg4 arg5 harg5 arg6 harg6 arg7 harg7 arg8 harg8 hc0 x0 x1 x2 x3 x4 xo6 xo7)]
  unfold kernelRun0_B
  dsimp only
  sl_unfold_words
  rw [View.canon_unit_zero hz]
  simp only [View.readAt_eq_ld, harg1.read_unread, harg2.read_unread, harg3.read_unread, harg4.read_unread, harg5.read_unread, harg7.read_unread, harg8.read_unread, View.ld_unit_zero (S := S5000x128) hz, View.ld_unit_zero (S := S128x128) hz, View.ld_unit_zero (S := S1x128) hz]

/-- Case B, output 7: likewise for the column sums of squares. -/
theorem out_B_7 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (x0 : Vec F S5000x128 .f32) (x1 : Vec F S5000x128 .f32) (x2 : Vec F S128x128 .f32) (x3 : Vec F S1x128 .f32) (x4 : Vec F S128x128 .f32) (xo6 : Vec F S1x128 .f32) (xo7 : Vec F S1x128 .f32) :
    out0_B_7 c i arg1 harg1 arg2 harg2 arg3 harg3 arg4 harg4 arg5 harg5 arg6 harg6 arg7 harg7 arg8 harg8 hc0 x0 x1 x2 x3 x4 xo6 xo7 = k0_pay1 (k0_pay6 xo7) (k0_pay7 x0 x1 x2 x4 x3) := by
  unfold out0_B_7
  rw [View.read_writes_eq_canon _ _ _ (cover0_B_7 c i arg1 harg1 arg2 harg2 arg3 harg3 arg4 harg4 arg5 harg5 arg6 harg6 arg7 harg7 arg8 harg8 hc0 x0 x1 x2 x3 x4 xo6 xo7)]
  unfold kernelRun0_B
  dsimp only
  sl_unfold_words
  rw [View.canon_unit_zero hz]
  simp only [View.readAt_eq_ld, harg1.read_unread, harg2.read_unread, harg3.read_unread, harg4.read_unread, harg5.read_unread, harg7.read_unread, harg8.read_unread, View.ld_unit_zero (S := S5000x128) hz, View.ld_unit_zero (S := S128x128) hz, View.ld_unit_zero (S := S1x128) hz]

/-! ## The running sums, as arithmetic -/

/-- The matrix of squares. -/
def sq (x : Spec.M 100000 128) : Spec.M 100000 128 := fun i => x i * x i

/-- One more tile: the partial column sum below row `5000 t`, plus zero plus the tile's column sum, is the partial
    sum below row `5000 (t + 1)`. -/
theorem acc_step (L : Spec.M 100000 128) (t : ℕ) (ht : t < 20) (q : Fin 128) (blk : Fin 5000 → EReal)
    (hblk : ∀ (p : Fin 5000) (hr : 5000 * t + p.val < 100000), blk p = L (ix2 ⟨5000 * t + p.val, hr⟩ q)) (old : EReal)
    (hold : old = Spec.partialCol L (5000 * t) q) :
    old + ((0 : EReal) + ∑ p : Fin 5000, blk p) = Spec.partialCol L (5000 * (t + 1)) q := by
  rw [zero_add, hold, Nat.mul_succ, Spec.partialCol_add]
  congr 1
  rw [← Fin.sum_univ_eq_sum_range (fun i => if h : 5000 * t + i < 100000 then L (ix2 ⟨5000 * t + i, h⟩ q) else 0) 5000]
  refine Finset.sum_congr rfl fun p _ => ?_
  have hr : 5000 * t + p.val < 100000 := by have := p.isLt; omega
  rw [hblk p hr, dif_pos hr]

/-- No rows: the empty sum. -/
theorem partialCol_zero (L : Spec.M 100000 128) (q : Fin 128) : Spec.partialCol L 0 q = 0 := by
  unfold Spec.partialCol
  rw [Finset.range_zero, Finset.sum_empty]

/-! ## The region at the extended reals -/

section AtIdeal

variable (V : (c : Dev nD) → (b : Ref sig .tc) → Buf (Elt Ideal) ((c : Thread nD τ).loc b))

/-- The linear layer of the whole arrays the region finds: aggregate, features, left weights, right weights, bias. -/
abbrev L0 (c : Dev nD) : Spec.M 100000 128 :=
  Spec.lin (V c main_v24) (V c main_arg0) (V c main_v25) (V c main_v26) (V c main_v27)

/-- The printed index maps over the grid: the row windows move one block of 5000 rows per point, the others stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

/-- Row `p` of the aggregate's block at point `t` is row `5000 t + p` of the array. -/
theorem blk_0 (c : Dev nD) (t : Fin cfg0.N) (p : Fin 5000) (k : Fin 128) (hr : 5000 * t.val + p.val < 100000) :
    (iblk0 V c 0 t : Vec Ideal S5000x128 .f32) (ix2 p k) = (V c main_v24 : Spec.M 100000 128) (ix2 ⟨5000 * t.val + p.val, hr⟩ k) := by
  obtain ⟨e0, e1, -⟩ := idx_facts t
  unfold iblk0
  rw [View.read_apply]
  show (V c main_v24 : Spec.M 100000 128) _ = _
  congr 1
  funext a
  apply Fin.ext
  match a with
  | ⟨0, _⟩ => show win0_0.index t (0 : Fin 2) * 5000 + 1 * p.val = 5000 * t.val + p.val; rw [e0]; omega
  | ⟨1, _⟩ => show win0_0.index t (1 : Fin 2) * 128 + 1 * k.val = k.val; rw [e1]; omega

/-- Row `p` of the features' block at point `t` is row `5000 t + p` of the array. -/
theorem blk_1 (c : Dev nD) (t : Fin cfg0.N) (p : Fin 5000) (k : Fin 128) (hr : 5000 * t.val + p.val < 100000) :
    (iblk0 V c 1 t : Vec Ideal S5000x128 .f32) (ix2 p k) = (V c main_arg0 : Spec.M 100000 128) (ix2 ⟨5000 * t.val + p.val, hr⟩ k) := by
  obtain ⟨-, -, e0, e1, -⟩ := idx_facts t
  unfold iblk0
  rw [View.read_apply]
  show (V c main_arg0 : Spec.M 100000 128) _ = _
  congr 1
  funext a
  apply Fin.ext
  match a with
  | ⟨0, _⟩ => show win0_1.index t (0 : Fin 2) * 5000 + 1 * p.val = 5000 * t.val + p.val; rw [e0]; omega
  | ⟨1, _⟩ => show win0_1.index t (1 : Fin 2) * 128 + 1 * k.val = k.val; rw [e1]; omega

/-- The left weights' one block is the array. -/
theorem blk_2 (c : Dev nD) (t : Fin cfg0.N) (k q : Fin 128) :
    (iblk0 V c 2 t : Vec Ideal S128x128 .f32) (ix2 k q) = (V c main_v25 : Spec.M 128 128) (ix2 k q) := by
  obtain ⟨-, -, -, -, e0, e1, -⟩ := idx_facts t
  unfold iblk0
  rw [View.read_apply]
  show (V c main_v25 : Spec.M 128 128) _ = _
  congr 1
  funext a
  apply Fin.ext
  match a with
  | ⟨0, _⟩ => show win0_2.index t (0 : Fin 2) * 128 + 1 * k.val = k.val; rw [e0]; omega
  | ⟨1, _⟩ => show win0_2.index t (1 : Fin 2) * 128 + 1 * q.val = q.val; rw [e1]; omega

/-- The bias's one block is the array. -/
theorem blk_3 (c : Dev nD) (t : Fin cfg0.N) (u : Fin 1) (q : Fin 128) :
    (iblk0 V c 3 t : Vec Ideal S1x128 .f32) (ix2 u q) = (V c main_v27 : Spec.M 1 128) (ix2 u q) := by
  obtain ⟨-, -, -, -, -, -, e0, e1, -⟩ := idx_facts t
  unfold iblk0
  rw [View.read_apply]
  show (V c main_v27 : Spec.M 1 128) _ = _
  congr 1
  funext a
  apply Fin.ext
  match a with
  | ⟨0, _⟩ => show win0_3.index t (0 : Fin 2) * 1 + 1 * u.val = u.val; rw [e0]; omega
  | ⟨1, _⟩ => show win0_3.index t (1 : Fin 2) * 128 + 1 * q.val = q.val; rw [e1]; omega

/-- The right weights' one block is the array. -/
theorem blk_4 (c : Dev nD) (t : Fin cfg0.N) (k q : Fin 128) :
    (iblk0 V c 4 t : Vec Ideal S128x128 .f32) (ix2 k q) = (V c main_v26 : Spec.M 128 128) (ix2 k q) := by
  obtain ⟨-, -, -, -, -, -, -, -, e0, e1, -⟩ := idx_facts t
  unfold iblk0
  rw [View.read_apply]
  show (V c main_v26 : Spec.M 128 128) _ = _
  congr 1
  funext a
  apply Fin.ext
  match a with
  | ⟨0, _⟩ => show win0_4.index t (0 : Fin 2) * 128 + 1 * k.val = k.val; rw [e0]; omega
  | ⟨1, _⟩ => show win0_4.index t (1 : Fin 2) * 128 + 1 * q.val = q.val; rw [e1]; omega

/-- The tile the body computes at point `t`, at row `p` and column `q`: the linear layer of the arrays at row `5000 t + p`. -/
theorem pay2_blk (c : Dev nD) (t : Fin cfg0.N) (p : Fin 5000) (q : Fin 128) (hr : 5000 * t.val + p.val < 100000) :
    k0_pay2 (F := Ideal) (iblk0 V c 0 t) (iblk0 V c 1 t) (iblk0 V c 2 t) (iblk0 V c 4 t) (iblk0 V c 3 t) (ix2 p q) = L0 V c (ix2 ⟨5000 * t.val + p.val, hr⟩ q) := by
  refine (Pay.pay2_0 (iblk0 V c 0 t) (iblk0 V c 1 t) (iblk0 V c 2 t) (iblk0 V c 4 t) (iblk0 V c 3 t) p q).trans ?_
  show _ = Spec.linE (V c main_v24) (V c main_arg0) (V c main_v25) (V c main_v26) (V c main_v27) ⟨5000 * t.val + p.val, hr⟩ q
  unfold Spec.linE
  refine congrArg₂ (· + ·) (congrArg₂ (· + ·) (Finset.sum_congr rfl fun k _ => ?_) (Finset.sum_congr rfl fun k _ => ?_)) ?_
  · exact congrArg₂ (· * ·) (blk_0 V c t p k hr) (blk_2 V c t k q)
  · exact congrArg₂ (· * ·) (blk_1 V c t p k hr) (blk_4 V c t k q)
  · exact blk_3 V c t 0 q

/-- After every point the first output's staging buffer holds the point's tile of the linear layer. -/
theorem outs_5 (c : Dev nD) (t : Fin cfg0.N) :
    (outsAt0 (F := Ideal) V c t.val t.isLt).1 = k0_pay2 (F := Ideal) (iblk0 V c 0 t) (iblk0 V c 1 t) (iblk0 V c 2 t) (iblk0 V c 4 t) (iblk0 V c 3 t) := by
  by_cases h0 : t.val % 20 = 0
  · rw [outsAt0_A V c t h0]
    dsimp only
    exact out_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk0 V c 0 t) (iblk0 V c 1 t) (iblk0 V c 2 t) (iblk0 V c 3 t) (iblk0 V c 4 t)
  · rw [outsAt0_B V c t h0]
    dsimp only
    exact out_B_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.1 (outsAt0 V c (t.val - 1) (Nat.lt_of_le_of_lt (Nat.sub_le _ _) t.isLt)).2.2

/-- At the first point the second output's buffer holds the zero row plus the tile's column sums. -/
theorem outs_6_A (c : Dev nD) (t : Fin cfg0.N) (h0 : t.val % 20 = 0) :
    (outsAt0 (F := Ideal) V c t.val t.isLt).2.1 = k0_pay5 (F := Ideal) (iblk0 V c 0 t) (iblk0 V c 1 t) (iblk0 V c 2 t) (iblk0 V c 4 t) (iblk0 V c 3 t) (k0_pay3 (F := Ideal)) := by
  rw [outsAt0_A V c t h0]
  dsimp only
  exact out_A_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk0 V c 0 t) (iblk0 V c 1 t) (iblk0 V c 2 t) (iblk0 V c 3 t) (iblk0 V c 4 t)

/-- At a later point: the row the point before left plus the tile's column sums. -/
theorem outs_6_B (c : Dev nD) (t : Fin cfg0.N) (h0 : ¬t.val % 20 = 0) :
    (outsAt0 (F := Ideal) V c t.val t.isLt).2.1 = k0_pay5 (F := Ideal) (iblk0 V c 0 t) (iblk0 V c 1 t) (iblk0 V c 2 t) (iblk0 V c 4 t) (iblk0 V c 3 t) (outsAt0 V c (t.val - 1) (Nat.lt_of_le_of_lt (Nat.sub_le _ _) t.isLt)).2.1 := by
  rw [outsAt0_B V c t h0]
  dsimp only
  exact out_B_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.1 (outsAt0 V c (t.val - 1) (Nat.lt_of_le_of_lt (Nat.sub_le _ _) t.isLt)).2.2

/-- At the first point the third output's buffer holds the zero row plus the tile's column sums of squares. -/
theorem outs_7_A (c : Dev nD) (t : Fin cfg0.N) (h0 : t.val % 20 = 0) :
    (outsAt0 (F := Ideal) V c t.val t.isLt).2.2 = k0_pay1 (F := Ideal) (k0_pay6 (F := Ideal) (k0_pay4 (F := Ideal))) (k0_pay7 (F := Ideal) (iblk0 V c 0 t) (iblk0 V c 1 t) (iblk0 V c 2 t) (iblk0 V c 4 t) (iblk0 V c 3 t)) := by
  rw [outsAt0_A V c t h0]
  dsimp only
  exact out_A_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk0 V c 0 t) (iblk0 V c 1 t) (iblk0 V c 2 t) (iblk0 V c 3 t) (iblk0 V c 4 t)

/-- At a later point: the row the point before left plus the tile's column sums of squares. -/
theorem outs_7_B (c : Dev nD) (t : Fin cfg0.N) (h0 : ¬t.val % 20 = 0) :
    (outsAt0 (F := Ideal) V c t.val t.isLt).2.2 = k0_pay1 (F := Ideal) (k0_pay6 (F := Ideal) (outsAt0 V c (t.val - 1) (Nat.lt_of_le_of_lt (Nat.sub_le _ _) t.isLt)).2.2) (k0_pay7 (F := Ideal) (iblk0 V c 0 t) (iblk0 V c 1 t) (iblk0 V c 2 t) (iblk0 V c 4 t) (iblk0 V c 3 t)) := by
  rw [outsAt0_B V c t h0]
  dsimp only
  exact out_B_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.1 (outsAt0 V c (t.val - 1) (Nat.lt_of_le_of_lt (Nat.sub_le _ _) t.isLt)).2.2

/-- THE ACCUMULATORS after point `n`, at column `q`: the column sums of the linear layer, and of its squares, over the
    rows below `5000 (n + 1)` — by induction on the point. -/
theorem outs_acc (c : Dev nD) : ∀ (n : ℕ) (h : n < cfg0.N) (q : Fin 128),
    (outsAt0 (F := Ideal) V c n h).2.1 (ix2 0 q) = Spec.partialCol (L0 V c) (5000 * (n + 1)) q
    ∧ (outsAt0 (F := Ideal) V c n h).2.2 (ix2 0 q) = Spec.partialCol (sq (L0 V c)) (5000 * (n + 1)) q
  | 0, h, q => by
    have e6 := outs_6_A V c ⟨0, h⟩ rfl
    have e7 := outs_7_A V c ⟨0, h⟩ rfl
    constructor
    · refine (congrFun e6 (ix2 0 q)).trans ?_
      refine (Pay.pay5_0 (iblk0 V c 0 ⟨0, h⟩) (iblk0 V c 1 ⟨0, h⟩) (iblk0 V c 2 ⟨0, h⟩) (iblk0 V c 4 ⟨0, h⟩) (iblk0 V c 3 ⟨0, h⟩) (k0_pay3 (F := Ideal)) q).trans ?_
      exact acc_step (L0 V c) 0 (by omega) q (fun p => k0_pay2 (F := Ideal) (iblk0 V c 0 ⟨0, h⟩) (iblk0 V c 1 ⟨0, h⟩) (iblk0 V c 2 ⟨0, h⟩) (iblk0 V c 4 ⟨0, h⟩) (iblk0 V c 3 ⟨0, h⟩) (ix2 p q))
        (fun p hr => pay2_blk V c ⟨0, h⟩ p q hr) _ ((Pay.pay3_0 _).trans (partialCol_zero _ q).symm)
    · refine (congrFun e7 (ix2 0 q)).trans ?_
      refine (Pay.pay17_0 (k0_pay6 (F := Ideal) (k0_pay4 (F := Ideal))) (iblk0 V c 0 ⟨0, h⟩) (iblk0 V c 1 ⟨0, h⟩) (iblk0 V c 2 ⟨0, h⟩) (iblk0 V c 4 ⟨0, h⟩) (iblk0 V c 3 ⟨0, h⟩) q).trans ?_
      refine acc_step (sq (L0 V c)) 0 (by omega) q
        (fun p => k0_pay2 (F := Ideal) (iblk0 V c 0 ⟨0, h⟩) (iblk0 V c 1 ⟨0, h⟩) (iblk0 V c 2 ⟨0, h⟩) (iblk0 V c 4 ⟨0, h⟩) (iblk0 V c 3 ⟨0, h⟩) (ix2 p q) * k0_pay2 (F := Ideal) (iblk0 V c 0 ⟨0, h⟩) (iblk0 V c 1 ⟨0, h⟩) (iblk0 V c 2 ⟨0, h⟩) (iblk0 V c 4 ⟨0, h⟩) (iblk0 V c 3 ⟨0, h⟩) (ix2 p q))
        (fun p hr => congrArg₂ (· * ·) (pay2_blk V c ⟨0, h⟩ p q hr) (pay2_blk V c ⟨0, h⟩ p q hr)) _ ?_
      rw [Pay.pay6_0]
      exact (Pay.pay4_0 _).trans (partialCol_zero _ q).symm
  | n + 1, h, q => by
    have hN : cfg0.N = 20 := N_0
    have hB : ¬(⟨n + 1, h⟩ : Fin cfg0.N).val % 20 = 0 := by dsimp only; omega
    have e6 := outs_6_B V c ⟨n + 1, h⟩ hB
    have e7 := outs_7_B V c ⟨n + 1, h⟩ hB
    obtain ⟨ih6, ih7⟩ := outs_acc c n (Nat.lt_of_succ_lt h) q
    constructor
    · refine (congrFun e6 (ix2 0 q)).trans ?_
      refine (Pay.pay5_0 (iblk0 V c 0 ⟨n + 1, h⟩) (iblk0 V c 1 ⟨n + 1, h⟩) (iblk0 V c 2 ⟨n + 1, h⟩) (iblk0 V c 4 ⟨n + 1, h⟩) (iblk0 V c 3 ⟨n + 1, h⟩) (outsAt0 (F := Ideal) V c n (Nat.lt_of_succ_lt h)).2.1 q).trans ?_
      exact acc_step (L0 V c) (n + 1) (by omega) q (fun p => k0_pay2 (F := Ideal) (iblk0 V c 0 ⟨n + 1, h⟩) (iblk0 V c 1 ⟨n + 1, h⟩) (iblk0 V c 2 ⟨n + 1, h⟩) (iblk0 V c 4 ⟨n + 1, h⟩) (iblk0 V c 3 ⟨n + 1, h⟩) (ix2 p q))
        (fun p hr => pay2_blk V c ⟨n + 1, h⟩ p q hr) _ ih6
    · refine (congrFun e7 (ix2 0 q)).trans ?_
      refine (Pay.pay17_0 (k0_pay6 (F := Ideal) (outsAt0 (F := Ideal) V c n (Nat.lt_of_succ_lt h)).2.2) (iblk0 V c 0 ⟨n + 1, h⟩) (iblk0 V c 1 ⟨n + 1, h⟩) (iblk0 V c 2 ⟨n + 1, h⟩) (iblk0 V c 4 ⟨n + 1, h⟩) (iblk0 V c 3 ⟨n + 1, h⟩) q).trans ?_
      refine acc_step (sq (L0 V c)) (n + 1) (by omega) q
        (fun p => k0_pay2 (F := Ideal) (iblk0 V c 0 ⟨n + 1, h⟩) (iblk0 V c 1 ⟨n + 1, h⟩) (iblk0 V c 2 ⟨n + 1, h⟩) (iblk0 V c 4 ⟨n + 1, h⟩) (iblk0 V c 3 ⟨n + 1, h⟩) (ix2 p q) * k0_pay2 (F := Ideal) (iblk0 V c 0 ⟨n + 1, h⟩) (iblk0 V c 1 ⟨n + 1, h⟩) (iblk0 V c 2 ⟨n + 1, h⟩) (iblk0 V c 4 ⟨n + 1, h⟩) (iblk0 V c 3 ⟨n + 1, h⟩) (ix2 p q))
        (fun p hr => congrArg₂ (· * ·) (pay2_blk V c ⟨n + 1, h⟩ p q hr) (pay2_blk V c ⟨n + 1, h⟩ p q hr)) _ ?_
      rw [Pay.pay6_0]
      exact ih7

/-! ## From the points to the arrays -/

/-- WHAT POINT `t` WRITES BACK to output 5 is block `t` of the linear layer of the whole arrays. -/
theorem flushed_5 (c : Dev nD) (t : Fin cfg0.N) :
    (dat0 (F := Ideal) V c).flushed 5 t = ((cfg0.win 5).blk t).view.read (Elt Ideal) (L0 V c) := by
  show (cfg0.win 5).cut (grid0.coords t) ((dat0 (F := Ideal) V c).after 5 t) = _
  rw [after0_5, outs_5]
  obtain ⟨-, -, -, -, -, -, -, -, -, -, e0, e1, -⟩ := idx_facts t
  have hN : cfg0.N = 20 := N_0
  refine funext fun (j : S5000x128.Idx) => ?_
  obtain ⟨p, q, rfl⟩ : ∃ (p : Fin 5000) (q : Fin 128), j = ix2 p q := ⟨j 0, j 1, eq_ix2 j⟩
  have hr : 5000 * t.val + p.val < 100000 := by have := t.isLt; have := p.isLt; omega
  show k0_pay2 (F := Ideal) (iblk0 V c 0 t) (iblk0 V c 1 t) (iblk0 V c 2 t) (iblk0 V c 4 t) (iblk0 V c 3 t) (ix2 p q) = L0 V c (((cfg0.win 5).blk t).view.emb (ix2 p q))
  refine (pay2_blk V c t p q hr).trans ?_
  congr 1
  funext a
  apply Fin.ext
  match a with
  | ⟨0, _⟩ => show 5000 * t.val + p.val = win0_5.index t (0 : Fin 2) * 5000 + 1 * p.val; rw [e0]; omega
  | ⟨1, _⟩ => show q.val = win0_5.index t (1 : Fin 2) * 128 + 1 * q.val; rw [e1]; omega

/-- An index of the array is in point `t`'s block iff each coordinate is in the block's range on its axis. -/
theorem mem_blk_5 (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v28_0).slice (win0_5.rect t)).set ↔ _
  rw [View.set_slice_whole, Rect.mem_set_unit]
  exact Iff.rfl

/-- THE ARRAY output 5 ends holding: the linear layer of the whole arrays (row `r` is covered by point `r / 5000`). -/
theorem final0_5 (c : Dev nD) : (dat0 (F := Ideal) V c).arrAt 5 cfg0.N = L0 V c :=
  (dat0 (F := Ideal) V c).arrAt_eq_of_cover 5 (L0 V c) (fun t _ => flushed_5 V c t) fun (i : S100000x128.Idx) => by
    have hN : cfg0.N = 20 := N_0
    have hi0 : (i 0).val < 100000 := (i 0).isLt
    have hi1 : (i 1).val < 128 := (i 1).isLt
    obtain ⟨-, -, -, -, -, -, -, -, -, -, e0, e1, -⟩ := idx_facts (⟨(i 0).val / 5000, by omega⟩ : Fin cfg0.N)
    refine ⟨⟨(i 0).val / 5000, by omega⟩, flush0_5 _, ?_⟩
    rw [mem_blk_5]
    intro a
    match a with
    | ⟨0, _⟩ => show win0_5.index _ (0 : Fin 2) * 5000 ≤ (i 0).val ∧ (i 0).val < win0_5.index _ (0 : Fin 2) * 5000 + 5000; rw [e0]; dsimp only; omega
    | ⟨1, _⟩ => show win0_5.index _ (1 : Fin 2) * 128 ≤ (i 1).val ∧ (i 1).val < win0_5.index _ (1 : Fin 2) * 128 + 128; rw [e1]; omega

/-- WHAT THE LAST POINT WRITES BACK to output 6: the column sums over all rows, started at zero. -/
theorem flushed_6 (c : Dev nD) (t : Fin cfg0.N) (hf : (cfg0.win 6).flush t = true) :
    (dat0 (F := Ideal) V c).flushed 6 t = ((cfg0.win 6).blk t).view.read (Elt Ideal) (Spec.colSum (L0 V c)) := by
  have hN : cfg0.N = 20 := N_0
  have h19 : t.val = 19 := by have := (flush0_6 t).mp hf; have := t.isLt; omega
  show (cfg0.win 6).cut (grid0.coords t) ((dat0 (F := Ideal) V c).after 6 t) = _
  rw [after0_6]
  obtain ⟨-, -, -, -, -, -, -, -, -, -, -, -, e0, e1, -⟩ := idx_facts t
  refine funext fun (j : S1x128.Idx) => ?_
  obtain ⟨u, q, rfl⟩ : ∃ (u : Fin 1) (q : Fin 128), j = ix2 u q := ⟨j 0, j 1, eq_ix2 j⟩
  obtain rfl : u = 0 := Subsingleton.elim _ _
  show (outsAt0 (F := Ideal) V c t.val t.isLt).2.1 (ix2 0 q) = Spec.colSum (L0 V c) (((cfg0.win 6).blk t).view.emb (ix2 0 q))
  refine ((outs_acc V c t.val t.isLt q).1).trans ?_
  have hemb : ((cfg0.win 6).blk t).view.emb (ix2 (0 : Fin 1) q) = (ix2 (0 : Fin 1) q : S1x128.Idx) := by
    funext a
    apply Fin.ext
    match a with
    | ⟨0, _⟩ => show win0_6.index t (0 : Fin 2) * 1 + 1 * 0 = 0; rw [e0]
    | ⟨1, _⟩ => show win0_6.index t (1 : Fin 2) * 128 + 1 * q.val = q.val; rw [e1]; omega
  rw [hemb, h19]
  show Spec.partialCol _ 100000 q = (0 : EReal) + _
  rw [Spec.partialCol_full, zero_add]

/-- An index of the one-row array is in the last point's block: the block is the array. -/
theorem mem_blk_6 (t : Fin cfg0.N) (i : S1x128.Idx) :
    i ∈ ((cfg0.win 6).blk t).view.set ↔ ∀ a : Fin 2, win0_6.index t a * S1x128.size a ≤ (i a).val ∧ (i a).val < win0_6.index t a * S1x128.size a + S1x128.size a := by
  show i ∈ ((View.whole main_v28_1).slice (win0_6.rect t)).set ↔ _
  rw [View.set_slice_whole, Rect.mem_set_unit]
  exact Iff.rfl

/-- THE ARRAY output 6 ends holding: the column sums of the linear layer over all 100000 rows, started at zero. -/
theorem final0_6 (c : Dev nD) : (dat0 (F := Ideal) V c).arrAt 6 cfg0.N = Spec.colSum (L0 V c) :=
  (dat0 (F := Ideal) V c).arrAt_eq_of_cover 6 (Spec.colSum (L0 V c)) (flushed_6 V c) fun (i : S1x128.Idx) => by
    have hN : cfg0.N = 20 := N_0
    have hi0 : (i 0).val < 1 := (i 0).isLt
    have hi1 : (i 1).val < 128 := (i 1).isLt
    obtain ⟨-, -, -, -, -, -, -, -, -, -, -, -, e0, e1, -⟩ := idx_facts (⟨19, by omega⟩ : Fin cfg0.N)
    refine ⟨⟨19, by omega⟩, (flush0_6 _).mpr rfl, ?_⟩
    rw [mem_blk_6]
    intro a
    match a with
    | ⟨0, _⟩ => show win0_6.index _ (0 : Fin 2) * 1 ≤ (i 0).val ∧ (i 0).val < win0_6.index _ (0 : Fin 2) * 1 + 1; rw [e0]; omega
    | ⟨1, _⟩ => show win0_6.index _ (1 : Fin 2) * 128 ≤ (i 1).val ∧ (i 1).val < win0_6.index _ (1 : Fin 2) * 128 + 128; rw [e1]; omega

/-- WHAT THE LAST POINT WRITES BACK to output 7: the column sums of squares over all rows, started at zero. -/
theorem flushed_7 (c : Dev nD) (t : Fin cfg0.N) (hf : (cfg0.win 7).flush t = true) :
    (dat0 (F := Ideal) V c).flushed 7 t = ((cfg0.win 7).blk t).view.read (Elt Ideal) (Spec.colSumSq (L0 V c)) := by
  have hN : cfg0.N = 20 := N_0
  have h19 : t.val = 19 := by have := (flush0_7 t).mp hf; have := t.isLt; omega
  show (cfg0.win 7).cut (grid0.coords t) ((dat0 (F := Ideal) V c).after 7 t) = _
  rw [after0_7]
  obtain ⟨-, -, -, -, -, -, -, -, -, -, -, -, -, -, e0, e1⟩ := idx_facts t
  refine funext fun (j : S1x128.Idx) => ?_
  obtain ⟨u, q, rfl⟩ : ∃ (u : Fin 1) (q : Fin 128), j = ix2 u q := ⟨j 0, j 1, eq_ix2 j⟩
  obtain rfl : u = 0 := Subsingleton.elim _ _
  show (outsAt0 (F := Ideal) V c t.val t.isLt).2.2 (ix2 0 q) = Spec.colSumSq (L0 V c) (((cfg0.win 7).blk t).view.emb (ix2 0 q))
  refine ((outs_acc V c t.val t.isLt q).2).trans ?_
  have hemb : ((cfg0.win 7).blk t).view.emb (ix2 (0 : Fin 1) q) = (ix2 (0 : Fin 1) q : S1x128.Idx) := by
    funext a
    apply Fin.ext
    match a with
    | ⟨0, _⟩ => show win0_7.index t (0 : Fin 2) * 1 + 1 * 0 = 0; rw [e0]
    | ⟨1, _⟩ => show win0_7.index t (1 : Fin 2) * 128 + 1 * q.val = q.val; rw [e1]; omega
  rw [hemb, h19]
  show Spec.partialCol _ 100000 q = (0 : EReal) + _
  rw [Spec.partialCol_full, zero_add]
  rfl

/-- An index of the one-row array is in the last point's block: the block is the array. -/
theorem mem_blk_7 (t : Fin cfg0.N) (i : S1x128.Idx) :
    i ∈ ((cfg0.win 7).blk t).view.set ↔ ∀ a : Fin 2, win0_7.index t a * S1x128.size a ≤ (i a).val ∧ (i a).val < win0_7.index t a * S1x128.size a + S1x128.size a := by
  show i ∈ ((View.whole main_v28_2).slice (win0_7.rect t)).set ↔ _
  rw [View.set_slice_whole, Rect.mem_set_unit]
  exact Iff.rfl

/-- THE ARRAY output 7 ends holding: the column sums of squares of the linear layer over all 100000 rows, started at zero. -/
theorem final0_7 (c : Dev nD) : (dat0 (F := Ideal) V c).arrAt 7 cfg0.N = Spec.colSumSq (L0 V c) :=
  (dat0 (F := Ideal) V c).arrAt_eq_of_cover 7 (Spec.colSumSq (L0 V c)) (flushed_7 V c) fun (i : S1x128.Idx) => by
    have hN : cfg0.N = 20 := N_0
    have hi0 : (i 0).val < 1 := (i 0).isLt
    have hi1 : (i 1).val < 128 := (i 1).isLt
    obtain ⟨-, -, -, -, -, -, -, -, -, -, -, -, -, -, e0, e1⟩ := idx_facts (⟨19, by omega⟩ : Fin cfg0.N)
    refine ⟨⟨19, by omega⟩, (flush0_7 _).mpr rfl, ?_⟩
    rw [mem_blk_7]
    intro a
    match a with
    | ⟨0, _⟩ => show win0_7.index _ (0 : Fin 2) * 1 ≤ (i 0).val ∧ (i 0).val < win0_7.index _ (0 : Fin 2) * 1 + 1; rw [e0]; omega
    | ⟨1, _⟩ => show win0_7.index _ (1 : Fin 2) * 128 ≤ (i 1).val ∧ (i 1).val < win0_7.index _ (1 : Fin 2) * 128 + 128; rw [e1]; omega

end AtIdeal

end Cert.Sage.KReg0

end
-- ==== Proof.KReg2.lean ====
/- The second linear region in closed form: per grid point a tile of 5000 rows of the linear layer, and two running
   one-row accumulators (the column sums of the layer and of its squares) zeroed at the first point, carried from
   point to point, and written back after the last. -/
import proofs.«156934_j7851200217408_1_alg».proof.Proof.Gen.KernelIdeal.Frame
import Idealize.ShloMosaic.Lib.Pipeline.Value
import Idealize.ShloMosaic.Lib.ValueIdx
import Idealize.ShloMosaic.Lib.ValueLayout
import Idealize.ShloMosaic.Lib.Tactic
import proofs.«156934_j7851200217408_1_alg».proof.Proof.Spec
import proofs.«156934_j7851200217408_1_alg».proof.Proof.Payloads

noncomputable section

open Idealize.ShloMosaic Idealize.ShloMosaic.TcCoe Idealize.SL.Sem
open Idealize.ShloMosaic.Pipeline (Dat)

namespace Cert.Sage.KReg2

open Cert.KernelIdeal Cert.KernelIdeal.Gen Idealize.ShloMosaic.ValueIdx Cert.Sage

variable {F : FTy → Type} [FloatOps F]

theorem hz : (![0, 0] : Fin 2 → Nat) = fun _ => 0 := funext fun a => by fin_cases a <;> rfl

/-- Case A, output 5: the one covering store's payload is the linear layer of the input blocks. -/
theorem out_A_5 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : cond2_0 i) (x0 : Vec F S5000x128 .f32) (x1 : Vec F S5000x128 .f32) (x2 : Vec F S128x128 .f32) (x3 : Vec F S1x128 .f32) (x4 : Vec F S128x128 .f32) :
    out2_A_5 c i arg1 harg1 arg2 harg2 arg3 harg3 arg4 harg4 arg5 harg5 arg6 harg6 arg7 harg7 arg8 harg8 hc0 x0 x1 x2 x3 x4 = k2_pay2 x0 x1 x2 x4 x3 := by
  unfold out2_A_5
  rw [View.read_writes_eq_canon _ _ _ (cover2_A_5 c i arg1 harg1 arg2 harg2 arg3 harg3 arg4 harg4 arg5 harg5 arg6 harg6 arg7 harg7 arg8 harg8 hc0 x0 x1 x2 x3 x4)]
  unfold kernelRun2_A
  dsimp only
  sl_unfold_words
  rw [View.canon_unit_zero hz]
  simp only [View.readAt_eq_ld, harg1.read_unread, harg2.read_unread, harg3.read_unread, harg4.read_unread, harg5.read_unread, View.ld_unit_zero (S := S5000x128) hz, View.ld_unit_zero (S := S128x128) hz, View.ld_unit_zero (S := S1x128) hz]

/-- Case A, output 6: the zero row is stored, read back, and the tile's column sums are added to it. -/
theorem out_A_6 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : cond2_0 i) (x0 : Vec F S5000x128 .f32) (x1 : Vec F S5000x128 .f32) (x2 : Vec F S128x128 .f32) (x3 : Vec F S1x128 .f32) (x4 : Vec F S128x128 .f32) :
    out2_A_6 c i arg1 harg1 arg2 harg2 arg3 harg3 arg4 harg4 arg5 harg5 arg6 harg6 arg7 harg7 arg8 harg8 hc0 x0 x1 x2 x3 x4 = k2_pay5 x0 x1 x2 x4 x3 k2_pay3 := by
  unfold out2_A_6
  rw [View.read_writes_eq_canon _ _ _ (cover2_A_6 c i arg1 harg1 arg2 harg2 arg3 harg3 arg4 harg4 arg5 harg5 arg6 harg6 arg7 harg7 arg8 harg8 hc0 x0 x1 x2 x3 x4)]
  unfold kernelRun2_A
  dsimp only
  sl_unfold_words
  rw [View.canon_cons_unit_zero (S := S1x128) hz, View.readCov_unit_zero (S := S1x128) _ hz]
  simp only [View.readAt_eq_ld, harg1.read_unread, harg2.read_unread, harg3.read_unread, harg4.read_unread, harg5.read_unread, View.ld_unit_zero (S := S5000x128) hz, View.ld_unit_zero (S := S128x128) hz, View.ld_unit_zero (S := S1x128) hz]

/-- Case A, output 7: likewise for the column sums of squares. -/
theorem out_A_7 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : cond2_0 i) (x0 : Vec F S5000x128 .f32) (x1 : Vec F S5000x128 .f32) (x2 : Vec F S128x128 .f32) (x3 : Vec F S1x128 .f32) (x4 : Vec F S128x128 .f32) :
    out2_A_7 c i arg1 harg1 arg2 harg2 arg3 harg3 arg4 harg4 arg5 harg5 arg6 harg6 arg7 harg7 arg8 harg8 hc0 x0 x1 x2 x3 x4 = k2_pay1 (k2_pay6 k2_pay4) (k2_pay7 x0 x1 x2 x4 x3) := by
  unfold out2_A_7
  rw [View.read_writes_eq_canon _ _ _ (cover2_A_7 c i arg1 harg1 arg2 harg2 arg3 harg3 arg4 harg4 arg5 harg5 arg6 harg6 arg7 harg7 arg8 harg8 hc0 x0 x1 x2 x3 x4)]
  unfold kernelRun2_A
  dsimp only
  sl_unfold_words
  rw [View.canon_cons_unit_zero (S := S1x128) hz, View.readCov_unit_zero (S := S1x128) _ hz]
  simp only [View.readAt_eq_ld, harg1.read_unread, harg2.read_unread, harg3.read_unread, harg4.read_unread, harg5.read_unread, View.ld_unit_zero (S := S5000x128) hz, View.ld_unit_zero (S := S128x128) hz, View.ld_unit_zero (S := S1x128) hz]

/-- Case B, output 5: the linear layer of the input blocks. -/
theorem out_B_5 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (x0 : Vec F S5000x128 .f32) (x1 : Vec F S5000x128 .f32) (x2 : Vec F S128x128 .f32) (x3 : Vec F S1x128 .f32) (x4 : Vec F S128x128 .f32) (xo6 : Vec F S1x128 .f32) (xo7 : Vec F S1x128 .f32) :
    out2_B_5 c i arg1 harg1 arg2 harg2 arg3 harg3 arg4 harg4 arg5 harg5 arg6 harg6 arg7 harg7 arg8 harg8 hc0 x0 x1 x2 x3 x4 xo6 xo7 = k2_pay2 x0 x1 x2 x4 x3 := by
  unfold out2_B_5
  rw [View.read_writes_eq_canon _ _ _ (cover2_B_5 c i arg1 harg1 arg2 harg2 arg3 harg3 arg4 harg4 arg5 harg5 arg6 harg6 arg7 harg7 arg8 harg8 hc0 x0 x1 x2 x3 x4 xo6 xo7)]
  unfold kernelRun2_B
  dsimp only
  sl_unfold_words
  rw [View.canon_unit_zero hz]
  simp only [View.readAt_eq_ld, harg1.read_unread, harg2.read_unread, harg3.read_unread, harg4.read_unread, harg5.read_unread, harg7.read_unread, harg8.read_unread, View.ld_unit_zero (S := S5000x128) hz, View.ld_unit_zero (S := S128x128) hz, View.ld_unit_zero (S := S1x128) hz]

/-- Case B, output 6: the tile's column sums added to the row carried from the point before. -/
theorem out_B_6 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (x0 : Vec F S5000x128 .f32) (x1 : Vec F S5000x128 .f32) (x2 : Vec F S128x128 .f32) (x3 : Vec F S1x128 .f32) (x4 : Vec F S128x128 .f32) (xo6 : Vec F S1x128 .f32) (xo7 : Vec F S1x128 .f32) :
    out2_B_6 c i arg1 harg1 arg2 harg2 arg3 harg3 arg4 harg4 arg5 harg5 arg6 harg6 arg7 harg7 arg8 harg8 hc0 x0 x1 x2 x3 x4 xo6 xo7 = k2_pay5 x0 x1 x2 x4 x3 xo6 := by
  unfold out2_B_6
  rw [View.read_writes_eq_canon _ _ _ (cover2_B_6 c i arg1 harg1 arg2 harg2 arg3 harg3 arg4 harg4 arg5 harg5 arg6 harg6 arg7 harg7 arg8 harg8 hc0 x0 x1 x2 x3 x4 xo6 xo7)]
  unfold kernelRun2_B
  dsimp only
  sl_unfold_words
  rw [View.canon_unit_zero hz]
  simp only [View.readAt_eq_ld, harg1.read_unread, harg2.read_unread, harg3.read_unread, harg4.read_unread, harg5.read_unread, harg7.read_unread, harg8.read_unread, View.ld_unit_zero (S := S5000x128) hz, View.ld_unit_zero (S := S128x128) hz, View.ld_unit_zero (S := S1x128) hz]

/-- Case B, output 7: likewise for the column sums of squares. -/
theorem out_B_7 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (x0 : Vec F S5000x128 .f32) (x1 : Vec F S5000x128 .f32) (x2 : Vec F S128x128 .f32) (x3 : Vec F S1x128 .f32) (x4 : Vec F S128x128 .f32) (xo6 : Vec F S1x128 .f32) (xo7 : Vec F S1x128 .f32) :
    out2_B_7 c i arg1 harg1 arg2 harg2 arg3 harg3 arg4 harg4 arg5 harg5 arg6 harg6 arg7 harg7 arg8 harg8 hc0 x0 x1 x2 x3 x4 xo6 xo7 = k2_pay1 (k2_pay6 xo7) (k2_pay7 x0 x1 x2 x4 x3) := by
  unfold out2_B_7
  rw [View.read_writes_eq_canon _ _ _ (cover2_B_7 c i arg1 harg1 arg2 harg2 arg3 harg3 arg4 harg4 arg5 harg5 arg6 harg6 arg7 harg7 arg8 harg8 hc0 x0 x1 x2 x3 x4 xo6 xo7)]
  unfold kernelRun2_B
  dsimp only
  sl_unfold_words
  rw [View.canon_unit_zero hz]
  simp only [View.readAt_eq_ld, harg1.read_unread, harg2.read_unread, harg3.read_unread, harg4.read_unread, harg5.read_unread, harg7.read_unread, harg8.read_unread, View.ld_unit_zero (S := S5000x128) hz, View.ld_unit_zero (S := S128x128) hz, View.ld_unit_zero (S := S1x128) hz]

/-! ## The running sums, as arithmetic -/

/-- The matrix of squares. -/
def sq (x : Spec.M 100000 128) : Spec.M 100000 128 := fun i => x i * x i

/-- One more tile: the partial column sum below row `5000 t`, plus zero plus the tile's column sum, is the partial
    sum below row `5000 (t + 1)`. -/
theorem acc_step (L : Spec.M 100000 128) (t : ℕ) (ht : t < 20) (q : Fin 128) (blk : Fin 5000 → EReal)
    (hblk : ∀ (p : Fin 5000) (hr : 5000 * t + p.val < 100000), blk p = L (ix2 ⟨5000 * t + p.val, hr⟩ q)) (old : EReal)
    (hold : old = Spec.partialCol L (5000 * t) q) :
    old + ((0 : EReal) + ∑ p : Fin 5000, blk p) = Spec.partialCol L (5000 * (t + 1)) q := by
  rw [zero_add, hold, Nat.mul_succ, Spec.partialCol_add]
  congr 1
  rw [← Fin.sum_univ_eq_sum_range (fun i => if h : 5000 * t + i < 100000 then L (ix2 ⟨5000 * t + i, h⟩ q) else 0) 5000]
  refine Finset.sum_congr rfl fun p _ => ?_
  have hr : 5000 * t + p.val < 100000 := by have := p.isLt; omega
  rw [hblk p hr, dif_pos hr]

/-- No rows: the empty sum. -/
theorem partialCol_zero (L : Spec.M 100000 128) (q : Fin 128) : Spec.partialCol L 0 q = 0 := by
  unfold Spec.partialCol
  rw [Finset.range_zero, Finset.sum_empty]

/-! ## The region at the extended reals -/

section AtIdeal

variable (V : (c : Dev nD) → (b : Ref sig .tc) → Buf (Elt Ideal) ((c : Thread nD τ).loc b))

/-- The linear layer of the whole arrays the region finds: aggregate, features, left weights, right weights, bias. -/
abbrev L2 (c : Dev nD) : Spec.M 100000 128 :=
  Spec.lin (V c main_v58) (V c main_v45) (V c main_v59) (V c main_v60) (V c main_v61)

/-- The printed index maps over the grid: the row windows move one block of 5000 rows per point, the others stay. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0 :=
  (by decide +kernel : ∀ t : Fin grid2.N, _)

/-- Row `p` of the aggregate's block at point `t` is row `5000 t + p` of the array. -/
theorem blk_0 (c : Dev nD) (t : Fin cfg2.N) (p : Fin 5000) (k : Fin 128) (hr : 5000 * t.val + p.val < 100000) :
    (iblk2 V c 0 t : Vec Ideal S5000x128 .f32) (ix2 p k) = (V c main_v58 : Spec.M 100000 128) (ix2 ⟨5000 * t.val + p.val, hr⟩ k) := by
  obtain ⟨e0, e1, -⟩ := idx_facts t
  unfold iblk2
  rw [View.read_apply]
  show (V c main_v58 : Spec.M 100000 128) _ = _
  congr 1
  funext a
  apply Fin.ext
  match a with
  | ⟨0, _⟩ => show win2_0.index t (0 : Fin 2) * 5000 + 1 * p.val = 5000 * t.val + p.val; rw [e0]; omega
  | ⟨1, _⟩ => show win2_0.index t (1 : Fin 2) * 128 + 1 * k.val = k.val; rw [e1]; omega

/-- Row `p` of the features' block at point `t` is row `5000 t + p` of the array. -/
theorem blk_1 (c : Dev nD) (t : Fin cfg2.N) (p : Fin 5000) (k : Fin 128) (hr : 5000 * t.val + p.val < 100000) :
    (iblk2 V c 1 t : Vec Ideal S5000x128 .f32) (ix2 p k) = (V c main_v45 : Spec.M 100000 128) (ix2 ⟨5000 * t.val + p.val, hr⟩ k) := by
  obtain ⟨-, -, e0, e1, -⟩ := idx_facts t
  unfold iblk2
  rw [View.read_apply]
  show (V c main_v45 : Spec.M 100000 128) _ = _
  congr 1
  funext a
  apply Fin.ext
  match a with
  | ⟨0, _⟩ => show win2_1.index t (0 : Fin 2) * 5000 + 1 * p.val = 5000 * t.val + p.val; rw [e0]; omega
  | ⟨1, _⟩ => show win2_1.index t (1 : Fin 2) * 128 + 1 * k.val = k.val; rw [e1]; omega

/-- The left weights' one block is the array. -/
theorem blk_2 (c : Dev nD) (t : Fin cfg2.N) (k q : Fin 128) :
    (iblk2 V c 2 t : Vec Ideal S128x128 .f32) (ix2 k q) = (V c main_v59 : Spec.M 128 128) (ix2 k q) := by
  obtain ⟨-, -, -, -, e0, e1, -⟩ := idx_facts t
  unfold iblk2
  rw [View.read_apply]
  show (V c main_v59 : Spec.M 128 128) _ = _
  congr 1
  funext a
  apply Fin.ext
  match a with
  | ⟨0, _⟩ => show win2_2.index t (0 : Fin 2) * 128 + 1 * k.val = k.val; rw [e0]; omega
  | ⟨1, _⟩ => show win2_2.index t (1 : Fin 2) * 128 + 1 * q.val = q.val; rw [e1]; omega

/-- The bias's one block is the array. -/
theorem blk_3 (c : Dev nD) (t : Fin cfg2.N) (u : Fin 1) (q : Fin 128) :
    (iblk2 V c 3 t : Vec Ideal S1x128 .f32) (ix2 u q) = (V c main_v61 : Spec.M 1 128) (ix2 u q) := by
  obtain ⟨-, -, -, -, -, -, e0, e1, -⟩ := idx_facts t
  unfold iblk2
  rw [View.read_apply]
  show (V c main_v61 : Spec.M 1 128) _ = _
  congr 1
  funext a
  apply Fin.ext
  match a with
  | ⟨0, _⟩ => show win2_3.index t (0 : Fin 2) * 1 + 1 * u.val = u.val; rw [e0]; omega
  | ⟨1, _⟩ => show win2_3.index t (1 : Fin 2) * 128 + 1 * q.val = q.val; rw [e1]; omega

/-- The right weights' one block is the array. -/
theorem blk_4 (c : Dev nD) (t : Fin cfg2.N) (k q : Fin 128) :
    (iblk2 V c 4 t : Vec Ideal S128x128 .f32) (ix2 k q) = (V c main_v60 : Spec.M 128 128) (ix2 k q) := by
  obtain ⟨-, -, -, -, -, -, -, -, e0, e1, -⟩ := idx_facts t
  unfold iblk2
  rw [View.read_apply]
  show (V c main_v60 : Spec.M 128 128) _ = _
  congr 1
  funext a
  apply Fin.ext
  match a with
  | ⟨0, _⟩ => show win2_4.index t (0 : Fin 2) * 128 + 1 * k.val = k.val; rw [e0]; omega
  | ⟨1, _⟩ => show win2_4.index t (1 : Fin 2) * 128 + 1 * q.val = q.val; rw [e1]; omega

/-- The tile the body computes at point `t`, at row `p` and column `q`: the linear layer of the arrays at row `5000 t + p`. -/
theorem pay2_blk (c : Dev nD) (t : Fin cfg2.N) (p : Fin 5000) (q : Fin 128) (hr : 5000 * t.val + p.val < 100000) :
    k2_pay2 (F := Ideal) (iblk2 V c 0 t) (iblk2 V c 1 t) (iblk2 V c 2 t) (iblk2 V c 4 t) (iblk2 V c 3 t) (ix2 p q) = L2 V c (ix2 ⟨5000 * t.val + p.val, hr⟩ q) := by
  refine (Pay.pay2_2 (iblk2 V c 0 t) (iblk2 V c 1 t) (iblk2 V c 2 t) (iblk2 V c 4 t) (iblk2 V c 3 t) p q).trans ?_
  show _ = Spec.linE (V c main_v58) (V c main_v45) (V c main_v59) (V c main_v60) (V c main_v61) ⟨5000 * t.val + p.val, hr⟩ q
  unfold Spec.linE
  refine congrArg₂ (· + ·) (congrArg₂ (· + ·) (Finset.sum_congr rfl fun k _ => ?_) (Finset.sum_congr rfl fun k _ => ?_)) ?_
  · exact congrArg₂ (· * ·) (blk_0 V c t p k hr) (blk_2 V c t k q)
  · exact congrArg₂ (· * ·) (blk_1 V c t p k hr) (blk_4 V c t k q)
  · exact blk_3 V c t 0 q

/-- After every point the first output's staging buffer holds the point's tile of the linear layer. -/
theorem outs_5 (c : Dev nD) (t : Fin cfg2.N) :
    (outsAt2 (F := Ideal) V c t.val t.isLt).1 = k2_pay2 (F := Ideal) (iblk2 V c 0 t) (iblk2 V c 1 t) (iblk2 V c 2 t) (iblk2 V c 4 t) (iblk2 V c 3 t) := by
  by_cases h0 : t.val % 20 = 0
  · rw [outsAt2_A V c t h0]
    dsimp only
    exact out_A_5 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) ((hcond2_0 t).mpr h0) (iblk2 V c 0 t) (iblk2 V c 1 t) (iblk2 V c 2 t) (iblk2 V c 3 t) (iblk2 V c 4 t)
  · rw [outsAt2_B V c t h0]
    dsimp only
    exact out_B_5 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (fun h => h0 ((hcond2_0 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2.1 (outsAt2 V c (t.val - 1) (Nat.lt_of_le_of_lt (Nat.sub_le _ _) t.isLt)).2.2

/-- At the first point the second output's buffer holds the zero row plus the tile's column sums. -/
theorem outs_6_A (c : Dev nD) (t : Fin cfg2.N) (h0 : t.val % 20 = 0) :
    (outsAt2 (F := Ideal) V c t.val t.isLt).2.1 = k2_pay5 (F := Ideal) (iblk2 V c 0 t) (iblk2 V c 1 t) (iblk2 V c 2 t) (iblk2 V c 4 t) (iblk2 V c 3 t) (k2_pay3 (F := Ideal)) := by
  rw [outsAt2_A V c t h0]
  dsimp only
  exact out_A_6 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) ((hcond2_0 t).mpr h0) (iblk2 V c 0 t) (iblk2 V c 1 t) (iblk2 V c 2 t) (iblk2 V c 3 t) (iblk2 V c 4 t)

/-- At a later point: the row the point before left plus the tile's column sums. -/
theorem outs_6_B (c : Dev nD) (t : Fin cfg2.N) (h0 : ¬t.val % 20 = 0) :
    (outsAt2 (F := Ideal) V c t.val t.isLt).2.1 = k2_pay5 (F := Ideal) (iblk2 V c 0 t) (iblk2 V c 1 t) (iblk2 V c 2 t) (iblk2 V c 4 t) (iblk2 V c 3 t) (outsAt2 V c (t.val - 1) (Nat.lt_of_le_of_lt (Nat.sub_le _ _) t.isLt)).2.1 := by
  rw [outsAt2_B V c t h0]
  dsimp only
  exact out_B_6 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (fun h => h0 ((hcond2_0 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2.1 (outsAt2 V c (t.val - 1) (Nat.lt_of_le_of_lt (Nat.sub_le _ _) t.isLt)).2.2

/-- At the first point the third output's buffer holds the zero row plus the tile's column sums of squares. -/
theorem outs_7_A (c : Dev nD) (t : Fin cfg2.N) (h0 : t.val % 20 = 0) :
    (outsAt2 (F := Ideal) V c t.val t.isLt).2.2 = k2_pay1 (F := Ideal) (k2_pay6 (F := Ideal) (k2_pay4 (F := Ideal))) (k2_pay7 (F := Ideal) (iblk2 V c 0 t) (iblk2 V c 1 t) (iblk2 V c 2 t) (iblk2 V c 4 t) (iblk2 V c 3 t)) := by
  rw [outsAt2_A V c t h0]
  dsimp only
  exact out_A_7 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) ((hcond2_0 t).mpr h0) (iblk2 V c 0 t) (iblk2 V c 1 t) (iblk2 V c 2 t) (iblk2 V c 3 t) (iblk2 V c 4 t)

/-- At a later point: the row the point before left plus the tile's column sums of squares. -/
theorem outs_7_B (c : Dev nD) (t : Fin cfg2.N) (h0 : ¬t.val % 20 = 0) :
    (outsAt2 (F := Ideal) V c t.val t.isLt).2.2 = k2_pay1 (F := Ideal) (k2_pay6 (F := Ideal) (outsAt2 V c (t.val - 1) (Nat.lt_of_le_of_lt (Nat.sub_le _ _) t.isLt)).2.2) (k2_pay7 (F := Ideal) (iblk2 V c 0 t) (iblk2 V c 1 t) (iblk2 V c 2 t) (iblk2 V c 4 t) (iblk2 V c 3 t)) := by
  rw [outsAt2_B V c t h0]
  dsimp only
  exact out_B_7 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (fun h => h0 ((hcond2_0 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2.1 (outsAt2 V c (t.val - 1) (Nat.lt_of_le_of_lt (Nat.sub_le _ _) t.isLt)).2.2

/-- THE ACCUMULATORS after point `n`, at column `q`: the column sums of the linear layer, and of its squares, over the
    rows below `5000 (n + 1)` — by induction on the point. -/
theorem outs_acc (c : Dev nD) : ∀ (n : ℕ) (h : n < cfg2.N) (q : Fin 128),
    (outsAt2 (F := Ideal) V c n h).2.1 (ix2 0 q) = Spec.partialCol (L2 V c) (5000 * (n + 1)) q
    ∧ (outsAt2 (F := Ideal) V c n h).2.2 (ix2 0 q) = Spec.partialCol (sq (L2 V c)) (5000 * (n + 1)) q
  | 0, h, q => by
    have e6 := outs_6_A V c ⟨0, h⟩ rfl
    have e7 := outs_7_A V c ⟨0, h⟩ rfl
    constructor
    · refine (congrFun e6 (ix2 0 q)).trans ?_
      refine (Pay.pay5_2 (iblk2 V c 0 ⟨0, h⟩) (iblk2 V c 1 ⟨0, h⟩) (iblk2 V c 2 ⟨0, h⟩) (iblk2 V c 4 ⟨0, h⟩) (iblk2 V c 3 ⟨0, h⟩) (k2_pay3 (F := Ideal)) q).trans ?_
      exact acc_step (L2 V c) 0 (by omega) q (fun p => k2_pay2 (F := Ideal) (iblk2 V c 0 ⟨0, h⟩) (iblk2 V c 1 ⟨0, h⟩) (iblk2 V c 2 ⟨0, h⟩) (iblk2 V c 4 ⟨0, h⟩) (iblk2 V c 3 ⟨0, h⟩) (ix2 p q))
        (fun p hr => pay2_blk V c ⟨0, h⟩ p q hr) _ ((Pay.pay3_2 _).trans (partialCol_zero _ q).symm)
    · refine (congrFun e7 (ix2 0 q)).trans ?_
      refine (Pay.pay17_2 (k2_pay6 (F := Ideal) (k2_pay4 (F := Ideal))) (iblk2 V c 0 ⟨0, h⟩) (iblk2 V c 1 ⟨0, h⟩) (iblk2 V c 2 ⟨0, h⟩) (iblk2 V c 4 ⟨0, h⟩) (iblk2 V c 3 ⟨0, h⟩) q).trans ?_
      refine acc_step (sq (L2 V c)) 0 (by omega) q
        (fun p => k2_pay2 (F := Ideal) (iblk2 V c 0 ⟨0, h⟩) (iblk2 V c 1 ⟨0, h⟩) (iblk2 V c 2 ⟨0, h⟩) (iblk2 V c 4 ⟨0, h⟩) (iblk2 V c 3 ⟨0, h⟩) (ix2 p q) * k2_pay2 (F := Ideal) (iblk2 V c 0 ⟨0, h⟩) (iblk2 V c 1 ⟨0, h⟩) (iblk2 V c 2 ⟨0, h⟩) (iblk2 V c 4 ⟨0, h⟩) (iblk2 V c 3 ⟨0, h⟩) (ix2 p q))
        (fun p hr => congrArg₂ (· * ·) (pay2_blk V c ⟨0, h⟩ p q hr) (pay2_blk V c ⟨0, h⟩ p q hr)) _ ?_
      rw [Pay.pay6_2]
      exact (Pay.pay4_2 _).trans (partialCol_zero _ q).symm
  | n + 1, h, q => by
    have hN : cfg2.N = 20 := N_2
    have hB : ¬(⟨n + 1, h⟩ : Fin cfg2.N).val % 20 = 0 := by dsimp only; omega
    have e6 := outs_6_B V c ⟨n + 1, h⟩ hB
    have e7 := outs_7_B V c ⟨n + 1, h⟩ hB
    obtain ⟨ih6, ih7⟩ := outs_acc c n (Nat.lt_of_succ_lt h) q
    constructor
    · refine (congrFun e6 (ix2 0 q)).trans ?_
      refine (Pay.pay5_2 (iblk2 V c 0 ⟨n + 1, h⟩) (iblk2 V c 1 ⟨n + 1, h⟩) (iblk2 V c 2 ⟨n + 1, h⟩) (iblk2 V c 4 ⟨n + 1, h⟩) (iblk2 V c 3 ⟨n + 1, h⟩) (outsAt2 (F := Ideal) V c n (Nat.lt_of_succ_lt h)).2.1 q).trans ?_
      exact acc_step (L2 V c) (n + 1) (by omega) q (fun p => k2_pay2 (F := Ideal) (iblk2 V c 0 ⟨n + 1, h⟩) (iblk2 V c 1 ⟨n + 1, h⟩) (iblk2 V c 2 ⟨n + 1, h⟩) (iblk2 V c 4 ⟨n + 1, h⟩) (iblk2 V c 3 ⟨n + 1, h⟩) (ix2 p q))
        (fun p hr => pay2_blk V c ⟨n + 1, h⟩ p q hr) _ ih6
    · refine (congrFun e7 (ix2 0 q)).trans ?_
      refine (Pay.pay17_2 (k2_pay6 (F := Ideal) (outsAt2 (F := Ideal) V c n (Nat.lt_of_succ_lt h)).2.2) (iblk2 V c 0 ⟨n + 1, h⟩) (iblk2 V c 1 ⟨n + 1, h⟩) (iblk2 V c 2 ⟨n + 1, h⟩) (iblk2 V c 4 ⟨n + 1, h⟩) (iblk2 V c 3 ⟨n + 1, h⟩) q).trans ?_
      refine acc_step (sq (L2 V c)) (n + 1) (by omega) q
        (fun p => k2_pay2 (F := Ideal) (iblk2 V c 0 ⟨n + 1, h⟩) (iblk2 V c 1 ⟨n + 1, h⟩) (iblk2 V c 2 ⟨n + 1, h⟩) (iblk2 V c 4 ⟨n + 1, h⟩) (iblk2 V c 3 ⟨n + 1, h⟩) (ix2 p q) * k2_pay2 (F := Ideal) (iblk2 V c 0 ⟨n + 1, h⟩) (iblk2 V c 1 ⟨n + 1, h⟩) (iblk2 V c 2 ⟨n + 1, h⟩) (iblk2 V c 4 ⟨n + 1, h⟩) (iblk2 V c 3 ⟨n + 1, h⟩) (ix2 p q))
        (fun p hr => congrArg₂ (· * ·) (pay2_blk V c ⟨n + 1, h⟩ p q hr) (pay2_blk V c ⟨n + 1, h⟩ p q hr)) _ ?_
      rw [Pay.pay6_2]
      exact ih7

/-! ## From the points to the arrays -/

/-- WHAT POINT `t` WRITES BACK to output 5 is block `t` of the linear layer of the whole arrays. -/
theorem flushed_5 (c : Dev nD) (t : Fin cfg2.N) :
    (dat2 (F := Ideal) V c).flushed 5 t = ((cfg2.win 5).blk t).view.read (Elt Ideal) (L2 V c) := by
  show (cfg2.win 5).cut (grid2.coords t) ((dat2 (F := Ideal) V c).after 5 t) = _
  rw [after2_5, outs_5]
  obtain ⟨-, -, -, -, -, -, -, -, -, -, e0, e1, -⟩ := idx_facts t
  have hN : cfg2.N = 20 := N_2
  refine funext fun (j : S5000x128.Idx) => ?_
  obtain ⟨p, q, rfl⟩ : ∃ (p : Fin 5000) (q : Fin 128), j = ix2 p q := ⟨j 0, j 1, eq_ix2 j⟩
  have hr : 5000 * t.val + p.val < 100000 := by have := t.isLt; have := p.isLt; omega
  show k2_pay2 (F := Ideal) (iblk2 V c 0 t) (iblk2 V c 1 t) (iblk2 V c 2 t) (iblk2 V c 4 t) (iblk2 V c 3 t) (ix2 p q) = L2 V c (((cfg2.win 5).blk t).view.emb (ix2 p q))
  refine (pay2_blk V c t p q hr).trans ?_
  congr 1
  funext a
  apply Fin.ext
  match a with
  | ⟨0, _⟩ => show 5000 * t.val + p.val = win2_5.index t (0 : Fin 2) * 5000 + 1 * p.val; rw [e0]; omega
  | ⟨1, _⟩ => show q.val = win2_5.index t (1 : Fin 2) * 128 + 1 * q.val; rw [e1]; omega

/-- An index of the array is in point `t`'s block iff each coordinate is in the block's range on its axis. -/
theorem mem_blk_5 (t : Fin cfg2.N) (i : S100000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v62_0).slice (win2_5.rect t)).set ↔ _
  rw [View.set_slice_whole, Rect.mem_set_unit]
  exact Iff.rfl

/-- THE ARRAY output 5 ends holding: the linear layer of the whole arrays (row `r` is covered by point `r / 5000`). -/
theorem final2_5 (c : Dev nD) : (dat2 (F := Ideal) V c).arrAt 5 cfg2.N = L2 V c :=
  (dat2 (F := Ideal) V c).arrAt_eq_of_cover 5 (L2 V c) (fun t _ => flushed_5 V c t) fun (i : S100000x128.Idx) => by
    have hN : cfg2.N = 20 := N_2
    have hi0 : (i 0).val < 100000 := (i 0).isLt
    have hi1 : (i 1).val < 128 := (i 1).isLt
    obtain ⟨-, -, -, -, -, -, -, -, -, -, e0, e1, -⟩ := idx_facts (⟨(i 0).val / 5000, by omega⟩ : Fin cfg2.N)
    refine ⟨⟨(i 0).val / 5000, by omega⟩, flush2_5 _, ?_⟩
    rw [mem_blk_5]
    intro a
    match a with
    | ⟨0, _⟩ => show win2_5.index _ (0 : Fin 2) * 5000 ≤ (i 0).val ∧ (i 0).val < win2_5.index _ (0 : Fin 2) * 5000 + 5000; rw [e0]; dsimp only; omega
    | ⟨1, _⟩ => show win2_5.index _ (1 : Fin 2) * 128 ≤ (i 1).val ∧ (i 1).val < win2_5.index _ (1 : Fin 2) * 128 + 128; rw [e1]; omega

/-- WHAT THE LAST POINT WRITES BACK to output 6: the column sums over all rows, started at zero. -/
theorem flushed_6 (c : Dev nD) (t : Fin cfg2.N) (hf : (cfg2.win 6).flush t = true) :
    (dat2 (F := Ideal) V c).flushed 6 t = ((cfg2.win 6).blk t).view.read (Elt Ideal) (Spec.colSum (L2 V c)) := by
  have hN : cfg2.N = 20 := N_2
  have h19 : t.val = 19 := by have := (flush2_6 t).mp hf; have := t.isLt; omega
  show (cfg2.win 6).cut (grid2.coords t) ((dat2 (F := Ideal) V c).after 6 t) = _
  rw [after2_6]
  obtain ⟨-, -, -, -, -, -, -, -, -, -, -, -, e0, e1, -⟩ := idx_facts t
  refine funext fun (j : S1x128.Idx) => ?_
  obtain ⟨u, q, rfl⟩ : ∃ (u : Fin 1) (q : Fin 128), j = ix2 u q := ⟨j 0, j 1, eq_ix2 j⟩
  obtain rfl : u = 0 := Subsingleton.elim _ _
  show (outsAt2 (F := Ideal) V c t.val t.isLt).2.1 (ix2 0 q) = Spec.colSum (L2 V c) (((cfg2.win 6).blk t).view.emb (ix2 0 q))
  refine ((outs_acc V c t.val t.isLt q).1).trans ?_
  have hemb : ((cfg2.win 6).blk t).view.emb (ix2 (0 : Fin 1) q) = (ix2 (0 : Fin 1) q : S1x128.Idx) := by
    funext a
    apply Fin.ext
    match a with
    | ⟨0, _⟩ => show win2_6.index t (0 : Fin 2) * 1 + 1 * 0 = 0; rw [e0]
    | ⟨1, _⟩ => show win2_6.index t (1 : Fin 2) * 128 + 1 * q.val = q.val; rw [e1]; omega
  rw [hemb, h19]
  show Spec.partialCol _ 100000 q = (0 : EReal) + _
  rw [Spec.partialCol_full, zero_add]

/-- An index of the one-row array is in the last point's block: the block is the array. -/
theorem mem_blk_6 (t : Fin cfg2.N) (i : S1x128.Idx) :
    i ∈ ((cfg2.win 6).blk t).view.set ↔ ∀ a : Fin 2, win2_6.index t a * S1x128.size a ≤ (i a).val ∧ (i a).val < win2_6.index t a * S1x128.size a + S1x128.size a := by
  show i ∈ ((View.whole main_v62_1).slice (win2_6.rect t)).set ↔ _
  rw [View.set_slice_whole, Rect.mem_set_unit]
  exact Iff.rfl

/-- THE ARRAY output 6 ends holding: the column sums of the linear layer over all 100000 rows, started at zero. -/
theorem final2_6 (c : Dev nD) : (dat2 (F := Ideal) V c).arrAt 6 cfg2.N = Spec.colSum (L2 V c) :=
  (dat2 (F := Ideal) V c).arrAt_eq_of_cover 6 (Spec.colSum (L2 V c)) (flushed_6 V c) fun (i : S1x128.Idx) => by
    have hN : cfg2.N = 20 := N_2
    have hi0 : (i 0).val < 1 := (i 0).isLt
    have hi1 : (i 1).val < 128 := (i 1).isLt
    obtain ⟨-, -, -, -, -, -, -, -, -, -, -, -, e0, e1, -⟩ := idx_facts (⟨19, by omega⟩ : Fin cfg2.N)
    refine ⟨⟨19, by omega⟩, (flush2_6 _).mpr rfl, ?_⟩
    rw [mem_blk_6]
    intro a
    match a with
    | ⟨0, _⟩ => show win2_6.index _ (0 : Fin 2) * 1 ≤ (i 0).val ∧ (i 0).val < win2_6.index _ (0 : Fin 2) * 1 + 1; rw [e0]; omega
    | ⟨1, _⟩ => show win2_6.index _ (1 : Fin 2) * 128 ≤ (i 1).val ∧ (i 1).val < win2_6.index _ (1 : Fin 2) * 128 + 128; rw [e1]; omega

/-- WHAT THE LAST POINT WRITES BACK to output 7: the column sums of squares over all rows, started at zero. -/
theorem flushed_7 (c : Dev nD) (t : Fin cfg2.N) (hf : (cfg2.win 7).flush t = true) :
    (dat2 (F := Ideal) V c).flushed 7 t = ((cfg2.win 7).blk t).view.read (Elt Ideal) (Spec.colSumSq (L2 V c)) := by
  have hN : cfg2.N = 20 := N_2
  have h19 : t.val = 19 := by have := (flush2_7 t).mp hf; have := t.isLt; omega
  show (cfg2.win 7).cut (grid2.coords t) ((dat2 (F := Ideal) V c).after 7 t) = _
  rw [after2_7]
  obtain ⟨-, -, -, -, -, -, -, -, -, -, -, -, -, -, e0, e1⟩ := idx_facts t
  refine funext fun (j : S1x128.Idx) => ?_
  obtain ⟨u, q, rfl⟩ : ∃ (u : Fin 1) (q : Fin 128), j = ix2 u q := ⟨j 0, j 1, eq_ix2 j⟩
  obtain rfl : u = 0 := Subsingleton.elim _ _
  show (outsAt2 (F := Ideal) V c t.val t.isLt).2.2 (ix2 0 q) = Spec.colSumSq (L2 V c) (((cfg2.win 7).blk t).view.emb (ix2 0 q))
  refine ((outs_acc V c t.val t.isLt q).2).trans ?_
  have hemb : ((cfg2.win 7).blk t).view.emb (ix2 (0 : Fin 1) q) = (ix2 (0 : Fin 1) q : S1x128.Idx) := by
    funext a
    apply Fin.ext
    match a with
    | ⟨0, _⟩ => show win2_7.index t (0 : Fin 2) * 1 + 1 * 0 = 0; rw [e0]
    | ⟨1, _⟩ => show win2_7.index t (1 : Fin 2) * 128 + 1 * q.val = q.val; rw [e1]; omega
  rw [hemb, h19]
  show Spec.partialCol _ 100000 q = (0 : EReal) + _
  rw [Spec.partialCol_full, zero_add]
  rfl

/-- An index of the one-row array is in the last point's block: the block is the array. -/
theorem mem_blk_7 (t : Fin cfg2.N) (i : S1x128.Idx) :
    i ∈ ((cfg2.win 7).blk t).view.set ↔ ∀ a : Fin 2, win2_7.index t a * S1x128.size a ≤ (i a).val ∧ (i a).val < win2_7.index t a * S1x128.size a + S1x128.size a := by
  show i ∈ ((View.whole main_v62_2).slice (win2_7.rect t)).set ↔ _
  rw [View.set_slice_whole, Rect.mem_set_unit]
  exact Iff.rfl

/-- THE ARRAY output 7 ends holding: the column sums of squares of the linear layer over all 100000 rows, started at zero. -/
theorem final2_7 (c : Dev nD) : (dat2 (F := Ideal) V c).arrAt 7 cfg2.N = Spec.colSumSq (L2 V c) :=
  (dat2 (F := Ideal) V c).arrAt_eq_of_cover 7 (Spec.colSumSq (L2 V c)) (flushed_7 V c) fun (i : S1x128.Idx) => by
    have hN : cfg2.N = 20 := N_2
    have hi0 : (i 0).val < 1 := (i 0).isLt
    have hi1 : (i 1).val < 128 := (i 1).isLt
    obtain ⟨-, -, -, -, -, -, -, -, -, -, -, -, -, -, e0, e1⟩ := idx_facts (⟨19, by omega⟩ : Fin cfg2.N)
    refine ⟨⟨19, by omega⟩, (flush2_7 _).mpr rfl, ?_⟩
    rw [mem_blk_7]
    intro a
    match a with
    | ⟨0, _⟩ => show win2_7.index _ (0 : Fin 2) * 1 ≤ (i 0).val ∧ (i 0).val < win2_7.index _ (0 : Fin 2) * 1 + 1; rw [e0]; omega
    | ⟨1, _⟩ => show win2_7.index _ (1 : Fin 2) * 128 ≤ (i 1).val ∧ (i 1).val < win2_7.index _ (1 : Fin 2) * 128 + 128; rw [e1]; omega

end AtIdeal

end Cert.Sage.KReg2

end
-- ==== Proof.KReg13.lean ====
/- The two normalisation regions read as whole arrays. Each region walks the 100000 rows of a matrix in twenty tiles of
   5000 rows; at every tile it multiplies each element by its column's scale, adds its column's shift, and keeps the
   positive part. Here the array each region leaves is shown to be that one function of the arrays the region found:
   a tile's arithmetic at an element, the rows a tile holds, the one-row operands read whole, then the tiles cover
   every row. -/
import proofs.«156934_j7851200217408_1_alg».proof.Proof.Gen.KernelIdeal.Frame
import proofs.«156934_j7851200217408_1_alg».proof.Proof.Spec
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

namespace Cert.Sage.KReg13

open Idealize.ShloMosaic Idealize.ShloMosaic.TcCoe Idealize.ShloMosaic.ValueIdx
open Idealize.ShloMosaic.Pipeline (Dat)
open Cert.KernelIdeal Cert.KernelIdeal.Gen
open Cert.Sage

variable (V : (c : Dev nD) → (b : Ref sig .tc) → Buf (Elt Ideal) ((c : Thread nD τ).loc b))

theorem hz : (![0, 0] : Fin 2 → Nat) = fun _ => 0 := funext fun a => by fin_cases a <;> rfl

/-! ## Region 1: the normalisation step over `main_v28_0`, scale `main_v43`, shift `main_v44`, into `main_v45` -/

/-- The body's arithmetic at row `p`, column `q` of a tile: the element scaled, shifted, and cut off below at zero. -/
theorem pay1 (v0 : Vec Ideal S5000x128 .f32) (v2 v6 : Vec Ideal S1x128 .f32) (p : Fin 5000) (q : Fin 128) :
    k1_pay1 (F := Ideal) v0 v2 v6 (ix2 p q) = max (v0 (ix2 p q) * v2 (ix2 0 q) + v6 (ix2 0 q)) 0 := by
  unfold k1_pay1
  simp only [shapeCast_self]
  rw [maximumf_apply, addf_apply, mulf_apply, broadcastTo_1b_ab_apply, broadcastTo_1b_ab_apply, broadcast_apply]
  exact congrArg (max _) Ideal.ofBits_zero_f32

/-- One element of a tile's result is the whole-array function at the matching row, once each operand the body read
    is the array's element there. -/
theorem point1 (x0 : Vec Ideal S5000x128 .f32) (x1 x2 : Vec Ideal S1x128 .f32) (A : Spec.M 100000 128)
    (sc sh : Spec.M 1 128) (p : Fin 5000) (q : Fin 128) (r : Fin 100000)
    (h0 : x0 (ix2 p q) = A (ix2 r q)) (h1 : x1 (ix2 0 q) = sc (ix2 0 q)) (h2 : x2 (ix2 0 q) = sh (ix2 0 q)) :
    k1_pay1 (F := Ideal) x0 x1 x2 (ix2 p q) = Spec.bnRelu A sc sh (ix2 r q) := by
  rw [pay1, Spec.bnRelu_apply, h0, h1, h2]

/-- The printed index maps over the grid: the row-tiled windows sit at block `(t, 0)`, the one-row operands at `(0, 0)`. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Tile `t` of the input matrix holds rows `5000·t … 5000·t + 4999`. -/
theorem rows1 (c : Dev nD) (t : Fin cfg1.N) (p : Fin 5000) (q : Fin 128) (r : Fin 100000)
    (hr : r.val = 5000 * t.val + p.val) :
    (iblk1 (F := Ideal) V c 0 t : Vec Ideal S5000x128 .f32) (ix2 p q)
      = (V c main_v28_0 : S100000x128.Idx → Elt Ideal .f32) (ix2 r q) := by
  obtain ⟨e0, e1, -, -, -, -, -, -⟩ := idx_facts1 t
  unfold iblk1
  rw [View.read_apply]
  show V c main_v28_0 _ = V c main_v28_0 _
  refine congrArg (V c main_v28_0) ?_
  funext a
  apply Fin.ext
  match a with
  | ⟨0, _⟩ => show win1_0.index t (0 : Fin 2) * 5000 + 1 * p.val = r.val; omega
  | ⟨1, _⟩ => show win1_0.index t (1 : Fin 2) * 128 + 1 * q.val = q.val; omega

/-- The scale operand's one tile is the whole one-row array. -/
theorem scale1 (c : Dev nD) (t : Fin cfg1.N) (q : Fin 128) :
    (iblk1 (F := Ideal) V c 1 t : Vec Ideal S1x128 .f32) (ix2 0 q)
      = (V c main_v43 : S1x128.Idx → Elt Ideal .f32) (ix2 0 q) := by
  obtain ⟨-, -, e2, e3, -, -, -, -⟩ := idx_facts1 t
  unfold iblk1
  rw [View.read_apply]
  show V c main_v43 _ = V c main_v43 _
  refine congrArg (V c main_v43) ?_
  funext a
  apply Fin.ext
  match a with
  | ⟨0, _⟩ => show win1_1.index t (0 : Fin 2) * 1 + 1 * 0 = 0; omega
  | ⟨1, _⟩ => show win1_1.index t (1 : Fin 2) * 128 + 1 * q.val = q.val; omega

/-- The shift operand's one tile is the whole one-row array. -/
theorem shift1 (c : Dev nD) (t : Fin cfg1.N) (q : Fin 128) :
    (iblk1 (F := Ideal) V c 2 t : Vec Ideal S1x128 .f32) (ix2 0 q)
      = (V c main_v44 : S1x128.Idx → Elt Ideal .f32) (ix2 0 q) := by
  obtain ⟨-, -, -, -, e4, e5, -, -⟩ := idx_facts1 t
  unfold iblk1
  rw [View.read_apply]
  show V c main_v44 _ = V c main_v44 _
  refine congrArg (V c main_v44) ?_
  funext a
  apply Fin.ext
  match a with
  | ⟨0, _⟩ => show win1_2.index t (0 : Fin 2) * 1 + 1 * 0 = 0; omega
  | ⟨1, _⟩ => show win1_2.index t (1 : Fin 2) * 128 + 1 * q.val = q.val; omega

/-- The whole-array function the region computes. -/
abbrev G1 (c : Dev nD) : S100000x128.Idx → Elt Ideal .f32 :=
  Spec.bnRelu (V c main_v28_0) (V c main_v43) (V c main_v44)

/-- What point `t` writes back is tile `t` of the whole-array function. -/
theorem flushed1_eq (c : Dev nD) (t : Fin cfg1.N) :
    (dat1 (F := Ideal) V c).flushed 3 t = ((cfg1.win 3).blk t).view.read (Elt Ideal) (G1 V c) := by
  show (cfg1.win 3).cut (grid1.coords t) ((dat1 (F := Ideal) V c).after 3 t) = _
  rw [after1_3]
  unfold out1_3
  rw [View.canon_unit_zero hz]
  simp only [View.ld_unit_zero (S := S5000x128) hz, View.ld_unit_zero (S := S1x128) hz]
  obtain ⟨-, -, -, -, -, -, e6, e7⟩ := idx_facts1 t
  have hN : t.val < 20 := lt_of_lt_of_eq t.isLt N_1
  funext j
  obtain ⟨p, q, rfl⟩ : ∃ (p : Fin 5000) (q : Fin 128), j = ix2 p q := ⟨j 0, j 1, eq_ix2 j⟩
  have hp : p.val < 5000 := p.isLt
  have hemb : ((cfg1.win 3).blk t).view.emb (ix2 p q)
      = ix2 (⟨5000 * t.val + p.val, by omega⟩ : Fin 100000) q := by
    funext a
    apply Fin.ext
    match a with
    | ⟨0, _⟩ => show win1_3.index t (0 : Fin 2) * 5000 + 1 * p.val = 5000 * t.val + p.val; omega
    | ⟨1, _⟩ => show win1_3.index t (1 : Fin 2) * 128 + 1 * q.val = q.val; omega
  show k1_pay1 (F := Ideal) (iblk1 V c 0 t) (iblk1 V c 1 t) (iblk1 V c 2 t) (ix2 p q)
    = G1 V c (((cfg1.win 3).blk t).view.emb (ix2 p q))
  rw [hemb]
  exact point1 _ _ _ _ _ _ p q _ (rows1 V c t p q _ rfl) (scale1 V c t q) (shift1 V c t q)

/-- An index of the output array is in point `t`'s tile iff each coordinate is in the tile's range on its axis. -/
theorem mem_blk1 (t : Fin cfg1.N) (i : S100000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v45).slice (win1_3.rect t)).set ↔ _
  rw [View.set_slice_whole, Rect.mem_set_unit]
  exact Iff.rfl

/-- Every row lies in the tile of the point `row / 5000`. -/
theorem cover1 (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  have hN : cfg1.N = 20 := N_1
  let t : Fin cfg1.N := ⟨(i 0).val / 5000, by rw [hN]; omega⟩
  have ht : t.val = (i 0).val / 5000 := rfl
  obtain ⟨-, -, -, -, -, -, e6, e7⟩ := idx_facts1 t
  refine ⟨t, flush1_3 t, ?_⟩
  rw [mem_blk1]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

/-- The output array after the region is the whole-array function of the arrays the region found. -/
theorem final1 (c : Dev nD) : (dat1 (F := Ideal) V c).arrAt 3 cfg1.N
    = Cert.Sage.Spec.bnRelu (V c main_v28_0) (V c main_v43) (V c main_v44) :=
  (dat1 (F := Ideal) V c).arrAt_eq_of_cover 3 (G1 V c) (fun t _ => flushed1_eq V c t) (cover1)

/-! ## Region 3: the normalisation step over `main_v62_0`, scale `main_v77`, shift `main_v78`, into `main_v79` -/

/-- The body's arithmetic at row `p`, column `q` of a tile: the element scaled, shifted, and cut off below at zero. -/
theorem pay3 (v0 : Vec Ideal S5000x128 .f32) (v2 v6 : Vec Ideal S1x128 .f32) (p : Fin 5000) (q : Fin 128) :
    k3_pay1 (F := Ideal) v0 v2 v6 (ix2 p q) = max (v0 (ix2 p q) * v2 (ix2 0 q) + v6 (ix2 0 q)) 0 := by
  unfold k3_pay1
  simp only [shapeCast_self]
  rw [maximumf_apply, addf_apply, mulf_apply, broadcastTo_1b_ab_apply, broadcastTo_1b_ab_apply, broadcast_apply]
  exact congrArg (max _) Ideal.ofBits_zero_f32

/-- One element of a tile's result is the whole-array function at the matching row, once each operand the body read
    is the array's element there. -/
theorem point3 (x0 : Vec Ideal S5000x128 .f32) (x1 x2 : Vec Ideal S1x128 .f32) (A : Spec.M 100000 128)
    (sc sh : Spec.M 1 128) (p : Fin 5000) (q : Fin 128) (r : Fin 100000)
    (h0 : x0 (ix2 p q) = A (ix2 r q)) (h1 : x1 (ix2 0 q) = sc (ix2 0 q)) (h2 : x2 (ix2 0 q) = sh (ix2 0 q)) :
    k3_pay1 (F := Ideal) x0 x1 x2 (ix2 p q) = Spec.bnRelu A sc sh (ix2 r q) := by
  rw [pay3, Spec.bnRelu_apply, h0, h1, h2]

/-- The printed index maps over the grid: the row-tiled windows sit at block `(t, 0)`, the one-row operands at `(0, 0)`. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- Tile `t` of the input matrix holds rows `5000·t … 5000·t + 4999`. -/
theorem rows3 (c : Dev nD) (t : Fin cfg3.N) (p : Fin 5000) (q : Fin 128) (r : Fin 100000)
    (hr : r.val = 5000 * t.val + p.val) :
    (iblk3 (F := Ideal) V c 0 t : Vec Ideal S5000x128 .f32) (ix2 p q)
      = (V c main_v62_0 : S100000x128.Idx → Elt Ideal .f32) (ix2 r q) := by
  obtain ⟨e0, e1, -, -, -, -, -, -⟩ := idx_facts3 t
  unfold iblk3
  rw [View.read_apply]
  show V c main_v62_0 _ = V c main_v62_0 _
  refine congrArg (V c main_v62_0) ?_
  funext a
  apply Fin.ext
  match a with
  | ⟨0, _⟩ => show win3_0.index t (0 : Fin 2) * 5000 + 1 * p.val = r.val; omega
  | ⟨1, _⟩ => show win3_0.index t (1 : Fin 2) * 128 + 1 * q.val = q.val; omega

/-- The scale operand's one tile is the whole one-row array. -/
theorem scale3 (c : Dev nD) (t : Fin cfg3.N) (q : Fin 128) :
    (iblk3 (F := Ideal) V c 1 t : Vec Ideal S1x128 .f32) (ix2 0 q)
      = (V c main_v77 : S1x128.Idx → Elt Ideal .f32) (ix2 0 q) := by
  obtain ⟨-, -, e2, e3, -, -, -, -⟩ := idx_facts3 t
  unfold iblk3
  rw [View.read_apply]
  show V c main_v77 _ = V c main_v77 _
  refine congrArg (V c main_v77) ?_
  funext a
  apply Fin.ext
  match a with
  | ⟨0, _⟩ => show win3_1.index t (0 : Fin 2) * 1 + 1 * 0 = 0; omega
  | ⟨1, _⟩ => show win3_1.index t (1 : Fin 2) * 128 + 1 * q.val = q.val; omega

/-- The shift operand's one tile is the whole one-row array. -/
theorem shift3 (c : Dev nD) (t : Fin cfg3.N) (q : Fin 128) :
    (iblk3 (F := Ideal) V c 2 t : Vec Ideal S1x128 .f32) (ix2 0 q)
      = (V c main_v78 : S1x128.Idx → Elt Ideal .f32) (ix2 0 q) := by
  obtain ⟨-, -, -, -, e4, e5, -, -⟩ := idx_facts3 t
  unfold iblk3
  rw [View.read_apply]
  show V c main_v78 _ = V c main_v78 _
  refine congrArg (V c main_v78) ?_
  funext a
  apply Fin.ext
  match a with
  | ⟨0, _⟩ => show win3_2.index t (0 : Fin 2) * 1 + 1 * 0 = 0; omega
  | ⟨1, _⟩ => show win3_2.index t (1 : Fin 2) * 128 + 1 * q.val = q.val; omega

/-- The whole-array function the region computes. -/
abbrev G3 (c : Dev nD) : S100000x128.Idx → Elt Ideal .f32 :=
  Spec.bnRelu (V c main_v62_0) (V c main_v77) (V c main_v78)

/-- What point `t` writes back is tile `t` of the whole-array function. -/
theorem flushed3_eq (c : Dev nD) (t : Fin cfg3.N) :
    (dat3 (F := Ideal) V c).flushed 3 t = ((cfg3.win 3).blk t).view.read (Elt Ideal) (G3 V c) := by
  show (cfg3.win 3).cut (grid3.coords t) ((dat3 (F := Ideal) V c).after 3 t) = _
  rw [after3_3]
  unfold out3_3
  rw [View.canon_unit_zero hz]
  simp only [View.ld_unit_zero (S := S5000x128) hz, View.ld_unit_zero (S := S1x128) hz]
  obtain ⟨-, -, -, -, -, -, e6, e7⟩ := idx_facts3 t
  have hN : t.val < 20 := lt_of_lt_of_eq t.isLt N_3
  funext j
  obtain ⟨p, q, rfl⟩ : ∃ (p : Fin 5000) (q : Fin 128), j = ix2 p q := ⟨j 0, j 1, eq_ix2 j⟩
  have hp : p.val < 5000 := p.isLt
  have hemb : ((cfg3.win 3).blk t).view.emb (ix2 p q)
      = ix2 (⟨5000 * t.val + p.val, by omega⟩ : Fin 100000) q := by
    funext a
    apply Fin.ext
    match a with
    | ⟨0, _⟩ => show win3_3.index t (0 : Fin 2) * 5000 + 1 * p.val = 5000 * t.val + p.val; omega
    | ⟨1, _⟩ => show win3_3.index t (1 : Fin 2) * 128 + 1 * q.val = q.val; omega
  show k3_pay1 (F := Ideal) (iblk3 V c 0 t) (iblk3 V c 1 t) (iblk3 V c 2 t) (ix2 p q)
    = G3 V c (((cfg3.win 3).blk t).view.emb (ix2 p q))
  rw [hemb]
  exact point3 _ _ _ _ _ _ p q _ (rows3 V c t p q _ rfl) (scale3 V c t q) (shift3 V c t q)

/-- An index of the output array is in point `t`'s tile iff each coordinate is in the tile's range on its axis. -/
theorem mem_blk3 (t : Fin cfg3.N) (i : S100000x128.Idx) :
    i ∈ ((cfg3.win 3).blk t).view.set ↔ ∀ a : Fin 2, win3_3.index t a * S5000x128.size a ≤ (i a).val
      ∧ (i a).val < win3_3.index t a * S5000x128.size a + S5000x128.size a := by
  show i ∈ ((View.whole main_v79).slice (win3_3.rect t)).set ↔ _
  rw [View.set_slice_whole, Rect.mem_set_unit]
  exact Iff.rfl

/-- Every row lies in the tile of the point `row / 5000`. -/
theorem cover3 (i : S100000x128.Idx) :
    ∃ t : Fin cfg3.N, (cfg3.win 3).flush t = true ∧ i ∈ ((cfg3.win 3).blk t).view.set := by
  have hi0 : (i 0).val < 100000 := (i 0).isLt
  have hi1 : (i 1).val < 128 := (i 1).isLt
  have hN : cfg3.N = 20 := N_3
  let t : Fin cfg3.N := ⟨(i 0).val / 5000, by rw [hN]; omega⟩
  have ht : t.val = (i 0).val / 5000 := rfl
  obtain ⟨-, -, -, -, -, -, e6, e7⟩ := idx_facts3 t
  refine ⟨t, flush3_3 t, ?_⟩
  rw [mem_blk3]
  intro a
  match a with
  | ⟨0, _⟩ => show win3_3.index t (0 : Fin 2) * 5000 ≤ (i 0).val ∧ (i 0).val < win3_3.index t (0 : Fin 2) * 5000 + 5000; omega
  | ⟨1, _⟩ => show win3_3.index t (1 : Fin 2) * 128 ≤ (i 1).val ∧ (i 1).val < win3_3.index t (1 : Fin 2) * 128 + 128; omega

/-- The output array after the region is the whole-array function of the arrays the region found. -/
theorem final3 (c : Dev nD) : (dat3 (F := Ideal) V c).arrAt 3 cfg3.N
    = Cert.Sage.Spec.bnRelu (V c main_v62_0) (V c main_v77) (V c main_v78) :=
  (dat3 (F := Ideal) V c).arrAt_eq_of_cover 3 (G3 V c) (fun t _ => flushed3_eq V c t) (cover3)

end Cert.Sage.KReg13

end
-- ==== Proof.KReg4.lean ====
/-
  The last linear layer (47 output columns) as one whole-array function: the region's grid has 20 points, point t
  handles rows 5000·t … 5000·t + 4999 of the aggregate, of the features and of the output, and reads both weight
  matrices and the bias whole. Row 5000·t + p of the output is row p of the tile's two matrix products plus the bias,
  which is the linear combine of the whole arrays at row 5000·t + p; the 20 tiles cover all 100000 rows.
-/
import proofs.«156934_j7851200217408_1_alg».proof.Proof.Gen.KernelIdeal.Frame
import proofs.«156934_j7851200217408_1_alg».proof.Proof.Spec
import proofs.«156934_j7851200217408_1_alg».proof.Proof.Payloads
import Idealize.ShloMosaic.Lib.Pipeline.Value
import Idealize.ShloMosaic.Lib.ValueIdx

set_option maxRecDepth 16384

noncomputable section

namespace Cert.Sage.KReg4

open Idealize.ShloMosaic Idealize.ShloMosaic.ValueIdx Idealize.ShloMosaic.TcCoe
open Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: the three row-tiled windows sit at block (t, 0), the three
    small operands at block (0, 0). -/
theorem idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

theorem N20 : cfg4.N = 20 := N_4

/-- Row p of tile t is row 5000·t + p of the array. -/
def row (t : Fin cfg4.N) (p : Fin 5000) : Fin 100000 :=
  ⟨5000 * t.val + p.val, by have ht := t.isLt; have e := N20; have hp := p.isLt; omega⟩

theorem row_val (t : Fin cfg4.N) (p : Fin 5000) : (row t p).val = 5000 * t.val + p.val := rfl

/-! Where an element of each window's block at point t sits in the window's array. -/

theorem emb_agg (t : Fin cfg4.N) (p : Fin 5000) (k : Fin 128) :
    ((cfg4.win 0).blk t).view.emb (ix2 p k) = ix2 (row t p) k := by
  obtain ⟨e0, e1, -⟩ := idx_facts t
  funext a; apply Fin.ext
  match a with
  | ⟨0, _⟩ => show win4_0.index t (0 : Fin 2) * 5000 + 1 * p.val = 5000 * t.val + p.val; omega
  | ⟨1, _⟩ => show win4_0.index t (1 : Fin 2) * 128 + 1 * k.val = k.val; omega

theorem emb_feat (t : Fin cfg4.N) (p : Fin 5000) (k : Fin 128) :
    ((cfg4.win 1).blk t).view.emb (ix2 p k) = ix2 (row t p) k := by
  obtain ⟨-, -, e0, e1, -⟩ := idx_facts t
  funext a; apply Fin.ext
  match a with
  | ⟨0, _⟩ => show win4_1.index t (0 : Fin 2) * 5000 + 1 * p.val = 5000 * t.val + p.val; omega
  | ⟨1, _⟩ => show win4_1.index t (1 : Fin 2) * 128 + 1 * k.val = k.val; omega

theorem emb_wl (t : Fin cfg4.N) (k : Fin 128) (q : Fin 47) :
    ((cfg4.win 2).blk t).view.emb (ix2 k q) = ix2 k q := by
  obtain ⟨-, -, -, -, e0, e1, -⟩ := idx_facts t
  funext a; apply Fin.ext
  match a with
  | ⟨0, _⟩ => show win4_2.index t (0 : Fin 2) * 128 + 1 * k.val = k.val; omega
  | ⟨1, _⟩ => show win4_2.index t (1 : Fin 2) * 47 + 1 * q.val = q.val; omega

theorem emb_bias (t : Fin cfg4.N) (z : Fin 1) (q : Fin 47) :
    ((cfg4.win 3).blk t).view.emb (ix2 z q) = ix2 z q := by
  obtain ⟨-, -, -, -, -, -, e0, e1, -⟩ := idx_facts t
  funext a; apply Fin.ext
  match a with
  | ⟨0, _⟩ => show win4_3.index t (0 : Fin 2) * 1 + 1 * z.val = z.val; omega
  | ⟨1, _⟩ => show win4_3.index t (1 : Fin 2) * 47 + 1 * q.val = q.val; omega

theorem emb_wr (t : Fin cfg4.N) (k : Fin 128) (q : Fin 47) :
    ((cfg4.win 4).blk t).view.emb (ix2 k q) = ix2 k q := by
  obtain ⟨-, -, -, -, -, -, -, -, e0, e1, -⟩ := idx_facts t
  funext a; apply Fin.ext
  match a with
  | ⟨0, _⟩ => show win4_4.index t (0 : Fin 2) * 128 + 1 * k.val = k.val; omega
  | ⟨1, _⟩ => show win4_4.index t (1 : Fin 2) * 47 + 1 * q.val = q.val; omega

theorem emb_out (t : Fin cfg4.N) (p : Fin 5000) (q : Fin 47) :
    ((cfg4.win 5).blk t).view.emb (ix2 p q) = ix2 (row t p) q := by
  obtain ⟨-, -, -, -, -, -, -, -, -, -, e0, e1⟩ := idx_facts t
  funext a; apply Fin.ext
  match a with
  | ⟨0, _⟩ => show win4_5.index t (0 : Fin 2) * 5000 + 1 * p.val = 5000 * t.val + p.val; omega
  | ⟨1, _⟩ => show win4_5.index t (1 : Fin 2) * 47 + 1 * q.val = q.val; omega

/-! Each input block at an element: the region-entry array at the element's place. -/

theorem blk_agg (c : Dev nD) (t : Fin cfg4.N) (p : Fin 5000) (k : Fin 128) :
    iblk4 V c 0 t (ix2 p k) = (V c main_v92 : Spec.M 100000 128) (ix2 (row t p) k) :=
  congrArg (V c main_v92 : Spec.M 100000 128) (emb_agg t p k)

theorem blk_feat (c : Dev nD) (t : Fin cfg4.N) (p : Fin 5000) (k : Fin 128) :
    iblk4 V c 1 t (ix2 p k) = (V c main_v79 : Spec.M 100000 128) (ix2 (row t p) k) :=
  congrArg (V c main_v79 : Spec.M 100000 128) (emb_feat t p k)

theorem blk_wl (c : Dev nD) (t : Fin cfg4.N) (k : Fin 128) (q : Fin 47) :
    iblk4 V c 2 t (ix2 k q) = (V c main_v93 : Spec.M 128 47) (ix2 k q) :=
  congrArg (V c main_v93 : Spec.M 128 47) (emb_wl t k q)

theorem blk_bias (c : Dev nD) (t : Fin cfg4.N) (z : Fin 1) (q : Fin 47) :
    iblk4 V c 3 t (ix2 z q) = (V c main_v95 : Spec.M 1 47) (ix2 z q) :=
  congrArg (V c main_v95 : Spec.M 1 47) (emb_bias t z q)

theorem blk_wr (c : Dev nD) (t : Fin cfg4.N) (k : Fin 128) (q : Fin 47) :
    iblk4 V c 4 t (ix2 k q) = (V c main_v94 : Spec.M 128 47) (ix2 k q) :=
  congrArg (V c main_v94 : Spec.M 128 47) (emb_wr t k q)

/-- The whole-array function the region computes: the linear combine of the aggregate, the features, the two weight
    matrices and the bias as the region finds them. -/
abbrev G (c : Dev nD) : Spec.M 100000 47 :=
  Spec.lin (V c main_v92) (V c main_v79) (V c main_v93) (V c main_v94) (V c main_v95)

/-- What point t writes back is block t of the linear combine of the region-entry arrays. -/
theorem flushed_eq (c : Dev nD) (t : Fin cfg4.N) :
    (dat4 (F := Ideal) V c).flushed 5 t = ((cfg4.win 5).blk t).view.read (Elt Ideal) (G V c) := by
  show (cfg4.win 5).cut (grid4.coords t) ((dat4 V c).after 5 t) = _
  rw [after4_5]
  unfold out4_5
  rw [View.canon_unit_zero hz]
  simp only [View.ld_unit_zero (S := S5000x128) hz, View.ld_unit_zero (S := S128x47) hz, View.ld_unit_zero (S := S1x47) hz]
  funext j
  obtain ⟨p, q, rfl⟩ : ∃ (p : Fin 5000) (q : Fin 47), j = ix2 p q := ⟨j 0, j 1, eq_ix2 j⟩
  show k4_pay1 (F := Ideal) (iblk4 V c 0 t) (iblk4 V c 1 t) (iblk4 V c 2 t) (iblk4 V c 4 t) (iblk4 V c 3 t) (ix2 p q)
    = G V c (((cfg4.win 5).blk t).view.emb (ix2 p q))
  rw [emb_out]
  refine (Pay.pay1_4 _ _ _ _ _ p q).trans ?_
  show _ = Spec.linE (V c main_v92) (V c main_v79) (V c main_v93) (V c main_v94) (V c main_v95) (row t p) q
  unfold Spec.linE
  rw [blk_bias V c t 0 q]
  refine congrArg₂ (· + ·) (congrArg₂ (· + ·) ?_ ?_) rfl
  · exact Finset.sum_congr rfl fun k _ => by rw [blk_agg V c t p k, blk_wl V c t k q]
  · exact Finset.sum_congr rfl fun k _ => by rw [blk_feat V c t p k, blk_wr V c t k q]

/-- An index of the output array is in point t's block iff each coordinate is in the block's range on its axis. -/
theorem mem_blk (t : Fin cfg4.N) (i : S100000x47.Idx) :
    i ∈ ((cfg4.win 5).blk t).view.set ↔ ∀ a : Fin 2, win4_5.index t a * S5000x47.size a ≤ (i a).val ∧ (i a).val < win4_5.index t a * S5000x47.size a + S5000x47.size a := by
  show i ∈ ((View.whole main_v96).slice (win4_5.rect t)).set ↔ _
  rw [View.set_slice_whole, Rect.mem_set_unit]
  exact Iff.rfl

/-- Every row r of the output is in the block of point r / 5000, which is written back. -/
theorem cover (i : S100000x47.Idx) :
    ∃ t : Fin cfg4.N, (cfg4.win 5).flush t = true ∧ i ∈ ((cfg4.win 5).blk t).view.set := by
  have hi0 : (i 0).val < 100000 := (i 0).isLt
  have hi1 : (i 1).val < 47 := (i 1).isLt
  have hN := N20
  obtain ⟨t, ht⟩ : ∃ t : Fin cfg4.N, t.val = (i 0).val / 5000 := ⟨⟨(i 0).val / 5000, by omega⟩, rfl⟩
  refine ⟨t, flush4_5 t, ?_⟩
  rw [mem_blk]
  obtain ⟨-, -, -, -, -, -, -, -, -, -, e0, e1⟩ := idx_facts t
  intro a
  match a with
  | ⟨0, _⟩ => show win4_5.index t (0 : Fin 2) * 5000 ≤ (i 0).val ∧ (i 0).val < win4_5.index t (0 : Fin 2) * 5000 + 5000; omega
  | ⟨1, _⟩ => show win4_5.index t (1 : Fin 2) * 47 ≤ (i 1).val ∧ (i 1).val < win4_5.index t (1 : Fin 2) * 47 + 47; omega

/-- The output array after the region: the linear combine of the region-entry arrays, at every index. -/
theorem final4 (c : Dev nD) :
    (dat4 (F := Ideal) V c).arrAt 5 cfg4.N
      = Spec.lin (V c main_v92) (V c main_v79) (V c main_v93) (V c main_v94) (V c main_v95) :=
  (dat4 (F := Ideal) V c).arrAt_eq_of_cover 5 (G V c) (fun t _ => flushed_eq V c t) cover

end Cert.Sage.KReg4

end
-- ==== Proof.KChain.lean ====
/-
  The idealized kernel's result as one function of the arguments.

  Following the program's boundaries: the first stretch prepares the mean aggregate of the input features and the
  transposed weights; the first launch leaves the linear combine and its column sums and sums of squares; the next
  stretch turns those into the batch norm's scale and shift; the second launch applies them and the positive part: that
  is one layer.  A second layer follows on the first one's output, then the aggregate and the linear combine once more
  with 47 output columns.
-/
import proofs.«156934_j7851200217408_1_alg».proof.Proof.KHost
import proofs.«156934_j7851200217408_1_alg».proof.Proof.KReg0
import proofs.«156934_j7851200217408_1_alg».proof.Proof.KReg2
import proofs.«156934_j7851200217408_1_alg».proof.Proof.KReg13
import proofs.«156934_j7851200217408_1_alg».proof.Proof.KReg4

set_option maxRecDepth 16384

noncomputable section

namespace Cert.Sage.KChain

open Cert.KernelIdeal Cert.KernelIdeal.Gen Cert.Sage.KHost
open Idealize.ShloMosaic Idealize.ShloMosaic.TcCoe Idealize.SL.Sem

variable (m : (ℓ : Loc nD τ sig) → Buf (Elt Ideal) ℓ) (ρ : Dev nD → PrngReg)

/-- The first layer's output, of the launch memory. -/
abbrev h1 (c : Dev nD) : Spec.M 100000 128 :=
  layerK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

/-- The second layer's output. -/
abbrev h2 (c : Dev nD) : Spec.M 100000 128 :=
  layerK (h1 m c) (m ((c : Thread nD τ).loc main_arg1)) (m ((c : Thread nD τ).loc main_arg7)) (m ((c : Thread nD τ).loc main_arg8)) (m ((c : Thread nD τ).loc main_arg9)) (m ((c : Thread nD τ).loc main_arg10)) (m ((c : Thread nD τ).loc main_arg11))

/-- The network's output. -/
abbrev outK (c : Dev nD) : Spec.M 100000 47 :=
  lin47K (h2 m c) (m ((c : Thread nD τ).loc main_arg1)) (m ((c : Thread nD τ).loc main_arg12)) (m ((c : Thread nD τ).loc main_arg13)) (m ((c : Thread nD τ).loc main_arg14))

/-! ## The boundaries, one after the other -/

/-- After the first launch: the first layer's linear combine … -/
theorem W2_lin (c : Dev nD) : W2 m ρ c (Proc.devRef .tc main_v28_0)
    = linK (m ((c : Thread nD τ).loc main_arg0)) (m ((c : Thread nD τ).loc main_arg1)) (m ((c : Thread nD τ).loc main_arg2)) (m ((c : Thread nD τ).loc main_arg3)) (m ((c : Thread nD τ).loc main_arg4)) := by
  refine (W2_arr m ρ c 5).trans ((Cert.Sage.KReg0.final0_5 (V1 m ρ) c).trans ?_)
  show Spec.lin (W1 m ρ c (Proc.devRef .tc main_v24)) (W1 m ρ c (Proc.devRef .tc main_arg0))
    (W1 m ρ c (Proc.devRef .tc main_v25)) (W1 m ρ c (Proc.devRef .tc main_v26)) (W1 m ρ c (Proc.devRef .tc main_v27)) = _
  rw [W1_v24, W1_arg0, W1_v25, W1_v26, W1_v27]
  rfl

/-- … its column sums … -/
theorem W2_sum (c : Dev nD) : W2 m ρ c (Proc.devRef .tc main_v28_1)
    = Spec.colSum (linK (m ((c : Thread nD τ).loc main_arg0)) (m ((c : Thread nD τ).loc main_arg1)) (m ((c : Thread nD τ).loc main_arg2)) (m ((c : Thread nD τ).loc main_arg3)) (m ((c : Thread nD τ).loc main_arg4))) := by
  refine (W2_arr m ρ c 6).trans ((Cert.Sage.KReg0.final0_6 (V1 m ρ) c).trans ?_)
  show Spec.colSum (Spec.lin (W1 m ρ c (Proc.devRef .tc main_v24)) (W1 m ρ c (Proc.devRef .tc main_arg0))
    (W1 m ρ c (Proc.devRef .tc main_v25)) (W1 m ρ c (Proc.devRef .tc main_v26)) (W1 m ρ c (Proc.devRef .tc main_v27))) = _
  rw [W1_v24, W1_arg0, W1_v25, W1_v26, W1_v27]
  rfl

/-- … and its column sums of squares. -/
theorem W2_sumsq (c : Dev nD) : W2 m ρ c (Proc.devRef .tc main_v28_2)
    = Spec.colSumSq (linK (m ((c : Thread nD τ).loc main_arg0)) (m ((c : Thread nD τ).loc main_arg1)) (m ((c : Thread nD τ).loc main_arg2)) (m ((c : Thread nD τ).loc main_arg3)) (m ((c : Thread nD τ).loc main_arg4))) := by
  refine (W2_arr m ρ c 7).trans ((Cert.Sage.KReg0.final0_7 (V1 m ρ) c).trans ?_)
  show Spec.colSumSq (Spec.lin (W1 m ρ c (Proc.devRef .tc main_v24)) (W1 m ρ c (Proc.devRef .tc main_arg0))
    (W1 m ρ c (Proc.devRef .tc main_v25)) (W1 m ρ c (Proc.devRef .tc main_v26)) (W1 m ρ c (Proc.devRef .tc main_v27))) = _
  rw [W1_v24, W1_arg0, W1_v25, W1_v26, W1_v27]
  rfl

/-- After the second launch: the first layer's output. -/
theorem W4_h1 (c : Dev nD) : W4 m ρ c (Proc.devRef .tc main_v45) = h1 m c := by
  refine (W4_arr m ρ c 3).trans ((Cert.Sage.KReg13.final1 (V3 m ρ) c).trans ?_)
  show Spec.bnRelu (W3 m ρ c (Proc.devRef .tc main_v28_0)) (W3 m ρ c (Proc.devRef .tc main_v43))
    (W3 m ρ c (Proc.devRef .tc main_v44)) = _
  rw [W3_v28_0, W3_v43, W3_v44, W2_lin, W2_sum, W2_sumsq, W2_main_arg5, W2_main_arg6]
  rfl

/-- After the third launch: the second layer's linear combine and its column statistics. -/
theorem W6_lin (c : Dev nD) : W6 m ρ c (Proc.devRef .tc main_v62_0)
    = linK (h1 m c) (m ((c : Thread nD τ).loc main_arg1)) (m ((c : Thread nD τ).loc main_arg7)) (m ((c : Thread nD τ).loc main_arg8)) (m ((c : Thread nD τ).loc main_arg9)) := by
  refine (W6_arr m ρ c 5).trans ((Cert.Sage.KReg2.final2_5 (V5 m ρ) c).trans ?_)
  show Spec.lin (W5 m ρ c (Proc.devRef .tc main_v58)) (W5 m ρ c (Proc.devRef .tc main_v45))
    (W5 m ρ c (Proc.devRef .tc main_v59)) (W5 m ρ c (Proc.devRef .tc main_v60)) (W5 m ρ c (Proc.devRef .tc main_v61)) = _
  rw [W5_v58, W5_v45, W5_v59, W5_v60, W5_v61, W4_h1, W4_main_v1, W4_main_v3, W4_main_v11, W1_v1, W1_v3, W1_v11,
    W4_main_arg7, W4_main_arg8, W4_main_arg9]
  rfl

theorem W6_sum (c : Dev nD) : W6 m ρ c (Proc.devRef .tc main_v62_1)
    = Spec.colSum (linK (h1 m c) (m ((c : Thread nD τ).loc main_arg1)) (m ((c : Thread nD τ).loc main_arg7)) (m ((c : Thread nD τ).loc main_arg8)) (m ((c : Thread nD τ).loc main_arg9))) := by
  refine (W6_arr m ρ c 6).trans ((Cert.Sage.KReg2.final2_6 (V5 m ρ) c).trans ?_)
  show Spec.colSum (Spec.lin (W5 m ρ c (Proc.devRef .tc main_v58)) (W5 m ρ c (Proc.devRef .tc main_v45))
    (W5 m ρ c (Proc.devRef .tc main_v59)) (W5 m ρ c (Proc.devRef .tc main_v60)) (W5 m ρ c (Proc.devRef .tc main_v61))) = _
  rw [W5_v58, W5_v45, W5_v59, W5_v60, W5_v61, W4_h1, W4_main_v1, W4_main_v3, W4_main_v11, W1_v1, W1_v3, W1_v11,
    W4_main_arg7, W4_main_arg8, W4_main_arg9]
  rfl

theorem W6_sumsq (c : Dev nD) : W6 m ρ c (Proc.devRef .tc main_v62_2)
    = Spec.colSumSq (linK (h1 m c) (m ((c : Thread nD τ).loc main_arg1)) (m ((c : Thread nD τ).loc main_arg7)) (m ((c : Thread nD τ).loc main_arg8)) (m ((c : Thread nD τ).loc main_arg9))) := by
  refine (W6_arr m ρ c 7).trans ((Cert.Sage.KReg2.final2_7 (V5 m ρ) c).trans ?_)
  show Spec.colSumSq (Spec.lin (W5 m ρ c (Proc.devRef .tc main_v58)) (W5 m ρ c (Proc.devRef .tc main_v45))
    (W5 m ρ c (Proc.devRef .tc main_v59)) (W5 m ρ c (Proc.devRef .tc main_v60)) (W5 m ρ c (Proc.devRef .tc main_v61))) = _
  rw [W5_v58, W5_v45, W5_v59, W5_v60, W5_v61, W4_h1, W4_main_v1, W4_main_v3, W4_main_v11, W1_v1, W1_v3, W1_v11,
    W4_main_arg7, W4_main_arg8, W4_main_arg9]
  rfl

/-- After the fourth launch: the second layer's output. -/
theorem W8_h2 (c : Dev nD) : W8 m ρ c (Proc.devRef .tc main_v79) = h2 m c := by
  refine (W8_arr m ρ c 3).trans ((Cert.Sage.KReg13.final3 (V7 m ρ) c).trans ?_)
  show Spec.bnRelu (W7 m ρ c (Proc.devRef .tc main_v62_0)) (W7 m ρ c (Proc.devRef .tc main_v77))
    (W7 m ρ c (Proc.devRef .tc main_v78)) = _
  rw [W7_v62_0, W7_v77, W7_v78, W6_lin, W6_sum, W6_sumsq, W6_main_arg10, W6_main_arg11]
  rfl

/-- After the last launch: the network's output. -/
theorem W10_out (c : Dev nD) : W10 m ρ c (Proc.devRef .tc main_v96) = outK m c := by
  refine (W10_arr m ρ c 5).trans ((Cert.Sage.KReg4.final4 (V9 m ρ) c).trans ?_)
  show Spec.lin (W9 m ρ c (Proc.devRef .tc main_v92)) (W9 m ρ c (Proc.devRef .tc main_v79))
    (W9 m ρ c (Proc.devRef .tc main_v93)) (W9 m ρ c (Proc.devRef .tc main_v94)) (W9 m ρ c (Proc.devRef .tc main_v95)) = _
  rw [W9_v92, W9_v79, W9_v93, W9_v94, W9_v95, W8_h2, W8_main_v1, W8_main_v3, W8_main_v11, W1_v1, W1_v3, W1_v11,
    W8_main_arg12, W8_main_arg13, W8_main_arg14]
  rfl

end Cert.Sage.KChain

end
-- ==== Proof.RefLayer.lean ====
/-
  The reference network, layer by layer.

  The reference is a three-layer GraphSAGE network over N = 100000 nodes and E = 1600000 edges.  Each layer takes the
  node features h : [N, 128] and the edge list e : [2, E] (row 0 the destinations, row 1 the sources, a negative source
  wrapped by adding N) and computes

      agg  = scatter_add(0, dst, gather(h, src)) / max(deg, 1),       deg = scatter_add(0, dst, 1),
      lin  = (agg · Wlᵀ + bl) + h · Wrᵀ,

  followed, in the first two layers, by batch normalisation over the N rows with the batch's own mean and (biased)
  variance, an affine map by (g, b), and the positive part.

  This file defines each of those stages as a whole-array function composed of the library operations in the order the
  program composes them, proves that the program's result is the composition of the stages (by unfolding), and reads
  each stage at an index: the mean aggregation as a quotient, a linear stage as two sums over the 128 input features
  (against the TRANSPOSED weight, so the weight is read at (output, input)), the normalisation as the textbook formula
  with the column sums written out.
-/
import proofs.«156934_j7851200217408_1_alg».proof.Proof.Gen.ReferenceIdeal.Run
import Idealize.ShloMosaic.Lib.Pipeline.Value
import Idealize.ShloMosaic.Lib.ValueIdx
import Idealize.ShloMosaic.PureOps.Ideal.Laws

noncomputable section

open scoped BigOperators

namespace Cert.Sage.Ref

open Cert.ReferenceIdeal Cert.ReferenceIdeal.Gen Idealize.ShloMosaic Idealize.ShloMosaic.TcCoe Idealize.SL.Sem Idealize.ShloMosaic.StableHlo
open Idealize.ShloMosaic.ValueIdx

/-! ## The stages as whole arrays -/

/-- The destinations as a column of start indices: row 0 of the edge list, flattened, one index per row. -/
def dstIdx (e : IVec S2x1600000 32) : IVec S1600000x1 32 :=
  broadcastInDim S1600000x1 ![0] bcast_S1600000_S1600000x1_0
    (shapeCast _ (extractStridedSlice S1x1600000 ![0, 0] e slices_S2x1600000_S1x1600000_0_0) shapeCasts_S1x1600000_S1600000)

/-- The sources as a column of start indices: row 1 of the edge list, flattened, a negative entry wrapped by adding
    the number of nodes, one index per row. -/
def srcIdx (e : IVec S2x1600000 32) : IVec S1600000x1 32 :=
  broadcastInDim S1600000x1 ![0] bcast_S1600000_S1600000x1_0
    (select
      (cmpi .slt (shapeCast _ (extractStridedSlice S1x1600000 ![1, 0] e slices_S2x1600000_S1x1600000_1_0) shapeCasts_S1x1600000_S1600000)
        (broadcastInDim S1600000 ![] bcast_S_S1600000 (constantI S_ 32 0#32)))
      (addi (shapeCast _ (extractStridedSlice S1x1600000 ![1, 0] e slices_S2x1600000_S1x1600000_1_0) shapeCasts_S1x1600000_S1600000)
        (broadcastInDim S1600000 ![] bcast_S_S1600000 (constantI S_ 32 100000#32)))
      (shapeCast _ (extractStridedSlice S1x1600000 ![1, 0] e slices_S2x1600000_S1x1600000_1_0) shapeCasts_S1x1600000_S1600000))

/-- The neighbour sum: the source rows of h gathered per edge and accumulated at the edge's destination, from zero. -/
def summed (h : FVec Ideal S100000x128 .f32) (e : IVec S2x1600000 32) : FVec Ideal S100000x128 .f32 :=
  Host.scatterAdd scatter_S100000x128_S1600000x1_S1600000x128_1_0_0_1
    (broadcastInDim S100000x128 ![] bcast_S_S100000x128 (constant (F := Ideal) S_ .f32 0x00000000#32))
    (dstIdx e)
    (Host.gather gather_S100000x128_S1600000x1_S1600000x128_1_0_n_n_0_1_1128 h (srcIdx e))

/-- The in-degree: a one per edge accumulated at the edge's destination, from zero. -/
def degv (e : IVec S2x1600000 32) : FVec Ideal S100000 .f32 :=
  Host.scatterAdd scatter_S100000_S1600000x1_S1600000_n_0_0_1
    (broadcastInDim S100000 ![] bcast_S_S100000 (constant (F := Ideal) S_ .f32 0x00000000#32))
    (dstIdx e)
    (broadcastInDim S1600000 ![] bcast_S_S1600000 (constant (F := Ideal) S_ .f32 0x3F800000#32))

/-- The mean aggregation: the neighbour sum divided, row by row, by the in-degree or one, whichever is larger. -/
def agg (h : FVec Ideal S100000x128 .f32) (e : IVec S2x1600000 32) : FVec Ideal S100000x128 .f32 :=
  Host.divf (summed h e)
    (broadcastInDim S100000x128 ![0, 1] bcast_S100000x1_S100000x128_0_1
      (broadcastInDim S100000x1 ![0] bcast_S100000_S100000x1_0
        (maximumf (degv e) (broadcastInDim S100000 ![] bcast_S_S100000 (constant (F := Ideal) S_ .f32 0x3F800000#32)))))

/-- A linear stage with 128 outputs: a · wlᵀ + bl (the bias along the rows) plus h · wrᵀ. -/
def lin128 (a h : FVec Ideal S100000x128 .f32) (wl : FVec Ideal S128x128 .f32) (bl : FVec Ideal S128 .f32)
    (wr : FVec Ideal S128x128 .f32) : FVec Ideal S100000x128 .f32 :=
  addf
    (addf
      (Host.dotGeneral dot_S100000x128_S128x128_S100000x128_1_0_0_1_n_n none a
        (transpose S128x128 [1, 0] wl transposes_S128x128_S128x128_1_0))
      (broadcastInDim S100000x128 ![0, 1] bcast_S1x128_S100000x128_0_1 (broadcastInDim S1x128 ![1] bcast_S128_S1x128_1 bl)))
    (Host.dotGeneral dot_S100000x128_S128x128_S100000x128_1_0_0_1_n_n none h
      (transpose S128x128 [1, 0] wr transposes_S128x128_S128x128_1_0))

/-- The column means of x: the column sums from zero, divided by the number of rows. -/
def bnMean (x : FVec Ideal S100000x128 .f32) : FVec Ideal S128 .f32 :=
  Host.divf (Host.reduceAdd x (constant (F := Ideal) S_ .f32 0x00000000#32) reducesTo_S100000x128_S128_d0 h_S_)
    (broadcastInDim S128 ![] bcast_S_S128 (constant (F := Ideal) S_ .f32 0x47C35000#32))

/-- x with its column means subtracted. -/
def bnCentered (x : FVec Ideal S100000x128 .f32) : FVec Ideal S100000x128 .f32 :=
  subf x (broadcastInDim S100000x128 ![0, 1] bcast_S1x128_S100000x128_0_1 (broadcastInDim S1x128 ![1] bcast_S128_S1x128_1 (bnMean x)))

/-- The column variances of x (biased): the column sums of the squared centred entries, divided by the number of
    rows. -/
def bnVar (x : FVec Ideal S100000x128 .f32) : FVec Ideal S128 .f32 :=
  Host.divf
    (Host.reduceAdd (mulf (bnCentered x) (bnCentered x)) (constant (F := Ideal) S_ .f32 0x00000000#32) reducesTo_S100000x128_S128_d0 h_S_)
    (broadcastInDim S128 ![] bcast_S_S128 (constant (F := Ideal) S_ .f32 0x47C35000#32))

/-- Batch normalisation of x by its own column means and variances, the affine map by (g, b), and the positive part. -/
def bnrelu (x : FVec Ideal S100000x128 .f32) (g b : FVec Ideal S128 .f32) : FVec Ideal S100000x128 .f32 :=
  maximumf
    (addf
      (mulf
        (mulf (bnCentered x)
          (broadcastInDim S100000x128 ![0, 1] bcast_S1x128_S100000x128_0_1
            (broadcastInDim S1x128 ![1] bcast_S128_S1x128_1
              (Host.rsqrt (addf (bnVar x) (broadcastInDim S128 ![] bcast_S_S128 (constant (F := Ideal) S_ .f32 0x3727C5AC#32)))))))
        (broadcastInDim S100000x128 ![0, 1] bcast_S1x128_S100000x128_0_1 (broadcastInDim S1x128 ![1] bcast_S128_S1x128_1 g)))
      (broadcastInDim S100000x128 ![0, 1] bcast_S1x128_S100000x128_0_1 (broadcastInDim S1x128 ![1] bcast_S128_S1x128_1 b)))
    (broadcastInDim S100000x128 ![] bcast_S_S100000x128 (constant (F := Ideal) S_ .f32 0x00000000#32))

/-- The last linear stage, with 47 outputs: a · wlᵀ + bl plus h · wrᵀ. -/
def lin47 (a h : FVec Ideal S100000x128 .f32) (wl : FVec Ideal S47x128 .f32) (bl : FVec Ideal S47 .f32)
    (wr : FVec Ideal S47x128 .f32) : FVec Ideal S100000x47 .f32 :=
  addf
    (addf
      (Host.dotGeneral dot_S100000x128_S128x47_S100000x47_1_0_0_1_n_n none a
        (transpose S128x47 [1, 0] wl transposes_S47x128_S128x47_1_0))
      (broadcastInDim S100000x47 ![0, 1] bcast_S1x47_S100000x47_0_1 (broadcastInDim S1x47 ![1] bcast_S47_S1x47_1 bl)))
    (Host.dotGeneral dot_S100000x128_S128x47_S100000x47_1_0_0_1_n_n none h
      (transpose S128x47 [1, 0] wr transposes_S47x128_S128x47_1_0))

/-- The network: two normalised layers and the last linear stage, each on the mean aggregation of its input. -/
def refOut (x : FVec Ideal S100000x128 .f32) (e : IVec S2x1600000 32)
    (Wl0 : FVec Ideal S128x128 .f32) (bl0 : FVec Ideal S128 .f32) (Wr0 : FVec Ideal S128x128 .f32) (g0 b0 : FVec Ideal S128 .f32)
    (Wl1 : FVec Ideal S128x128 .f32) (bl1 : FVec Ideal S128 .f32) (Wr1 : FVec Ideal S128x128 .f32) (g1 b1 : FVec Ideal S128 .f32)
    (Wl2 : FVec Ideal S47x128 .f32) (bl2 : FVec Ideal S47 .f32) (Wr2 : FVec Ideal S47x128 .f32) : FVec Ideal S100000x47 .f32 :=
  let h1 := bnrelu (lin128 (agg x e) x Wl0 bl0 Wr0) g0 b0
  let h2 := bnrelu (lin128 (agg h1 e) h1 Wl1 bl1 Wr1) g1 b1
  lin47 (agg h2 e) h2 Wl2 bl2 Wr2

/-! ## The program's result is the composition of the stages -/

set_option maxRecDepth 8192 in
set_option maxHeartbeats 4000000 in
/-- The program's result, as the Run module states it, is the network of the stages applied to the arguments. -/
theorem res_eq (m : (ℓ : Loc nD τ sig) → Buf (Elt Ideal) ℓ) (c : Dev nD) :
    Cert.ReferenceIdeal.Value.res_main_v144 (F := Ideal) m c
      = refOut (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) (m ((c.tc : Thread nD τ).loc main_arg11))
          (m ((c.tc : Thread nD τ).loc main_arg12)) (m ((c.tc : Thread nD τ).loc main_arg13))
          (m ((c.tc : Thread nD τ).loc main_arg14)) := by
  unfold Cert.ReferenceIdeal.Value.res_main_v144; rfl

/-! ## Layout steps read at an index -/

section Layout
variable {α : Type}

/-- The transposed square weight at (input k, output q) is the weight at (q, k). -/
theorem transpose128_apply (w : S128x128.Idx → α) (k q : Fin 128) :
    transpose S128x128 [1, 0] w transposes_S128x128_S128x128_1_0 (ix2 k q) = w (ix2 q k) :=
  transpose_apply [1, 0] w transposes_S128x128_S128x128_1_0 (ix2 k q) (ix2 q k) (fun b => match b with
    | ⟨0, _⟩ => rfl
    | ⟨1, _⟩ => rfl)

/-- The transposed last weight at (input k, output q) is the weight at (q, k). -/
theorem transpose47_apply (w : S47x128.Idx → α) (k : Fin 128) (q : Fin 47) :
    transpose S128x47 [1, 0] w transposes_S47x128_S128x47_1_0 (ix2 k q) = w (ix2 q k) :=
  transpose_apply [1, 0] w transposes_S47x128_S128x47_1_0 (ix2 k q) (ix2 q k) (fun b => match b with
    | ⟨0, _⟩ => rfl
    | ⟨1, _⟩ => rfl)

/-- A vector of 128 column values spread along the rows reads, at (p, q), its entry q. -/
theorem rowBcast128_apply (v : S128.Idx → α) (p : Fin 100000) (q : Fin 128) :
    broadcastInDim S100000x128 ![0, 1] bcast_S1x128_S100000x128_0_1 (broadcastInDim S1x128 ![1] bcast_S128_S1x128_1 v) (ix2 p q)
      = v (ix1 q) :=
  (broadcastInDim_apply _ bcast_S1x128_S100000x128_0_1 _ (ix2 p q) (ix2 (0 : Fin 1) q) (fun a => match a with
    | ⟨0, _⟩ => by show (0 : Nat) = if (1 : Nat) = 1 then 0 else p.val; rw [if_pos rfl]
    | ⟨1, _⟩ => by show q.val = if (128 : Nat) = 1 then 0 else q.val; rw [if_neg (by decide)])).trans
  (broadcastInDim_apply _ bcast_S128_S1x128_1 v (ix2 (0 : Fin 1) q) (ix1 q) (fun a => match a with
    | ⟨0, _⟩ => by show q.val = if (128 : Nat) = 1 then 0 else q.val; rw [if_neg (by decide)]))

/-- A vector of 47 column values spread along the rows reads, at (p, q), its entry q. -/
theorem rowBcast47_apply (v : S47.Idx → α) (p : Fin 100000) (q : Fin 47) :
    broadcastInDim S100000x47 ![0, 1] bcast_S1x47_S100000x47_0_1 (broadcastInDim S1x47 ![1] bcast_S47_S1x47_1 v) (ix2 p q)
      = v (ix1 q) :=
  (broadcastInDim_apply _ bcast_S1x47_S100000x47_0_1 _ (ix2 p q) (ix2 (0 : Fin 1) q) (fun a => match a with
    | ⟨0, _⟩ => by show (0 : Nat) = if (1 : Nat) = 1 then 0 else p.val; rw [if_pos rfl]
    | ⟨1, _⟩ => by show q.val = if (47 : Nat) = 1 then 0 else q.val; rw [if_neg (by decide)])).trans
  (broadcastInDim_apply _ bcast_S47_S1x47_1 v (ix2 (0 : Fin 1) q) (ix1 q) (fun a => match a with
    | ⟨0, _⟩ => by show q.val = if (47 : Nat) = 1 then 0 else q.val; rw [if_neg (by decide)]))

/-- A vector of 100000 row values spread along the columns reads, at (p, q), its entry p. -/
theorem colBcast_apply (v : S100000.Idx → α) (p : Fin 100000) (q : Fin 128) :
    broadcastInDim S100000x128 ![0, 1] bcast_S100000x1_S100000x128_0_1 (broadcastInDim S100000x1 ![0] bcast_S100000_S100000x1_0 v) (ix2 p q)
      = v (ix1 p) :=
  (broadcastInDim_apply _ bcast_S100000x1_S100000x128_0_1 _ (ix2 p q) (ix2 p (0 : Fin 1)) (fun a => match a with
    | ⟨0, _⟩ => by show p.val = if (100000 : Nat) = 1 then 0 else p.val; rw [if_neg (by decide)]
    | ⟨1, _⟩ => by show (0 : Nat) = if (1 : Nat) = 1 then 0 else q.val; rw [if_pos rfl])).trans
  (broadcastInDim_apply _ bcast_S100000_S100000x1_0 v (ix2 p (0 : Fin 1)) (ix1 p) (fun a => match a with
    | ⟨0, _⟩ => by show p.val = if (100000 : Nat) = 1 then 0 else p.val; rw [if_neg (by decide)]))

/-- A scalar spread over the [100000, 128] array reads the scalar everywhere. -/
theorem splat2_apply (c : S_.Idx → α) (i : S100000x128.Idx) :
    broadcastInDim S100000x128 ![] bcast_S_S100000x128 c i = c ix0 :=
  broadcastInDim_apply _ bcast_S_S100000x128 c i ix0 (fun a => a.elim0)

/-- A scalar spread over a vector of 128 reads the scalar everywhere. -/
theorem splat128_apply (c : S_.Idx → α) (i : S128.Idx) :
    broadcastInDim S128 ![] bcast_S_S128 c i = c ix0 :=
  broadcastInDim_apply _ bcast_S_S128 c i ix0 (fun a => a.elim0)

/-- A scalar spread over a vector of 100000 reads the scalar everywhere. -/
theorem splat100000_apply (c : S_.Idx → α) (i : S100000.Idx) :
    broadcastInDim S100000 ![] bcast_S_S100000 c i = c ix0 :=
  broadcastInDim_apply _ bcast_S_S100000 c i ix0 (fun a => a.elim0)

end Layout

/-! ## The contractions and the column sum read at an index -/

theorem dot128_lhs0 (i : S100000x128.Idx) (c : dot_S100000x128_S128x128_S100000x128_1_0_0_1_n_n.contr.Idx) :
    (dot_S100000x128_S128x128_S100000x128_1_0_0_1_n_n.lhsIdx i c 0).val = (i 0).val := by
  unfold DotDims.lhsIdx
  rw [dif_neg (show ¬(0 : Fin S100000x128.rank) ∈ dot_S100000x128_S128x128_S100000x128_1_0_0_1_n_n.lhsBatch by decide),
    dif_pos (show (0 : Fin S100000x128.rank) ∈ dot_S100000x128_S128x128_S100000x128_1_0_0_1_n_n.lhsNonContracting by decide)]
  rfl
theorem dot128_lhs1 (i : S100000x128.Idx) (c : dot_S100000x128_S128x128_S100000x128_1_0_0_1_n_n.contr.Idx) :
    (dot_S100000x128_S128x128_S100000x128_1_0_0_1_n_n.lhsIdx i c 1).val = (c ⟨0, by decide⟩).val :=
  dot_S100000x128_S128x128_S100000x128_1_0_0_1_n_n.lhsIdx_val_of_single rfl i c
theorem dot128_rhs0 (i : S100000x128.Idx) (c : dot_S100000x128_S128x128_S100000x128_1_0_0_1_n_n.contr.Idx) :
    (dot_S100000x128_S128x128_S100000x128_1_0_0_1_n_n.rhsIdx i c 0).val = (c ⟨0, by decide⟩).val :=
  dot_S100000x128_S128x128_S100000x128_1_0_0_1_n_n.rhsIdx_val_of_single rfl i c
theorem dot128_rhs1 (i : S100000x128.Idx) (c : dot_S100000x128_S128x128_S100000x128_1_0_0_1_n_n.contr.Idx) :
    (dot_S100000x128_S128x128_S100000x128_1_0_0_1_n_n.rhsIdx i c 1).val = (i 1).val := by
  unfold DotDims.rhsIdx
  rw [dif_neg (show ¬(1 : Fin S128x128.rank) ∈ dot_S100000x128_S128x128_S100000x128_1_0_0_1_n_n.rhsBatch by decide),
    dif_pos (show (1 : Fin S128x128.rank) ∈ dot_S100000x128_S128x128_S100000x128_1_0_0_1_n_n.rhsNonContracting by decide)]
  rfl

/-- The [100000, 128] × [128, 128] product at (p, q) is the sum over the 128 contracted coordinates. -/
theorem dot128_apply (l : FVec Ideal S100000x128 .f32) (r : FVec Ideal S128x128 .f32) (p : Fin 100000) (q : Fin 128) :
    Host.dotGeneral dot_S100000x128_S128x128_S100000x128_1_0_0_1_n_n none l r (ix2 p q)
      = ∑ k : Fin 128, l (ix2 p k) * r (ix2 k q) := by
  simp only [Host.dotGeneral]
  rw [Ideal.dotGeneral_apply, ← Equiv.sum_comp (ValueIdx.contrEquiv1 dot_S100000x128_S128x128_S100000x128_1_0_0_1_n_n 128 rfl rfl).symm]
  refine Finset.sum_congr rfl fun k _ => ?_
  have hk := ValueIdx.contrEquiv1_symm_val dot_S100000x128_S128x128_S100000x128_1_0_0_1_n_n 128 rfl rfl k
  have el : dot_S100000x128_S128x128_S100000x128_1_0_0_1_n_n.lhsIdx (ix2 p q) ((ValueIdx.contrEquiv1 dot_S100000x128_S128x128_S100000x128_1_0_0_1_n_n 128 rfl rfl).symm k) = ix2 p k :=
    funext fun a => Fin.ext (by
      match a with
      | ⟨0, _⟩ => exact dot128_lhs0 _ _
      | ⟨1, _⟩ => exact (dot128_lhs1 _ _).trans hk)
  have er : dot_S100000x128_S128x128_S100000x128_1_0_0_1_n_n.rhsIdx (ix2 p q) ((ValueIdx.contrEquiv1 dot_S100000x128_S128x128_S100000x128_1_0_0_1_n_n 128 rfl rfl).symm k) = ix2 k q :=
    funext fun a => Fin.ext (by
      match a with
      | ⟨0, _⟩ => exact (dot128_rhs0 _ _).trans hk
      | ⟨1, _⟩ => exact dot128_rhs1 _ _)
  rw [el, er]

theorem dot47_lhs0 (i : S100000x47.Idx) (c : dot_S100000x128_S128x47_S100000x47_1_0_0_1_n_n.contr.Idx) :
    (dot_S100000x128_S128x47_S100000x47_1_0_0_1_n_n.lhsIdx i c 0).val = (i 0).val := by
  unfold DotDims.lhsIdx
  rw [dif_neg (show ¬(0 : Fin S100000x128.rank) ∈ dot_S100000x128_S128x47_S100000x47_1_0_0_1_n_n.lhsBatch by decide),
    dif_pos (show (0 : Fin S100000x128.rank) ∈ dot_S100000x128_S128x47_S100000x47_1_0_0_1_n_n.lhsNonContracting by decide)]
  rfl
theorem dot47_lhs1 (i : S100000x47.Idx) (c : dot_S100000x128_S128x47_S100000x47_1_0_0_1_n_n.contr.Idx) :
    (dot_S100000x128_S128x47_S100000x47_1_0_0_1_n_n.lhsIdx i c 1).val = (c ⟨0, by decide⟩).val :=
  dot_S100000x128_S128x47_S100000x47_1_0_0_1_n_n.lhsIdx_val_of_single rfl i c
theorem dot47_rhs0 (i : S100000x47.Idx) (c : dot_S100000x128_S128x47_S100000x47_1_0_0_1_n_n.contr.Idx) :
    (dot_S100000x128_S128x47_S100000x47_1_0_0_1_n_n.rhsIdx i c 0).val = (c ⟨0, by decide⟩).val :=
  dot_S100000x128_S128x47_S100000x47_1_0_0_1_n_n.rhsIdx_val_of_single rfl i c
theorem dot47_rhs1 (i : S100000x47.Idx) (c : dot_S100000x128_S128x47_S100000x47_1_0_0_1_n_n.contr.Idx) :
    (dot_S100000x128_S128x47_S100000x47_1_0_0_1_n_n.rhsIdx i c 1).val = (i 1).val := by
  unfold DotDims.rhsIdx
  rw [dif_neg (show ¬(1 : Fin S128x47.rank) ∈ dot_S100000x128_S128x47_S100000x47_1_0_0_1_n_n.rhsBatch by decide),
    dif_pos (show (1 : Fin S128x47.rank) ∈ dot_S100000x128_S128x47_S100000x47_1_0_0_1_n_n.rhsNonContracting by decide)]
  rfl

/-- The [100000, 128] × [128, 47] product at (p, q) is the sum over the 128 contracted coordinates. -/
theorem dot47_apply (l : FVec Ideal S100000x128 .f32) (r : FVec Ideal S128x47 .f32) (p : Fin 100000) (q : Fin 47) :
    Host.dotGeneral dot_S100000x128_S128x47_S100000x47_1_0_0_1_n_n none l r (ix2 p q)
      = ∑ k : Fin 128, l (ix2 p k) * r (ix2 k q) := by
  simp only [Host.dotGeneral]
  rw [Ideal.dotGeneral_apply, ← Equiv.sum_comp (ValueIdx.contrEquiv1 dot_S100000x128_S128x47_S100000x47_1_0_0_1_n_n 128 rfl rfl).symm]
  refine Finset.sum_congr rfl fun k _ => ?_
  have hk := ValueIdx.contrEquiv1_symm_val dot_S100000x128_S128x47_S100000x47_1_0_0_1_n_n 128 rfl rfl k
  have el : dot_S100000x128_S128x47_S100000x47_1_0_0_1_n_n.lhsIdx (ix2 p q) ((ValueIdx.contrEquiv1 dot_S100000x128_S128x47_S100000x47_1_0_0_1_n_n 128 rfl rfl).symm k) = ix2 p k :=
    funext fun a => Fin.ext (by
      match a with
      | ⟨0, _⟩ => exact dot47_lhs0 _ _
      | ⟨1, _⟩ => exact (dot47_lhs1 _ _).trans hk)
  have er : dot_S100000x128_S128x47_S100000x47_1_0_0_1_n_n.rhsIdx (ix2 p q) ((ValueIdx.contrEquiv1 dot_S100000x128_S128x47_S100000x47_1_0_0_1_n_n 128 rfl rfl).symm k) = ix2 k q :=
    funext fun a => Fin.ext (by
      match a with
      | ⟨0, _⟩ => exact (dot47_rhs0 _ _).trans hk
      | ⟨1, _⟩ => exact dot47_rhs1 _ _)
  rw [el, er]

/-- The column sum from zero of a [100000, 128] array at column q: zero plus the sum of the column's entries. -/
theorem colSum_apply (x : FVec Ideal S100000x128 .f32) (q : Fin 128) :
    Host.reduceAdd (F := Ideal) x (constant (F := Ideal) S_ .f32 0x00000000#32) reducesTo_S100000x128_S128_d0 h_S_ (ix1 q)
      = (0 : EReal) + ∑ r : Fin 100000, x (ix2 r q) := by
  simp only [Host.reduceAdd, Ideal.hostReduceAdd_def]
  rw [Ideal.hostReduceAdd_single reducesTo_S100000x128_S128_d0 (by decide)]
  refine congrArg₂ (· + ·) Ideal.ofBits_zero_f32 (Finset.sum_congr rfl fun k _ => ?_)
  exact congrArg x (funext fun a => Fin.ext (by match a with | ⟨0, _⟩ => rfl | ⟨1, _⟩ => rfl))

/-! ## Two host operations read at an index (the others are in the library's index vocabulary) -/

/-- The host's division of arrays reads elementwise. -/
theorem hostDivf_apply {s : Shape} (a b : FVec Ideal s .f32) (i : s.Idx) : Host.divf a b i = Ideal.div (a i) (b i) := rfl

/-- The host's reciprocal square root of an array reads elementwise. -/
theorem hostRsqrt_apply {s : Shape} (a : FVec Ideal s .f32) (i : s.Idx) : Host.rsqrt a i = Ideal.rsqrt (a i) := rfl

/-! ## The stages read at an index -/

/-- A linear stage with 128 outputs at (p, q): the sum over the inputs of a times the left weight READ AT (q, k) — the
    program multiplies by the transpose — plus the bias, plus the same sum of h against the right weight. -/
theorem lin128_apply (a h : FVec Ideal S100000x128 .f32) (wl : FVec Ideal S128x128 .f32) (bl : FVec Ideal S128 .f32)
    (wr : FVec Ideal S128x128 .f32) (p : Fin 100000) (q : Fin 128) :
    lin128 a h wl bl wr (ix2 p q)
      = (∑ k : Fin 128, a (ix2 p k) * wl (ix2 q k) + bl (ix1 q)) + ∑ k : Fin 128, h (ix2 p k) * wr (ix2 q k) := by
  show (Host.dotGeneral dot_S100000x128_S128x128_S100000x128_1_0_0_1_n_n none a
          (transpose S128x128 [1, 0] wl transposes_S128x128_S128x128_1_0) (ix2 p q)
        + broadcastInDim S100000x128 ![0, 1] bcast_S1x128_S100000x128_0_1 (broadcastInDim S1x128 ![1] bcast_S128_S1x128_1 bl) (ix2 p q))
      + Host.dotGeneral dot_S100000x128_S128x128_S100000x128_1_0_0_1_n_n none h
          (transpose S128x128 [1, 0] wr transposes_S128x128_S128x128_1_0) (ix2 p q) = _
  rw [dot128_apply, dot128_apply, rowBcast128_apply]
  refine congrArg₂ (· + ·) (congrArg (· + bl (ix1 q)) (Finset.sum_congr rfl fun k _ => ?_)) (Finset.sum_congr rfl fun k _ => ?_)
  · exact congrArg (a (ix2 p k) * ·) (transpose128_apply wl k q)
  · exact congrArg (h (ix2 p k) * ·) (transpose128_apply wr k q)

/-- The last linear stage at (p, q), q among the 47 outputs: the same reading. -/
theorem lin47_apply (a h : FVec Ideal S100000x128 .f32) (wl : FVec Ideal S47x128 .f32) (bl : FVec Ideal S47 .f32)
    (wr : FVec Ideal S47x128 .f32) (p : Fin 100000) (q : Fin 47) :
    lin47 a h wl bl wr (ix2 p q)
      = (∑ k : Fin 128, a (ix2 p k) * wl (ix2 q k) + bl (ix1 q)) + ∑ k : Fin 128, h (ix2 p k) * wr (ix2 q k) := by
  show (Host.dotGeneral dot_S100000x128_S128x47_S100000x47_1_0_0_1_n_n none a
          (transpose S128x47 [1, 0] wl transposes_S47x128_S128x47_1_0) (ix2 p q)
        + broadcastInDim S100000x47 ![0, 1] bcast_S1x47_S100000x47_0_1 (broadcastInDim S1x47 ![1] bcast_S47_S1x47_1 bl) (ix2 p q))
      + Host.dotGeneral dot_S100000x128_S128x47_S100000x47_1_0_0_1_n_n none h
          (transpose S128x47 [1, 0] wr transposes_S47x128_S128x47_1_0) (ix2 p q) = _
  rw [dot47_apply, dot47_apply, rowBcast47_apply]
  refine congrArg₂ (· + ·) (congrArg (· + bl (ix1 q)) (Finset.sum_congr rfl fun k _ => ?_)) (Finset.sum_congr rfl fun k _ => ?_)
  · exact congrArg (a (ix2 p k) * ·) (transpose47_apply wl k q)
  · exact congrArg (h (ix2 p k) * ·) (transpose47_apply wr k q)

/-- The mean aggregation at (p, q): the neighbour sum there divided by the in-degree of p or one, whichever is larger. -/
theorem agg_apply (h : FVec Ideal S100000x128 .f32) (e : IVec S2x1600000 32) (p : Fin 100000) (q : Fin 128) :
    agg h e (ix2 p q) = Ideal.div (summed h e (ix2 p q)) (max (degv e (ix1 p)) (Ideal.ofBits .f32 0x3F800000#32)) := by
  unfold agg
  generalize summed h e = s
  generalize degv e = d
  rw [hostDivf_apply, colBcast_apply, maximumf_apply, splat100000_apply, constant_apply]

/-- The column mean at q: zero plus the column's sum, divided by the number of rows. -/
theorem bnMean_apply (x : FVec Ideal S100000x128 .f32) (q : Fin 128) :
    bnMean x (ix1 q) = Ideal.div ((0 : EReal) + ∑ r : Fin 100000, x (ix2 r q)) (Ideal.ofBits .f32 0x47C35000#32) := by
  show Ideal.div
      (Host.reduceAdd (F := Ideal) x (constant (F := Ideal) S_ .f32 0x00000000#32) reducesTo_S100000x128_S128_d0 h_S_ (ix1 q))
      (broadcastInDim S128 ![] bcast_S_S128 (constant (F := Ideal) S_ .f32 0x47C35000#32) (ix1 q)) = _
  rw [colSum_apply, splat128_apply]
  rfl

/-- The centred entry at (p, q): the entry minus its column's mean. -/
theorem bnCentered_apply (x : FVec Ideal S100000x128 .f32) (p : Fin 100000) (q : Fin 128) :
    bnCentered x (ix2 p q) = x (ix2 p q) - bnMean x (ix1 q) := by
  show x (ix2 p q)
      - broadcastInDim S100000x128 ![0, 1] bcast_S1x128_S100000x128_0_1 (broadcastInDim S1x128 ![1] bcast_S128_S1x128_1 (bnMean x)) (ix2 p q) = _
  rw [rowBcast128_apply]

/-- The column variance at q: zero plus the sum of the column's squared centred entries, divided by the number of
    rows. -/
theorem bnVar_apply (x : FVec Ideal S100000x128 .f32) (q : Fin 128) :
    bnVar x (ix1 q)
      = Ideal.div ((0 : EReal) + ∑ r : Fin 100000, bnCentered x (ix2 r q) * bnCentered x (ix2 r q)) (Ideal.ofBits .f32 0x47C35000#32) := by
  show Ideal.div
      (Host.reduceAdd (F := Ideal) (mulf (bnCentered x) (bnCentered x)) (constant (F := Ideal) S_ .f32 0x00000000#32)
        reducesTo_S100000x128_S128_d0 h_S_ (ix1 q))
      (broadcastInDim S128 ![] bcast_S_S128 (constant (F := Ideal) S_ .f32 0x47C35000#32) (ix1 q)) = _
  rw [colSum_apply, splat128_apply]
  rfl

/-- The normalised layer at (p, q): the entry minus its column's mean M, times the reciprocal square root of the column's
    variance plus E, times g, plus b, or zero if that is negative; the mean and the variance with their column sums
    written out, N = 100000 and E = 1e-5 as the program's f32 literals. -/
theorem bnrelu_apply (x : FVec Ideal S100000x128 .f32) (g b : FVec Ideal S128 .f32) (p : Fin 100000) (q : Fin 128) :
    bnrelu x g b (ix2 p q)
      = max (((x (ix2 p q) - Ideal.div ((0 : EReal) + ∑ r : Fin 100000, x (ix2 r q)) (Ideal.ofBits .f32 0x47C35000#32))
            * Ideal.rsqrt (Ideal.div ((0 : EReal) + ∑ r : Fin 100000,
                (x (ix2 r q) - Ideal.div ((0 : EReal) + ∑ r : Fin 100000, x (ix2 r q)) (Ideal.ofBits .f32 0x47C35000#32))
                  * (x (ix2 r q) - Ideal.div ((0 : EReal) + ∑ r : Fin 100000, x (ix2 r q)) (Ideal.ofBits .f32 0x47C35000#32)))
                (Ideal.ofBits .f32 0x47C35000#32) + Ideal.ofBits .f32 0x3727C5AC#32))
          * g (ix1 q) + b (ix1 q)) 0 := by
  show max (((bnCentered x (ix2 p q))
        * broadcastInDim S100000x128 ![0, 1] bcast_S1x128_S100000x128_0_1
            (broadcastInDim S1x128 ![1] bcast_S128_S1x128_1
              (Host.rsqrt (addf (bnVar x) (broadcastInDim S128 ![] bcast_S_S128 (constant (F := Ideal) S_ .f32 0x3727C5AC#32))))) (ix2 p q))
        * broadcastInDim S100000x128 ![0, 1] bcast_S1x128_S100000x128_0_1 (broadcastInDim S1x128 ![1] bcast_S128_S1x128_1 g) (ix2 p q)
        + broadcastInDim S100000x128 ![0, 1] bcast_S1x128_S100000x128_0_1 (broadcastInDim S1x128 ![1] bcast_S128_S1x128_1 b) (ix2 p q))
      (broadcastInDim S100000x128 ![] bcast_S_S100000x128 (constant (F := Ideal) S_ .f32 0x00000000#32) (ix2 p q)) = _
  rw [rowBcast128_apply, rowBcast128_apply, rowBcast128_apply, splat2_apply]
  show max (((bnCentered x (ix2 p q))
        * Ideal.rsqrt (bnVar x (ix1 q) + broadcastInDim S128 ![] bcast_S_S128 (constant (F := Ideal) S_ .f32 0x3727C5AC#32) (ix1 q)))
        * g (ix1 q) + b (ix1 q)) (Ideal.ofBits .f32 0x00000000#32) = _
  rw [splat128_apply, bnVar_apply, bnCentered_apply, bnMean_apply, Ideal.ofBits_zero_f32]
  refine congrArg (fun s => max (((x (ix2 p q) - Ideal.div ((0 : EReal) + ∑ r : Fin 100000, x (ix2 r q)) (Ideal.ofBits .f32 0x47C35000#32)) * Ideal.rsqrt (Ideal.div ((0 : EReal) + s) (Ideal.ofBits .f32 0x47C35000#32) + Ideal.ofBits .f32 0x3727C5AC#32)) * g (ix1 q) + b (ix1 q)) 0) ?_
  refine Finset.sum_congr rfl fun r _ => ?_
  rw [bnCentered_apply, bnMean_apply]

end Cert.Sage.Ref

end
-- ==== Proof.RealArgs.lean ====
/-
  The precondition "every float input is finite", decoded at the extended reals: if the printed predicate (a conjunction
  of fourteen `jnp.all(|a| < +inf)`, one per float argument) is all ones, every entry of every float argument is a real
  number. An entry x with max x (-x) < ⊤ is neither ⊤ nor ⊥ (whose absolute value is ⊤ too), so it is a real.
-/
import proofs.«156934_j7851200217408_1_alg».proof.Pre_finite_inputs
import proofs.«156934_j7851200217408_1_alg».proof.Proof.Gen.Pre_finite_inputs
import Idealize.ShloMosaic.Lib.ReduceAll
import Idealize.ShloMosaic.Lib.ValueIdx
import Idealize.ShloMosaic.PureOps.Ideal
import Idealize.ShloMosaic.PureOps.Ideal.Laws

noncomputable section

namespace Cert.Sage.RealArgs

open Idealize.ShloMosaic Idealize.ShloMosaic.ValueIdx
open Cert.Pre_finite_inputs

/-- The rank-0 shape has one index. -/
instance : Subsingleton S_.Idx := ⟨fun a b => funext fun d => d.elim0⟩

/-- The f32 pattern 0x7F800000 is +∞. -/
theorem inf_bits : Ideal.ofBits .f32 0x7F800000#32 = (⊤ : EReal) := by
  simp [Ideal.ofBits, Ideal.ieee]

/-- An extended real whose absolute value is below +∞ is a real. -/
theorem real_of_abs_lt (x : EReal) (h : Ideal.cmp .olt (max x (-x)) (⊤ : EReal) = 1#1) : ∃ r : ℝ, x = (r : EReal) := by
  induction x using EReal.rec with
  | bot => simp [Ideal.cmp] at h
  | coe r => exact ⟨r, rfl⟩
  | top => simp [Ideal.cmp] at h

/-- One conjunct: `jnp.all(|a| < +inf)` being 1 makes every entry of `a` a real. -/
theorem real_of_all {s : Shape} {axes : List (Fin s.rank)} (a : FVec Ideal s .f32)
    (hb : S_.BroadcastsInDim s (![] : Fin 0 → Fin s.rank)) (hr : s.ReducesTo axes S_) (hu : 0 < S_.numel)
    (init : IVec S_ 1) (j : S_.Idx)
    (e : Host.reduce IntOp.andi
          (cmpf .olt (Host.absf a) (broadcastInDim s ![] hb (constant (F := Ideal) S_ .f32 0x7F800000#32))) init hr hu j = 1#1) :
    ∀ i, ∃ r : ℝ, a i = (r : EReal) := by
  intro i
  have h := Host.reduce_andi_all _ init hr hu j e i
  apply real_of_abs_lt
  rw [← inf_bits]
  exact h

/-- The precondition decoded: all fourteen float arguments are real at every entry. -/
theorem real_of_pre [Cert.Pre_finite_inputs.Facts] (a0 : FVec Ideal Cert.Pre_finite_inputs.S100000x128 .f32) (a1 : IVec Cert.Pre_finite_inputs.S2x1600000 32) (a2 : FVec Ideal Cert.Pre_finite_inputs.S128x128 .f32) (a3 : FVec Ideal Cert.Pre_finite_inputs.S128 .f32) (a4 : FVec Ideal Cert.Pre_finite_inputs.S128x128 .f32) (a5 : FVec Ideal Cert.Pre_finite_inputs.S128 .f32) (a6 : FVec Ideal Cert.Pre_finite_inputs.S128 .f32) (a7 : FVec Ideal Cert.Pre_finite_inputs.S128x128 .f32) (a8 : FVec Ideal Cert.Pre_finite_inputs.S128 .f32) (a9 : FVec Ideal Cert.Pre_finite_inputs.S128x128 .f32) (a10 : FVec Ideal Cert.Pre_finite_inputs.S128 .f32) (a11 : FVec Ideal Cert.Pre_finite_inputs.S128 .f32) (a12 : FVec Ideal Cert.Pre_finite_inputs.S47x128 .f32) (a13 : FVec Ideal Cert.Pre_finite_inputs.S47 .f32) (a14 : FVec Ideal Cert.Pre_finite_inputs.S47x128 .f32)
    (h : Cert.Pre_finite_inputs.fn (F := Ideal) a0 a1 a2 a3 a4 a5 a6 a7 a8 a9 a10 a11 a12 a13 a14 = fun _ => 1#1) :
    (∀ i, ∃ r : ℝ, a0 i = (r : EReal)) ∧
      (∀ i, ∃ r : ℝ, a2 i = (r : EReal)) ∧
      (∀ i, ∃ r : ℝ, a3 i = (r : EReal)) ∧
      (∀ i, ∃ r : ℝ, a4 i = (r : EReal)) ∧
      (∀ i, ∃ r : ℝ, a5 i = (r : EReal)) ∧
      (∀ i, ∃ r : ℝ, a6 i = (r : EReal)) ∧
      (∀ i, ∃ r : ℝ, a7 i = (r : EReal)) ∧
      (∀ i, ∃ r : ℝ, a8 i = (r : EReal)) ∧
      (∀ i, ∃ r : ℝ, a9 i = (r : EReal)) ∧
      (∀ i, ∃ r : ℝ, a10 i = (r : EReal)) ∧
      (∀ i, ∃ r : ℝ, a11 i = (r : EReal)) ∧
      (∀ i, ∃ r : ℝ, a12 i = (r : EReal)) ∧
      (∀ i, ∃ r : ℝ, a13 i = (r : EReal)) ∧
      (∀ i, ∃ r : ℝ, a14 i = (r : EReal)) := by
  have e := congrFun h ValueIdx.ix0
  dsimp only [Cert.Pre_finite_inputs.fn, Cert.Pre_finite_inputs.fn_part1, Cert.Pre_finite_inputs.fn_part2,
    Cert.Pre_finite_inputs.fn_part3, Cert.Pre_finite_inputs.fn_part4, andi] at e
  simp only [IntOp.andi_eq_one] at e
  obtain ⟨⟨⟨⟨⟨⟨⟨⟨⟨⟨⟨⟨⟨e0, e2⟩, e3⟩, e4⟩, e5⟩, e6⟩, e7⟩, e8⟩, e9⟩, e10⟩, e11⟩, e12⟩, e13⟩, e14⟩ := e
  exact ⟨real_of_all _ _ _ _ _ _ e0, real_of_all _ _ _ _ _ _ e2, real_of_all _ _ _ _ _ _ e3, real_of_all _ _ _ _ _ _ e4, real_of_all _ _ _ _ _ _ e5, real_of_all _ _ _ _ _ _ e6, real_of_all _ _ _ _ _ _ e7, real_of_all _ _ _ _ _ _ e8, real_of_all _ _ _ _ _ _ e9, real_of_all _ _ _ _ _ _ e10, real_of_all _ _ _ _ _ _ e11, real_of_all _ _ _ _ _ _ e12, real_of_all _ _ _ _ _ _ e13, real_of_all _ _ _ _ _ _ e14⟩

end Cert.Sage.RealArgs

end
-- ==== Proof.BnAlgebra.lean ====
/- The extended-real algebra of one mean-aggregation graph layer: mean aggregation over a neighbourhood, a linear map,
   batch normalisation with batch statistics, and a rectifier. Two arrangements of that arithmetic are stated here as
   plain functions of extended reals and shown equal once every number involved is a real:
   * the "scale and shift" arrangement folds the batch statistics into one multiplier `g · rsqrt(E[f²] − E[f]² + ε)`
     and one offset `b − E[f] · multiplier`;
   * the "centre, normalise, scale, shift" arrangement computes `((x − E[f]) · rsqrt(E[(f − E[f])²] + ε)) · g + b`.
   Both variances are the same non-negative real, so the reciprocal square root is taken of a positive real and the
   two affine forms agree by ring arithmetic. -/
import Idealize.ShloMosaic.PureOps.Ideal

noncomputable section

namespace Cert.Sage.Alg

open Idealize.ShloMosaic

/-! ### The three float literals -/

/-- The float `1.0`. -/
def oneLit : EReal := Ideal.ofBits .f32 0x3F800000#32
/-- The float `100000.0`, the number of rows a batch statistic averages over. -/
def nLit : EReal := Ideal.ofBits .f32 0x47C35000#32
/-- The float nearest `1e-5`, the variance offset. -/
def epsLit : EReal := Ideal.ofBits .f32 0x3727C5AC#32

theorem oneLit_eq : oneLit = 1 := by
  unfold oneLit
  simp [Ideal.ofBits, Ideal.ieee, -EReal.coe_mul]; norm_num

theorem nLit_eq : nLit = ((100000 : ℝ) : EReal) := by
  unfold nLit
  simp [Ideal.ofBits, Ideal.ieee, -EReal.coe_mul]; norm_num

theorem epsLit_pos : ∃ e : ℝ, 0 < e ∧ epsLit = (e : EReal) := by
  unfold epsLit
  simp [Ideal.ofBits, Ideal.ieee, -EReal.coe_mul]

/-! ### The two arrangements -/

/-- The batch mean: the sum (started from zero) divided by the row count. -/
def mean {ι : Type} [Fintype ι] (f : ι → EReal) : EReal := Ideal.div ((0 : EReal) + ∑ i, f i) nLit

/-- The folded multiplier `g · rsqrt(E[f²] − E[f]² + ε)`. -/
def scaleK {ι : Type} [Fintype ι] (f : ι → EReal) (g : EReal) : EReal :=
  g * Ideal.rsqrt ((mean (fun i => f i * f i) - mean f * mean f) + epsLit)

/-- The folded offset `b − E[f] · multiplier`. -/
def shiftK {ι : Type} [Fintype ι] (f : ι → EReal) (g b : EReal) : EReal := b - mean f * scaleK f g

/-- Scale, shift, rectify. -/
def outK {ι : Type} [Fintype ι] (f : ι → EReal) (g b x : EReal) : EReal := max (x * scaleK f g + shiftK f g b) 0

/-- Centre, normalise by the centred variance, scale, shift, rectify. -/
def outR {ι : Type} [Fintype ι] (f : ι → EReal) (g b x : EReal) : EReal :=
  max (((x - mean f) * Ideal.rsqrt (mean (fun i => (f i - mean f) * (f i - mean f)) + epsLit)) * g + b) 0

/-! ### Being a real, and its closure properties -/

/-- An extended real that is (the image of) a real. -/
def IsReal (z : EReal) : Prop := ∃ r : ℝ, z = (r : EReal)

theorem coe_real (r : ℝ) : IsReal (r : EReal) := ⟨r, rfl⟩

theorem add_real {a b : EReal} (ha : IsReal a) (hb : IsReal b) : IsReal (a + b) := by
  obtain ⟨r, rfl⟩ := ha; obtain ⟨s, rfl⟩ := hb; exact ⟨r + s, (EReal.coe_add r s).symm⟩

theorem mul_real {a b : EReal} (ha : IsReal a) (hb : IsReal b) : IsReal (a * b) := by
  obtain ⟨r, rfl⟩ := ha; obtain ⟨s, rfl⟩ := hb; exact ⟨r * s, (EReal.coe_mul r s).symm⟩

theorem sub_real {a b : EReal} (ha : IsReal a) (hb : IsReal b) : IsReal (a - b) := by
  obtain ⟨r, rfl⟩ := ha; obtain ⟨s, rfl⟩ := hb; exact ⟨r - s, (EReal.coe_sub r s).symm⟩

/-- The coercion commutes with the maximum (it is monotone). -/
theorem coe_max (x y : ℝ) : max (x : EReal) (y : EReal) = ((max x y : ℝ) : EReal) :=
  (EReal.coe_strictMono.monotone.map_max).symm

theorem max_zero_real {a : EReal} (ha : IsReal a) : IsReal (max a 0) := by
  obtain ⟨r, rfl⟩ := ha
  exact ⟨max r 0, by rw [← EReal.coe_zero, coe_max]⟩

/-- A finite sum of coercions is the coercion of the sum. -/
theorem coe_sum {κ : Type} (s : Finset κ) (a : κ → ℝ) :
    ∑ k ∈ s, ((a k : ℝ) : EReal) = ((∑ k ∈ s, a k : ℝ) : EReal) := by
  classical
  induction s using Finset.induction_on with
  | empty => simp
  | insert i s hi ih => rw [Finset.sum_insert hi, Finset.sum_insert hi, ih, EReal.coe_add]

theorem finset_sum_real {κ : Type} (s : Finset κ) (a : κ → EReal) (ha : ∀ k, IsReal (a k)) :
    IsReal (∑ k ∈ s, a k) := by
  choose r hr using ha
  exact ⟨∑ k ∈ s, r k, by rw [← coe_sum]; exact Finset.sum_congr rfl (fun k _ => hr k)⟩

theorem sum_real {κ : Type} (s : Finset κ) (a : κ → EReal) (ha : ∀ k, IsReal (a k)) :
    IsReal ((0 : EReal) + ∑ k ∈ s, a k) := by
  rw [zero_add]; exact finset_sum_real s a ha

theorem dot_real {κ : Type} [Fintype κ] (a b : κ → EReal) (ha : ∀ k, IsReal (a k)) (hb : ∀ k, IsReal (b k)) :
    IsReal (∑ k, a k * b k) :=
  finset_sum_real _ _ (fun k => mul_real (ha k) (hb k))

/-! ### Mean aggregation: multiplying by the reciprocal of the clamped degree is dividing by it -/

/-- The clamped degree `max k 1` is a real that is at least one. -/
theorem max_deg (k : ℕ) : max (((k : ℝ)) : EReal) oneLit = ((max (k : ℝ) 1 : ℝ) : EReal) := by
  rw [oneLit_eq, ← EReal.coe_one, coe_max]

theorem max_deg_ne (k : ℕ) : max (k : ℝ) 1 ≠ 0 :=
  (lt_of_lt_of_le one_pos (le_max_right _ _)).ne'

theorem agg_eq (S : EReal) (k : ℕ) :
    S * Ideal.div oneLit (max (((k : ℝ)) : EReal) oneLit) = Ideal.div S (max (((k : ℝ)) : EReal) oneLit) := by
  rw [max_deg, Ideal.div_coe (max_deg_ne k), Ideal.div_coe (max_deg_ne k), oneLit_eq, one_mul]

theorem agg_real (S : EReal) (hS : IsReal S) (k : ℕ) :
    IsReal (Ideal.div S (max (((k : ℝ)) : EReal) oneLit)) := by
  rw [max_deg, Ideal.div_coe (max_deg_ne k)]
  exact mul_real hS (coe_real _)

/-! ### Batch normalisation over reals -/

section Bn

variable {ι : Type} [Fintype ι]

/-- The real mean. -/
def muR (r : ι → ℝ) : ℝ := (∑ i, r i) / 100000

/-- The real centred variance. -/
def varR (r : ι → ℝ) : ℝ := (∑ i, (r i - muR r) * (r i - muR r)) / 100000

theorem mean_coe (r : ι → ℝ) : mean (fun i => ((r i : ℝ) : EReal)) = ((muR r : ℝ) : EReal) := by
  unfold mean muR
  rw [nLit_eq, Ideal.div_coe (by norm_num), coe_sum, zero_add, ← EReal.coe_mul, mul_one_div]

theorem meansq_coe (r : ι → ℝ) :
    mean (fun i => ((r i : ℝ) : EReal) * ((r i : ℝ) : EReal)) = (((∑ i, r i * r i) / 100000 : ℝ) : EReal) := by
  have h : (fun i => ((r i : ℝ) : EReal) * ((r i : ℝ) : EReal)) = fun i => ((r i * r i : ℝ) : EReal) :=
    funext fun i => (EReal.coe_mul _ _).symm
  rw [h, mean_coe]; rfl

theorem meandev_coe (r : ι → ℝ) :
    mean (fun i => (((r i : ℝ) : EReal) - mean (fun i => ((r i : ℝ) : EReal))) *
      (((r i : ℝ) : EReal) - mean (fun i => ((r i : ℝ) : EReal)))) = ((varR r : ℝ) : EReal) := by
  have h : (fun i => (((r i : ℝ) : EReal) - mean (fun i => ((r i : ℝ) : EReal))) *
      (((r i : ℝ) : EReal) - mean (fun i => ((r i : ℝ) : EReal)))) =
      fun i => (((r i - muR r) * (r i - muR r) : ℝ) : EReal) := by
    funext i; rw [mean_coe, ← EReal.coe_sub, ← EReal.coe_mul]
  rw [h, mean_coe]; rfl

/-- The mean of squares less the squared mean is the centred variance (the row count is 100000). -/
theorem var_eq (hc : (Fintype.card ι : ℝ) = 100000) (r : ι → ℝ) :
    (∑ i, r i * r i) / 100000 - muR r * muR r = varR r := by
  have hS : ∑ i, r i = 100000 * muR r := by unfold muR; ring
  have hterm : ∀ i, (r i - muR r) * (r i - muR r) = r i * r i - 2 * muR r * r i + muR r * muR r :=
    fun i => by ring
  unfold varR
  simp only [hterm, Finset.sum_add_distrib, Finset.sum_sub_distrib, ← Finset.mul_sum, Finset.sum_const,
    Finset.card_univ, nsmul_eq_mul, hc, hS]
  ring

theorem varR_nonneg (r : ι → ℝ) : 0 ≤ varR r :=
  div_nonneg (Finset.sum_nonneg fun i _ => mul_self_nonneg _) (by norm_num)

/-- The reciprocal square root of a positive real. -/
theorem rsqrt_pos {t : ℝ} (ht : 0 < t) : Ideal.rsqrt (t : EReal) = (((Real.sqrt t)⁻¹ : ℝ) : EReal) := by
  rw [Ideal.rsqrt_coe, if_neg (not_lt.mpr ht.le), if_neg ht.ne']

/-- The common real value of the two arrangements. -/
def outV (r : ι → ℝ) (e γ β ξ : ℝ) : ℝ := max (((ξ - muR r) * (Real.sqrt (varR r + e))⁻¹) * γ + β) 0

theorem outR_coe (r : ι → ℝ) {e : ℝ} (he : 0 < e) (hε : epsLit = (e : EReal)) (γ β ξ : ℝ) :
    outR (fun i => ((r i : ℝ) : EReal)) γ β ξ = ((outV r e γ β ξ : ℝ) : EReal) := by
  have hpos : 0 < varR r + e := add_pos_of_nonneg_of_pos (varR_nonneg r) he
  unfold outR outV
  rw [meandev_coe, mean_coe, hε, ← EReal.coe_add, rsqrt_pos hpos, ← EReal.coe_sub, ← EReal.coe_mul, ← EReal.coe_mul,
    ← EReal.coe_add, ← EReal.coe_zero, coe_max]

theorem outK_coe (hc : (Fintype.card ι : ℝ) = 100000) (r : ι → ℝ) {e : ℝ} (he : 0 < e) (hε : epsLit = (e : EReal))
    (γ β ξ : ℝ) : outK (fun i => ((r i : ℝ) : EReal)) γ β ξ = ((outV r e γ β ξ : ℝ) : EReal) := by
  have hpos : 0 < varR r + e := add_pos_of_nonneg_of_pos (varR_nonneg r) he
  unfold outK shiftK scaleK outV
  rw [meansq_coe, mean_coe, hε, ← EReal.coe_mul, ← EReal.coe_sub, var_eq hc, ← EReal.coe_add, rsqrt_pos hpos,
    ← EReal.coe_mul, ← EReal.coe_mul, ← EReal.coe_mul, ← EReal.coe_sub, ← EReal.coe_add, ← EReal.coe_zero, coe_max]
  congr 2; ring

theorem bn_eq (hc : (Fintype.card ι : ℝ) = 100000) (f : ι → EReal) (hf : ∀ i, IsReal (f i)) (g b x : EReal)
    (hg : IsReal g) (hb : IsReal b) (hx : IsReal x) : outK f g b x = outR f g b x := by
  choose r hr using hf
  obtain rfl : f = fun i => ((r i : ℝ) : EReal) := funext hr
  obtain ⟨γ, rfl⟩ := hg; obtain ⟨β, rfl⟩ := hb; obtain ⟨ξ, rfl⟩ := hx
  obtain ⟨e, he, hε⟩ := epsLit_pos
  rw [outK_coe hc r he hε, outR_coe r he hε]

theorem outR_real (hc : (Fintype.card ι : ℝ) = 100000) (f : ι → EReal) (hf : ∀ i, IsReal (f i)) (g b x : EReal)
    (hg : IsReal g) (hb : IsReal b) (hx : IsReal x) : IsReal (outR f g b x) := by
  choose r hr using hf
  obtain rfl : f = fun i => ((r i : ℝ) : EReal) := funext hr
  obtain ⟨γ, rfl⟩ := hg; obtain ⟨β, rfl⟩ := hb; obtain ⟨ξ, rfl⟩ := hx
  obtain ⟨e, he, hε⟩ := epsLit_pos
  exact ⟨_, outR_coe r he hε γ β ξ⟩

end Bn

end Cert.Sage.Alg

end
-- ==== Proof.KHostIdx.lean ====
/-
  The host operations between the kernel launches, read at one element over the extended reals: the reciprocal of the
  clamped degree, the mean aggregate as the neighbour sum times that reciprocal, a linear combine as two sums over the
  128 input features against the weights read at (output, input) plus the bias, the batch norm's scale and shift from
  the column sums, and a whole layer as the folded scale-shift-rectify form of its own linear combine.
-/
import proofs.«156934_j7851200217408_1_alg».proof.Proof.KHost
import proofs.«156934_j7851200217408_1_alg».proof.Proof.Spec
import proofs.«156934_j7851200217408_1_alg».proof.Proof.BnAlgebra
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.Sage.KHost

open Cert.KernelIdeal Cert.KernelIdeal.Gen Idealize.ShloMosaic Idealize.ShloMosaic.ValueIdx Cert.Sage

/-! ## Layout steps read at an index -/

section Layout
variable {α : Type}

/-- The transposed square weight at (input k, output q) is the weight at (q, k). -/
theorem transpose128_apply (w : S128x128.Idx → α) (k q : Fin 128) :
    transpose S128x128 [1, 0] w transposes_S128x128_S128x128_1_0 (ix2 k q) = w (ix2 q k) :=
  transpose_ix2_apply w transposes_S128x128_S128x128_1_0 k q

/-- The transposed last weight at (input k, output q) is the weight at (q, k). -/
theorem transpose47_apply (w : S47x128.Idx → α) (k : Fin 128) (q : Fin 47) :
    transpose S128x47 [1, 0] w transposes_S47x128_S128x47_1_0 (ix2 k q) = w (ix2 q k) :=
  transpose_ix2_apply w transposes_S47x128_S128x47_1_0 k q

/-- A vector of 100000 row values spread along the columns reads, at (p, q), its entry p. -/
theorem colBcast_apply (v : S100000.Idx → α) (p : Fin 100000) (q : Fin 128) :
    broadcastInDim S100000x128 ![0, 1] bcast_S100000x1_S100000x128_0_1 (broadcastInDim S100000x1 ![0] bcast_S100000_S100000x1_0 v) (ix2 p q)
      = v (ix1 p) :=
  (broadcastInDim_apply _ bcast_S100000x1_S100000x128_0_1 _ (ix2 p q) (ix2 p (0 : Fin 1)) (fun a => match a with
    | ⟨0, _⟩ => by show p.val = if (100000 : Nat) = 1 then 0 else p.val; rw [if_neg (by decide)]
    | ⟨1, _⟩ => by show (0 : Nat) = if (1 : Nat) = 1 then 0 else q.val; rw [if_pos rfl])).trans
  (broadcastInDim_apply _ bcast_S100000_S100000x1_0 v (ix2 p (0 : Fin 1)) (ix1 p) (fun a => match a with
    | ⟨0, _⟩ => by show p.val = if (100000 : Nat) = 1 then 0 else p.val; rw [if_neg (by decide)]))

/-- A scalar spread over a vector of 128 reads the scalar everywhere. -/
theorem splat128_apply (c : S_.Idx → α) (i : S128.Idx) :
    broadcastInDim S128 ![] bcast_S_S128 c i = c ix0 :=
  broadcastInDim_apply _ bcast_S_S128 c i ix0 (fun a => a.elim0)

/-- A scalar spread over a vector of 100000 reads the scalar everywhere. -/
theorem splat100000_apply (c : S_.Idx → α) (i : S100000.Idx) :
    broadcastInDim S100000 ![] bcast_S_S100000 c i = c ix0 :=
  broadcastInDim_apply _ bcast_S_S100000 c i ix0 (fun a => a.elim0)

end Layout

/-! ## The host's own pointwise operations at an index -/

/-- The host's quotient at an index is the quotient of the elements. -/
theorem hostDivf_apply {s : Shape} (a b : FVec Ideal s .f32) (i : s.Idx) : Host.divf a b i = Ideal.div (a i) (b i) := rfl

/-- The host's reciprocal square root at an index is that of the element. -/
theorem hostRsqrt_apply {s : Shape} (a : FVec Ideal s .f32) (i : s.Idx) : Host.rsqrt a i = Ideal.rsqrt (a i) := rfl

/-! ## The mean aggregation -/

/-- The reciprocal of the clamped degree at node p. -/
theorem invDeg_apply (v1 : IVec S1600000 32) (p : Fin 100000) :
    invDeg v1 (ix1 p) = Ideal.div Alg.oneLit (max (degK v1 (ix1 p)) Alg.oneLit) := by
  unfold invDeg Alg.oneLit
  rw [hostDivf_apply, maximumf_apply, splat100000_apply, constant_apply]

/-- The mean aggregate at (p, q): the neighbour sum times node p's multiplier. -/
theorem aggK_apply (h : FVec Ideal S100000x128 .f32) (v1 v3 : IVec S1600000 32) (v11 : FVec Ideal S100000 .f32)
    (p : Fin 100000) (q : Fin 128) :
    aggK h v1 v3 v11 (ix2 p q) = summedK h v1 v3 (ix2 p q) * v11 (ix1 p) := by
  unfold aggK
  rw [mulf_apply, colBcast_apply]

/-! ## The linear combines -/

/-- A layer's linear combine at (p, q): the sum over the inputs of the aggregate times the left weight read at
    (q, k), plus the same sum of the features against the right weight, plus the bias. -/
theorem linK_apply (h : FVec Ideal S100000x128 .f32) (e : IVec S2x1600000 32) (wl : FVec Ideal S128x128 .f32)
    (bl : FVec Ideal S128 .f32) (wr : FVec Ideal S128x128 .f32) (p : Fin 100000) (q : Fin 128) :
    linK h e wl bl wr (ix2 p q)
      = (∑ k : Fin 128, aggE h e (ix2 p k) * wl (ix2 q k) + ∑ k : Fin 128, h (ix2 p k) * wr (ix2 q k)) + bl (ix1 q) := by
  unfold linK
  refine (Spec.lin_apply _ _ _ _ _ p q).trans ?_
  unfold Spec.linE
  refine congrArg₂ (· + ·) (congrArg₂ (· + ·) (Finset.sum_congr rfl fun k _ => ?_) (Finset.sum_congr rfl fun k _ => ?_))
    (shapeCast_a_1a_apply bl shapeCasts_S128_S1x128 (0 : Fin 1) q)
  · exact congrArg (aggE h e (ix2 p k) * ·) (transpose128_apply wl k q)
  · exact congrArg (h (ix2 p k) * ·) (transpose128_apply wr k q)

/-- The last linear combine at (p, q), q among the 47 outputs: the same reading. -/
theorem lin47K_apply (h : FVec Ideal S100000x128 .f32) (e : IVec S2x1600000 32) (wl : FVec Ideal S47x128 .f32)
    (bl : FVec Ideal S47 .f32) (wr : FVec Ideal S47x128 .f32) (p : Fin 100000) (q : Fin 47) :
    lin47K h e wl bl wr (ix2 p q)
      = (∑ k : Fin 128, aggE h e (ix2 p k) * wl (ix2 q k) + ∑ k : Fin 128, h (ix2 p k) * wr (ix2 q k)) + bl (ix1 q) := by
  unfold lin47K
  refine (Spec.lin_apply _ _ _ _ _ p q).trans ?_
  unfold Spec.linE
  refine congrArg₂ (· + ·) (congrArg₂ (· + ·) (Finset.sum_congr rfl fun k _ => ?_) (Finset.sum_congr rfl fun k _ => ?_))
    (shapeCast_a_1a_apply bl shapeCasts_S47_S1x47 (0 : Fin 1) q)
  · exact congrArg (aggE h e (ix2 p k) * ·) (transpose47_apply wl k q)
  · exact congrArg (h (ix2 p k) * ·) (transpose47_apply wr k q)

/-! ## The batch norm's scale and shift -/

/-- The row count spread over a vector of 128 reads the row count everywhere. -/
theorem nSplat_apply (i : S128.Idx) :
    broadcastInDim S128 ![] bcast_S_S128 (constant (F := Ideal) S_ .f32 0x47C35000#32) i = Alg.nLit :=
  splat128_apply _ i

/-- The variance offset spread over a vector of 128 reads the offset everywhere. -/
theorem epsSplat_apply (i : S128.Idx) :
    broadcastInDim S128 ![] bcast_S_S128 (constant (F := Ideal) S_ .f32 0x3727C5AC#32) i = Alg.epsLit :=
  splat128_apply _ i

/-- The column mean at q: the column sum over the row count. -/
theorem muV_apply (s1 : FVec Ideal S1x128 .f32) (q : Fin 128) :
    muV s1 (ix1 q) = Ideal.div (s1 (ix2 0 q)) Alg.nLit := by
  unfold muV
  rw [hostDivf_apply, nSplat_apply, shapeCast_1a_a_apply]

/-- The scale at q: g times the reciprocal square root of the mean of squares less the squared mean plus the offset. -/
theorem scaleV_apply (s1 s2 : FVec Ideal S1x128 .f32) (g : FVec Ideal S128 .f32) (q : Fin 128) :
    scaleV s1 s2 g (ix1 q) = g (ix1 q) * Ideal.rsqrt ((Ideal.div (s2 (ix2 0 q)) Alg.nLit
      - Ideal.div (s1 (ix2 0 q)) Alg.nLit * Ideal.div (s1 (ix2 0 q)) Alg.nLit) + Alg.epsLit) := by
  unfold scaleV
  rw [mulf_apply, hostRsqrt_apply, addf_apply, subf_apply, hostDivf_apply, mulf_apply, muV_apply, nSplat_apply,
    epsSplat_apply, shapeCast_1a_a_apply]

/-- The shift at q: b less the column mean times the scale. -/
theorem shiftV_apply (s1 s2 : FVec Ideal S1x128 .f32) (g b : FVec Ideal S128 .f32) (q : Fin 128) :
    shiftV s1 s2 g b (ix1 q) = b (ix1 q) - Ideal.div (s1 (ix2 0 q)) Alg.nLit * scaleV s1 s2 g (ix1 q) := by
  unfold shiftV
  rw [subf_apply, mulf_apply, muV_apply]

/-- The scale laid out as one row, at (0, q). -/
theorem scale2d_apply (s1 s2 : FVec Ideal S1x128 .f32) (g : FVec Ideal S128 .f32) (q : Fin 128) :
    scale2d s1 s2 g (ix2 0 q) = g (ix1 q) * Ideal.rsqrt ((Ideal.div (s2 (ix2 0 q)) Alg.nLit
      - Ideal.div (s1 (ix2 0 q)) Alg.nLit * Ideal.div (s1 (ix2 0 q)) Alg.nLit) + Alg.epsLit) := by
  unfold scale2d
  exact (shapeCast_a_1a_apply _ shapeCasts_S128_S1x128 (0 : Fin 1) q).trans (scaleV_apply s1 s2 g q)

/-- The shift laid out as one row, at (0, q). -/
theorem shift2d_apply (s1 s2 : FVec Ideal S1x128 .f32) (g b : FVec Ideal S128 .f32) (q : Fin 128) :
    shift2d s1 s2 g b (ix2 0 q) = b (ix1 q) - Ideal.div (s1 (ix2 0 q)) Alg.nLit * scale2d s1 s2 g (ix2 0 q) := by
  unfold shift2d
  refine (shapeCast_a_1a_apply _ shapeCasts_S128_S1x128 (0 : Fin 1) q).trans ?_
  rw [shiftV_apply, scale2d_apply, scaleV_apply]

/-! ## A whole layer -/

/-- The column sum from zero, at (0, q). -/
theorem colSum_apply (x : Spec.M 100000 128) (q : Fin 128) :
    Spec.colSum x (ix2 0 q) = (0 : EReal) + ∑ r : Fin 100000, x (ix2 r q) := rfl

/-- The column sum of squares from zero, at (0, q). -/
theorem colSumSq_apply (x : Spec.M 100000 128) (q : Fin 128) :
    Spec.colSumSq x (ix2 0 q) = (0 : EReal) + ∑ r : Fin 100000, x (ix2 r q) * x (ix2 r q) := rfl

/-- Scale, shift and rectify by the column statistics of x itself, at (p, q): the folded form over column q of x. -/
theorem bnSelf_apply (x : Spec.M 100000 128) (g b : FVec Ideal S128 .f32) (p : Fin 100000) (q : Fin 128) :
    Spec.bnRelu x (scale2d (Spec.colSum x) (Spec.colSumSq x) g) (shift2d (Spec.colSum x) (Spec.colSumSq x) g b) (ix2 p q)
      = Alg.outK (fun r : Fin 100000 => x (ix2 r q)) (g (ix1 q)) (b (ix1 q)) (x (ix2 p q)) := by
  rw [Spec.bnRelu_apply, shift2d_apply, scale2d_apply, colSum_apply, colSumSq_apply]
  unfold Alg.outK Alg.shiftK Alg.scaleK Alg.mean
  rfl

/-- A layer at (p, q): the folded scale-shift-rectify form of its own linear combine's column q, at the combine's
    entry (p, q). -/
theorem layerK_apply (h : FVec Ideal S100000x128 .f32) (e : IVec S2x1600000 32) (wl : FVec Ideal S128x128 .f32)
    (bl : FVec Ideal S128 .f32) (wr : FVec Ideal S128x128 .f32) (g b : FVec Ideal S128 .f32) (p : Fin 100000) (q : Fin 128) :
    layerK h e wl bl wr g b (ix2 p q)
      = Alg.outK (fun r : Fin 100000 => linK h e wl bl wr (ix2 r q)) (g (ix1 q)) (b (ix1 q)) (linK h e wl bl wr (ix2 p q)) := by
  unfold layerK
  exact bnSelf_apply (linK h e wl bl wr) g b p q

end Cert.Sage.KHost

end
-- ==== Proof.LibGatherScatter.lean ====
/-
  Gathers of rows and of entries by an array of start indices, the scatter-add that accumulates rows or entries at
  such indices, and two facts about sums of extended reals.

  A row gather of a matrix x : [N, C] at start indices idx : [R, 1] has result row e equal to the row of x whose number
  is idx[e, 0] read as a signed integer and clamped into [0, N − 1]; a vector gather reads one entry the same way.
  A scatter of updates : [R, C] into an operand [N, C] at the same kind of indices sends update element (e, f) to operand
  element (n, g) exactly when idx[e, 0], read signed and NOT clamped, is n, and f = g; a start index outside [0, N − 1]
  sends its update nowhere.  Multiplication by a non-negative real distributes over a finite sum of extended reals, and
  a sum of ones over a finite set is the number of its elements.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.Lib.GatherScatter

open Idealize.ShloMosaic Idealize.ShloMosaic.ValueIdx

/-! ## Row gather: x[idx] of a matrix -/

section Gather
variable {α : Type}

/-- The dimension numbers of a row gather: operand [N, C], start indices [R, 1] (the index vector on axis 1, of length
    one, naming operand axis 0), result [R, C]; operand axis 0 is collapsed (slice size 1), operand axis 1 is the result's
    offset axis 1 (slice size C). -/
abbrev rowsDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The row gather read at (e, f): entry f of the operand's row idx[e, 0], the start index read signed and clamped into
    [0, N − 1]. -/
theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (f : Fin C) :
    Host.gather (rowsDims N R C wf) x idx (ix2 e f)
      = x (ix2 ⟨min (idx (ix2 e (0 : Fin 1))).toInt.toNat (N - 1), by omega⟩ f) := by
  unfold Host.gather
  congr 1
  funext a
  refine Fin.ext ?_
  match a with
  | ⟨0, _⟩ =>
    show (rowsDims N R C wf).start (ix2 e f) idx 0 + (rowsDims N R C wf).batchCoord (ix2 e f) 0
      + (rowsDims N R C wf).offCoord (ix2 e f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N R C wf).startIndexMap from List.mem_singleton.mpr rfl)]
    have hsi : (rowsDims N R C wf).siIdx (ix2 e f) ⟨List.idxOf (0 : Fin 2) (rowsDims N R C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowsDims N R C wf).start (ix2 e f) idx 1 + (rowsDims N R C wf).batchCoord (ix2 e f) 1
      + (rowsDims N R C wf).offCoord (ix2 e f) 1 = _
    rw [GatherDims.batchCoord_eq_zero _ _ _ List.not_mem_nil]
    have hst : (rowsDims N R C wf).start (ix2 e f) idx 1 = 0 := by
      unfold GatherDims.start
      rw [dif_neg (show (1 : Fin 2) ∉ (rowsDims N R C wf).startIndexMap from
        (by decide : (1 : Fin 2) ∉ ([0] : List (Fin 2))))]
    rw [hst]
    simp only [Nat.add_zero, Nat.zero_add]
    rfl

/-! ## Vector gather: x[idx] of a flat array at a column of start indices -/

/-- The dimension numbers of a vector gather: operand [N], start indices [R, 1] (the index vector on axis 1, of length
    one), result [R]; the operand's one axis is collapsed. -/
abbrev vecDims (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- The vector gather read at e: the operand's entry idx[e, 0], the start index read signed and clamped into
    [0, N − 1]. -/
theorem gather_vec_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (e : Fin R) :
    Host.gather (vecDims N R wf) x idx (ix1 e)
      = x (ix1 ⟨min (idx (ix2 e (0 : Fin 1))).toInt.toNat (N - 1), by omega⟩) := by
  unfold Host.gather
  congr 1
  funext a
  obtain rfl : a = 0 := Subsingleton.elim _ _
  refine Fin.ext ?_
  show (vecDims N R wf).start (ix1 e) idx 0 + (vecDims N R wf).batchCoord (ix1 e) 0
    + (vecDims N R wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N R wf).startIndexMap from List.mem_singleton.mpr rfl)]
  have hsi : (vecDims N R wf).siIdx (ix1 e) ⟨List.idxOf (0 : Fin 1) (vecDims N R wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Gather

/-! ## Where a scatter's update lands -/

section Scatter

/-- An update element lands at operand element i exactly when, on every operand axis, the window's start (read signed,
    not clamped) plus the window coordinate is i's coordinate; a sum outside the operand's extent is no coordinate, so the
    update is then dropped. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  constructor
  · intro h
    split at h
    · rename_i hh
      intro a
      have h1 := congrArg Fin.val (congrFun (Option.some.inj h) a)
      simp only at h1
      have h2 := hh a
      omega
    · exact absurd h (by simp)
  · intro h
    have hh : ∀ a, 0 ≤ d.start j idx a + (d.window j a : Int) ∧ d.start j idx a + (d.window j a : Int) < s.size a := by
      intro a
      have h1 := h a
      have h2 := (i a).isLt
      omega
    rw [dif_pos hh]
    congr 1
    funext a
    refine Fin.ext ?_
    have h1 := h a
    simp only
    omega

/-- The dimension numbers of a row scatter: operand [N, C], scatter indices [R, 1] (the index vector on axis 1, of length
    one, naming operand axis 0), updates [R, C]; the updates' axis 1 is the window axis and goes to operand axis 1, operand
    axis 0 is an inserted window axis. -/
abbrev rowsScatter (N R C : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- Update element (e, f) of a row scatter lands at operand element (n, g) exactly when the scatter index idx[e, 0], read
    signed, is n, and the columns agree. -/
theorem rows_resultIdx?_eq_some_iff {N R C w : Nat}
    (wf : ScatterDims.WF ⟨2, ![N, C]⟩ ⟨2, ![R, 1]⟩ ⟨2, ![R, C]⟩ [1] [0] [0] 1)
    (idx : IVec ⟨2, ![R, 1]⟩ w) (e : Fin R) (f : Fin C) (n : Fin N) (g : Fin C) :
    (rowsScatter N R C wf).resultIdx? (ix2 e f) idx = some (ix2 n g)
      ↔ (idx (ix2 e (0 : Fin 1))).toInt = (n.val : Int) ∧ f = g := by
  have hs0 : (rowsScatter N R C wf).start (ix2 e f) idx 0 = (idx (ix2 e (0 : Fin 1))).toInt := by
    unfold ScatterDims.start
    rw [dif_pos (show (0 : Fin 2) ∈ (rowsScatter N R C wf).scatterDimsToOperandDims from List.mem_singleton.mpr rfl)]
    have hsi : (rowsScatter N R C wf).siIdx (ix2 e f)
        ⟨List.idxOf (0 : Fin 2) (rowsScatter N R C wf).scatterDimsToOperandDims,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hs1 : (rowsScatter N R C wf).start (ix2 e f) idx 1 = 0 := by
    unfold ScatterDims.start
    rw [dif_neg (show (1 : Fin 2) ∉ (rowsScatter N R C wf).scatterDimsToOperandDims from
      (by decide : (1 : Fin 2) ∉ ([0] : List (Fin 2))))]
  have hw0 : (rowsScatter N R C wf).window (ix2 e f) 0 = 0 := by
    unfold ScatterDims.window
    rw [dif_neg (show (0 : Fin 2) ∉ (rowsScatter N R C wf).sKept from
      (by decide : (0 : Fin 2) ∉ (List.finRange 2).filter (· ∉ ([0] : List (Fin 2)))))]
  have hw1 : (rowsScatter N R C wf).window (ix2 e f) 1 = f.val := by
    unfold ScatterDims.window
    rw [dif_pos (show (1 : Fin 2) ∈ (rowsScatter N R C wf).sKept from
      (by decide : (1 : Fin 2) ∈ (List.finRange 2).filter (· ∉ ([0] : List (Fin 2)))))]
    rfl
  rw [resultIdx?_eq_some_iff, Fin.forall_fin_two, hs0, hs1, hw0, hw1]
  show (idx (ix2 e (0 : Fin 1))).toInt + ((0 : Nat) : Int) = (n.val : Int) ∧ (0 : Int) + (f.val : Int) = (g.val : Int) ↔ _
  constructor
  · rintro ⟨h0, h1⟩
    exact ⟨by omega, Fin.ext (by omega)⟩
  · rintro ⟨h0, rfl⟩
    exact ⟨by omega, by omega⟩

/-- The dimension numbers of a vector scatter: operand [N], scatter indices [R, 1] (the index vector on axis 1, of length
    one), updates [R]; no window axis, the operand's one axis is an inserted window axis. -/
abbrev vecScatter (N R : Nat)
    (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

/-- Update element e of a vector scatter lands at operand element n exactly when the scatter index idx[e, 0], read signed,
    is n. -/
theorem vec_resultIdx?_eq_some_iff {N R w : Nat}
    (wf : ScatterDims.WF ⟨1, ![N]⟩ ⟨2, ![R, 1]⟩ ⟨1, ![R]⟩ [] [0] [0] 1)
    (idx : IVec ⟨2, ![R, 1]⟩ w) (e : Fin R) (n : Fin N) :
    (vecScatter N R wf).resultIdx? (ix1 e) idx = some (ix1 n)
      ↔ (idx (ix2 e (0 : Fin 1))).toInt = (n.val : Int) := by
  have hs0 : (vecScatter N R wf).start (ix1 e) idx 0 = (idx (ix2 e (0 : Fin 1))).toInt := by
    unfold ScatterDims.start
    rw [dif_pos (show (0 : Fin 1) ∈ (vecScatter N R wf).scatterDimsToOperandDims from List.mem_singleton.mpr rfl)]
    have hsi : (vecScatter N R wf).siIdx (ix1 e)
        ⟨List.idxOf (0 : Fin 1) (vecScatter N R wf).scatterDimsToOperandDims,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hw0 : (vecScatter N R wf).window (ix1 e) 0 = 0 := by
    unfold ScatterDims.window
    rw [dif_neg (show (0 : Fin 1) ∉ (vecScatter N R wf).sKept from
      (by decide : (0 : Fin 1) ∉ (List.finRange 1).filter (· ∉ ([0] : List (Fin 1)))))]
  rw [resultIdx?_eq_some_iff, Fin.forall_fin_one, hs0, hw0]
  show (idx (ix2 e (0 : Fin 1))).toInt + ((0 : Nat) : Int) = (n.val : Int) ↔ _
  constructor
  · intro h; omega
  · intro h; omega

end Scatter

/-! ## Sums of extended reals -/

section Sums

/-- Multiplication by a non-negative real distributes over a finite sum of extended reals (it does not for a general
    extended real factor: ⊤ + ⊥ = ⊥ while a negative factor turns it round, and 0 · ⊤ = 0). -/
theorem sum_mul_coe_of_nonneg {ι : Type*} (s : Finset ι) (a : ι → EReal) {r : ℝ} (hr : 0 ≤ r) :
    (∑ j ∈ s, a j) * (r : EReal) = ∑ j ∈ s, a j * (r : EReal) := by
  classical
  induction s using Finset.induction_on with
  | empty => simp
  | insert k s hk ih =>
    rw [Finset.sum_insert hk, Finset.sum_insert hk,
      EReal.right_distrib_of_nonneg_of_ne_top (EReal.coe_nonneg.mpr hr) (EReal.coe_ne_top r), ih]

/-- The same with the sum started at zero, the form a scatter-add into a zero array takes. -/
theorem zero_add_sum_mul_coe_of_nonneg {ι : Type*} (s : Finset ι) (a : ι → EReal) {r : ℝ} (hr : 0 ≤ r) :
    ((0 : EReal) + ∑ j ∈ s, a j) * (r : EReal) = (0 : EReal) + ∑ j ∈ s, a j * (r : EReal) := by
  rw [zero_add, zero_add, sum_mul_coe_of_nonneg s a hr]

end Sums

end Cert.Lib.GatherScatter

end
-- ==== Proof.LibScatterSum.lean ====
/-
  The accumulating scatter read at one element as a sum over the updates that land there, and the degree count.

  A scatter-add of updates : [R, C] into an operand [N, C] at scatter indices idx : [R, 1] leaves at element (n, g) the
  operand's element plus the sum, over the edges e whose index idx[e, 0] (read signed) is n, of update element (e, g):
  an update row goes to one operand row, column by column, and an index outside [0, N − 1] goes nowhere.  The vector
  form is the same without the column.  Scattering ones into zeros therefore counts, at n, the edges whose index is n:
  a natural number, whose reciprocal square root is a non-negative real as soon as the count is positive.
-/
import proofs.«156934_j7851200217408_1_alg».proof.Proof.LibGatherScatter

noncomputable section

open scoped BigOperators

namespace Cert.Lib.GatherScatter

open Idealize.ShloMosaic Idealize.ShloMosaic.ValueIdx

/-! ## A sum over a rank-1 index set -/

/-- A rank-1 index set is its coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## The scatter-add at an element: a sum over the edges that land there -/

/-- Row scatter-add at (n, g): the operand's element plus the sum of update elements (e, g) over the edges e whose
    scatter index, read signed, is n. -/
theorem scatterAdd_rows_apply {N R C w : Nat}
    (wf : ScatterDims.WF ⟨2, ![N, C]⟩ ⟨2, ![R, 1]⟩ ⟨2, ![R, C]⟩ [1] [0] [0] 1)
    (x : (⟨2, ![N, C]⟩ : Shape).Idx → EReal) (idx : IVec ⟨2, ![R, 1]⟩ w)
    (upd : (⟨2, ![R, C]⟩ : Shape).Idx → EReal) (n : Fin N) (g : Fin C) :
    Ideal.hostScatterAdd (rowsScatter N R C wf) x idx upd (ix2 n g)
      = x (ix2 n g) + ∑ e ∈ Finset.univ.filter
          (fun e : Fin R => (idx (ix2 e (0 : Fin 1))).toInt = (n.val : Int)), upd (ix2 e g) := by
  unfold Ideal.hostScatterAdd
  congr 1
  rw [Finset.sum_filter, sum_idx2, Finset.sum_filter]
  refine Finset.sum_congr rfl fun a _ => ?_
  by_cases h : (idx (ix2 a (0 : Fin 1))).toInt = (n.val : Int)
  · rw [if_pos h, Finset.sum_eq_single g]
    · rw [if_pos ((rows_resultIdx?_eq_some_iff wf idx a g n g).mpr ⟨h, rfl⟩)]
    · intro b _ hb
      rw [if_neg (fun hh => hb ((rows_resultIdx?_eq_some_iff wf idx a b n g).mp hh).2)]
    · intro hg
      exact absurd (Finset.mem_univ g) hg
  · rw [if_neg h]
    refine Finset.sum_eq_zero fun b _ => ?_
    rw [if_neg (fun hh => h ((rows_resultIdx?_eq_some_iff wf idx a b n g).mp hh).1)]

/-- Vector scatter-add at n: the operand's element plus the sum of the update elements e over the edges e whose scatter
    index, read signed, is n. -/
theorem scatterAdd_vec_apply {N R w : Nat}
    (wf : ScatterDims.WF ⟨1, ![N]⟩ ⟨2, ![R, 1]⟩ ⟨1, ![R]⟩ [] [0] [0] 1)
    (x : (⟨1, ![N]⟩ : Shape).Idx → EReal) (idx : IVec ⟨2, ![R, 1]⟩ w)
    (upd : (⟨1, ![R]⟩ : Shape).Idx → EReal) (n : Fin N) :
    Ideal.hostScatterAdd (vecScatter N R wf) x idx upd (ix1 n)
      = x (ix1 n) + ∑ e ∈ Finset.univ.filter
          (fun e : Fin R => (idx (ix2 e (0 : Fin 1))).toInt = (n.val : Int)), upd (ix1 e) := by
  unfold Ideal.hostScatterAdd
  congr 1
  rw [Finset.sum_filter, sum_idx1, Finset.sum_filter]
  refine Finset.sum_congr rfl fun a _ => ?_
  exact if_congr (vec_resultIdx?_eq_some_iff wf idx a n) rfl rfl

/-! ## The degree count and its reciprocal square root -/

/-- A sum of ones over a finite set, started at zero, is the number of the set's elements. -/
theorem zero_add_sum_one_eq_card {ι : Type*} (S : Finset ι) :
    (0 : EReal) + ∑ _j ∈ S, (1 : EReal) = ((S.card : ℝ) : EReal) := by
  classical
  rw [zero_add]
  induction S using Finset.induction_on with
  | empty => simp
  | insert k s hk ih =>
    rw [Finset.sum_insert hk, ih, Finset.card_insert_of_notMem hk, Nat.cast_add_one, EReal.coe_add, EReal.coe_one,
      add_comm]

/-- The reciprocal square root of a positive natural number k is the real 1 / √k. -/
theorem rsqrt_natCast_of_pos {k : ℕ} (hk : 1 ≤ k) :
    Ideal.rsqrt (((k : ℝ)) : EReal) = (((Real.sqrt (k : ℝ))⁻¹ : ℝ) : EReal) := by
  have hk' : (0 : ℝ) < (k : ℝ) := by exact_mod_cast hk
  rw [Ideal.rsqrt_coe, if_neg (not_lt.mpr hk'.le), if_neg hk'.ne']

/-- At zero it is +∞ (so a normaliser guarded by "degree > 0" never meets this value). -/
theorem rsqrt_natCast_zero : Ideal.rsqrt ((((0 : ℕ) : ℝ)) : EReal) = ⊤ := by
  rw [Ideal.rsqrt_coe, if_neg (by simp), if_pos (by simp)]

/-- The reciprocal square root of a positive natural number is a non-negative real. -/
theorem exists_rsqrt_natCast {k : ℕ} (hk : 1 ≤ k) :
    ∃ r : ℝ, 0 ≤ r ∧ Ideal.rsqrt (((k : ℝ)) : EReal) = (r : EReal) :=
  ⟨(Real.sqrt (k : ℝ))⁻¹, inv_nonneg.mpr (Real.sqrt_nonneg _), rsqrt_natCast_of_pos hk⟩

end Cert.Lib.GatherScatter

end
-- ==== Proof.EdgeSums.lean ====
/-
  Mean aggregation over a graph, read at one node: the summed neighbour rows and the in-degree.

  The reference gathers, for every edge e, the feature row of the edge's source node (the source index read signed and
  clamped into [0, 99999]) and scatter-adds that row into a zero matrix at the edge's destination node (the destination
  index read signed; an index outside [0, 99999] sends its row nowhere).  At node n and column g the result is therefore
  0 + the sum, over the edges whose destination is n, of entry g of the source's row: a finite sum of reals when every
  feature is a real, hence a real.  The degree is the same scatter of ones into a zero vector: at n it is the number of
  edges whose destination is n, a natural number.
-/
import proofs.«156934_j7851200217408_1_alg».proof.ReferenceIdeal
import proofs.«156934_j7851200217408_1_alg».proof.Proof.LibGatherScatter
import proofs.«156934_j7851200217408_1_alg».proof.Proof.LibScatterSum
import Idealize.ShloMosaic.Lib.IdealHost

noncomputable section

open scoped BigOperators

namespace Cert.Sage.Edge

open Idealize.ShloMosaic Idealize.ShloMosaic.ValueIdx
open Cert.ReferenceIdeal Cert.Lib.GatherScatter

/-! ## A finite sum of reals started at zero is a real -/

/-- If every term of a finite sum of extended reals is a real, the sum started at zero is a real. -/
theorem zero_add_sum_real {ι : Type*} (S : Finset ι) (a : ι → EReal) (ha : ∀ j ∈ S, ∃ r : ℝ, a j = (r : EReal)) :
    ∃ r : ℝ, (0 : EReal) + ∑ j ∈ S, a j = (r : EReal) := by
  classical
  rw [zero_add]
  induction S using Finset.induction_on with
  | empty => exact ⟨0, by simp⟩
  | insert k s hk ih =>
    obtain ⟨r, hr⟩ := ih (fun j hj => ha j (Finset.mem_insert_of_mem hj))
    obtain ⟨q, hq⟩ := ha k (Finset.mem_insert_self k s)
    exact ⟨q + r, by rw [Finset.sum_insert hk, hq, hr, EReal.coe_add]⟩

variable [Facts₀]
open Facts₀

/-! ## The program's records are the row gather, the row scatter and the vector scatter -/

/-- The program's gather record is the row gather of a [100000, 128] matrix at [1600000, 1] start indices. -/
theorem gather_eq_rowsDims :
    gather_S100000x128_S1600000x1_S1600000x128_1_0_n_n_0_1_1128
      = rowsDims 100000 1600000 128 gather_S100000x128_S1600000x1_S1600000x128_1_0_n_n_0_1_1128_wf := rfl

/-- The program's matrix scatter record is the row scatter into a [100000, 128] matrix at [1600000, 1] indices. -/
theorem scatter_eq_rowsScatter :
    scatter_S100000x128_S1600000x1_S1600000x128_1_0_0_1
      = rowsScatter 100000 1600000 128 scatter_S100000x128_S1600000x1_S1600000x128_1_0_0_1_wf := rfl

/-- The program's vector scatter record is the vector scatter into a [100000] vector at [1600000, 1] indices. -/
theorem scatter_eq_vecScatter :
    scatter_S100000_S1600000x1_S1600000_n_0_0_1
      = vecScatter 100000 1600000 scatter_S100000_S1600000x1_S1600000_n_0_0_1_wf := rfl

/-! ## The zero and one literals broadcast to an array, read at an index -/

/-- The zero matrix the aggregate is accumulated into reads 0 everywhere. -/
theorem zeros_rows_apply (i : S100000x128.Idx) :
    broadcastInDim S100000x128 ![] bcast_S_S100000x128 (constant (F := Ideal) S_ .f32 0x00000000#32) i
      = (0 : EReal) := by
  rw [broadcastInDim_scalar_apply, constant_apply, Ideal.ofBits_zero_f32]

/-- The zero vector the degree is accumulated into reads 0 everywhere. -/
theorem zeros_vec_apply (i : S100000.Idx) :
    broadcastInDim S100000 ![] bcast_S_S100000 (constant (F := Ideal) S_ .f32 0x00000000#32) i = (0 : EReal) := by
  rw [broadcastInDim_scalar_apply, constant_apply, Ideal.ofBits_zero_f32]

/-- The vector of ones, one per edge, reads 1 everywhere. -/
theorem ones_vec_apply (i : S1600000.Idx) :
    broadcastInDim S1600000 ![] bcast_S_S1600000 (constant (F := Ideal) S_ .f32 0x3F800000#32) i = (1 : EReal) := by
  rw [broadcastInDim_scalar_apply, constant_apply, Ideal.ofBits_one_f32]

/-! ## The summed neighbour rows -/

/-- The aggregate at node n, column g: zero plus the sum, over the edges whose destination index (read signed) is n, of
    entry g of the feature row named by the edge's source index (read signed, clamped into [0, 99999]). -/
theorem summed_eq (h : FVec Ideal S100000x128 .f32) (di si : IVec S1600000x1 32) (n : Fin 100000) (g : Fin 128) :
    Host.scatterAdd (F := Ideal) scatter_S100000x128_S1600000x1_S1600000x128_1_0_0_1
        (broadcastInDim S100000x128 ![] bcast_S_S100000x128 (constant (F := Ideal) S_ .f32 0x00000000#32)) di
        (Host.gather gather_S100000x128_S1600000x1_S1600000x128_1_0_n_n_0_1_1128 h si) (ix2 n g)
      = (0 : EReal) + ∑ e ∈ Finset.univ.filter
          (fun e : Fin 1600000 => (di (ix2 e (0 : Fin 1))).toInt = (n.val : Int)),
          h (ix2 ⟨min (si (ix2 e (0 : Fin 1))).toInt.toNat (100000 - 1), by omega⟩ g) := by
  rw [scatter_eq_rowsScatter, gather_eq_rowsDims]
  rw [Host.scatterAdd, Ideal.hostScatterAdd_def]
  rw [scatterAdd_rows_apply, zeros_rows_apply]
  refine congrArg (fun s : EReal => (0 : EReal) + s) ?_
  refine Finset.sum_congr rfl fun e _ => ?_
  exact gather_rows_apply (by norm_num) gather_S100000x128_S1600000x1_S1600000x128_1_0_n_n_0_1_1128_wf h si e g

/-- With real features the aggregate at every node and column is a real. -/
theorem summed_real (h : FVec Ideal S100000x128 .f32) (hh : ∀ i, ∃ r : ℝ, h i = (r : EReal))
    (di si : IVec S1600000x1 32) (n : Fin 100000) (g : Fin 128) :
    ∃ r : ℝ, Host.scatterAdd (F := Ideal) scatter_S100000x128_S1600000x1_S1600000x128_1_0_0_1
        (broadcastInDim S100000x128 ![] bcast_S_S100000x128 (constant (F := Ideal) S_ .f32 0x00000000#32)) di
        (Host.gather gather_S100000x128_S1600000x1_S1600000x128_1_0_n_n_0_1_1128 h si) (ix2 n g) = (r : EReal) := by
  rw [summed_eq]
  exact zero_add_sum_real _ _ fun e _ => hh _

/-! ## The in-degree -/

/-- The degree at node n: the number of edges whose destination index (read signed) is n. -/
theorem deg_eq (di : IVec S1600000x1 32) (n : Fin 100000) :
    Host.scatterAdd (F := Ideal) scatter_S100000_S1600000x1_S1600000_n_0_0_1
        (broadcastInDim S100000 ![] bcast_S_S100000 (constant (F := Ideal) S_ .f32 0x00000000#32)) di
        (broadcastInDim S1600000 ![] bcast_S_S1600000 (constant (F := Ideal) S_ .f32 0x3F800000#32)) (ix1 n)
      = ((((Finset.univ.filter
          (fun e : Fin 1600000 => (di (ix2 e (0 : Fin 1))).toInt = (n.val : Int))).card : ℝ)) : EReal) := by
  rw [scatter_eq_vecScatter]
  rw [Host.scatterAdd, Ideal.hostScatterAdd_def]
  rw [scatterAdd_vec_apply, zeros_vec_apply]
  refine (congrArg (fun s : EReal => (0 : EReal) + s)
    (Finset.sum_congr rfl fun e _ => ones_vec_apply (ix1 e))).trans ?_
  exact zero_add_sum_one_eq_card _

/-- The degree at every node is a natural number. -/
theorem deg_card (di : IVec S1600000x1 32) (n : Fin 100000) :
    ∃ k : ℕ, Host.scatterAdd (F := Ideal) scatter_S100000_S1600000x1_S1600000_n_0_0_1
        (broadcastInDim S100000 ![] bcast_S_S100000 (constant (F := Ideal) S_ .f32 0x00000000#32)) di
        (broadcastInDim S1600000 ![] bcast_S_S1600000 (constant (F := Ideal) S_ .f32 0x3F800000#32)) (ix1 n)
      = (((k : ℝ)) : EReal) :=
  ⟨_, deg_eq di n⟩

end Cert.Sage.Edge

end
-- ==== Proof.AggBridge.lean ====
/-
  The two programs' mean aggregation agree.

  One program multiplies the summed neighbour rows, row by row, by the reciprocal of max(deg, 1); the other divides them
  by max(deg, 1).  The two compose the same gather and the same two scatter-additions over the same edge list, so the
  summed rows and the degree are the same arrays.  The degree at a node is a count of edges, a natural number k, so
  max(k, 1) is a real that is at least one, and on every extended real S the product S · (1 / max(k, 1)) and the quotient
  S / max(k, 1) are the same number.
-/
import proofs.«156934_j7851200217408_1_alg».proof.Proof.KHost
import proofs.«156934_j7851200217408_1_alg».proof.Proof.RefLayer
import proofs.«156934_j7851200217408_1_alg».proof.Proof.EdgeSums
import proofs.«156934_j7851200217408_1_alg».proof.Proof.BnAlgebra
import Idealize.ShloMosaic.Lib.Pipeline.Value
import Idealize.ShloMosaic.Lib.ValueIdx

noncomputable section

namespace Cert.Sage.Bridge

open Cert.KernelIdeal Cert.KernelIdeal.Gen
open Idealize.ShloMosaic Idealize.ShloMosaic.ValueIdx

/-! ## The same arrays under the two programs' names -/

/-- The summed neighbour rows are the same composition in both programs. -/
theorem summedK_eq (h : FVec Ideal S100000x128 .f32) (e : IVec S2x1600000 32) :
    KHost.summedK h (KHost.dstI e) (KHost.srcI e) = Ref.summed h e := rfl

/-- The in-degree is the same composition in both programs. -/
theorem degK_eq (e : IVec S2x1600000 32) : KHost.degK (KHost.dstI e) = Ref.degv e := rfl

/-! ## Two layout steps read at an index -/

section Layout
variable {α : Type}

/-- A vector of 100000 row values spread along the columns reads, at (p, q), its entry p. -/
theorem colBcast_apply (v : S100000.Idx → α) (p : Fin 100000) (q : Fin 128) :
    broadcastInDim S100000x128 ![0, 1] bcast_S100000x1_S100000x128_0_1 (broadcastInDim S100000x1 ![0] bcast_S100000_S100000x1_0 v) (ix2 p q)
      = v (ix1 p) :=
  (broadcastInDim_apply _ bcast_S100000x1_S100000x128_0_1 _ (ix2 p q) (ix2 p (0 : Fin 1)) (fun a => match a with
    | ⟨0, _⟩ => by show p.val = if (100000 : Nat) = 1 then 0 else p.val; rw [if_neg (by decide)]
    | ⟨1, _⟩ => by show (0 : Nat) = if (1 : Nat) = 1 then 0 else q.val; rw [if_pos rfl])).trans
  (broadcastInDim_apply _ bcast_S100000_S100000x1_0 v (ix2 p (0 : Fin 1)) (ix1 p) (fun a => match a with
    | ⟨0, _⟩ => by show p.val = if (100000 : Nat) = 1 then 0 else p.val; rw [if_neg (by decide)]))

/-- A scalar spread over a vector of 100000 reads the scalar everywhere. -/
theorem splat100000_apply (c : S_.Idx → α) (i : S100000.Idx) :
    broadcastInDim S100000 ![] bcast_S_S100000 c i = c ix0 :=
  broadcastInDim_apply _ bcast_S_S100000 c i ix0 (fun a => a.elim0)

end Layout

/-- The host's division of arrays reads elementwise. -/
theorem hostDivf_apply {s : Shape} (a b : FVec Ideal s .f32) (i : s.Idx) : Host.divf a b i = Ideal.div (a i) (b i) := rfl

/-- The float literal one, by its name in the algebra of the layer. -/
theorem one_eq : Ideal.ofBits .f32 0x3F800000#32 = Alg.oneLit := rfl

/-! ## The aggregation at an index, and as arrays -/

/-- At every (p, q) the product by the reciprocal of the clamped degree is the quotient by the clamped degree. -/
theorem aggE_apply (h : FVec Ideal S100000x128 .f32) (e : IVec S2x1600000 32) (p : Fin 100000) (q : Fin 128) :
    KHost.aggE h e (ix2 p q) = Ref.agg h e (ix2 p q) := by
  obtain ⟨k, hk⟩ := Edge.deg_card (Ref.dstIdx e) p
  have hd : Ref.degv e (ix1 p) = (((k : ℝ)) : EReal) := hk
  rw [Ref.agg_apply, hd]
  unfold KHost.aggE KHost.aggK KHost.invDeg
  rw [summedK_eq, degK_eq]
  generalize Ref.summed h e = s
  rw [mulf_apply, colBcast_apply, hostDivf_apply, maximumf_apply, splat100000_apply, constant_apply, hd, one_eq]
  exact Alg.agg_eq _ k

/-- The two programs' mean aggregations are the same array. -/
theorem aggE_eq (h : FVec Ideal S100000x128 .f32) (e : IVec S2x1600000 32) : KHost.aggE h e = Ref.agg h e := by
  funext i
  obtain ⟨p, q, rfl⟩ : ∃ (p : Fin 100000) (q : Fin 128), i = ix2 p q := ⟨i 0, i 1, eq_ix2 i⟩
  exact aggE_apply h e p q

end Cert.Sage.Bridge

end
-- ==== Proof.RefReal.lean ====
/- Every entry of every array the reference network computes is a real when its float arguments are. The mean
   aggregation divides a finite sum of entries by a count or one, whichever is larger; a linear stage adds two finite
   sums of products and a bias; the normalisation divides by the square root of a variance plus a positive offset, so
   its column arithmetic is the centre-normalise-scale-shift arrangement of the extended-real algebra, which is real on
   reals. -/
import proofs.«156934_j7851200217408_1_alg».proof.Proof.RefLayer
import proofs.«156934_j7851200217408_1_alg».proof.Proof.EdgeSums
import proofs.«156934_j7851200217408_1_alg».proof.Proof.BnAlgebra

set_option maxRecDepth 16384

noncomputable section

namespace Cert.Sage.Ref

open Cert.ReferenceIdeal Idealize.ShloMosaic Idealize.ShloMosaic.ValueIdx
open Cert.Sage

/-! ## The mean aggregation of a real array is real -/

/-- The in-degree of every node is a natural number: the count of the edges that end there. -/
theorem degv_nat (e : IVec S2x1600000 32) (p : Fin 100000) : ∃ k : ℕ, degv e (ix1 p) = (((k : ℝ)) : EReal) :=
  Edge.deg_card (dstIdx e) p

/-- The neighbour sum of a real array is real: a finite sum of entries of the array, started at zero. -/
theorem summed_isReal (h : FVec Ideal S100000x128 .f32) (hh : ∀ i, Alg.IsReal (h i)) (e : IVec S2x1600000 32)
    (p : Fin 100000) (q : Fin 128) : Alg.IsReal (summed h e (ix2 p q)) :=
  Edge.summed_real h hh (dstIdx e) (srcIdx e) p q

/-- The mean aggregation of a real array is real: a real sum divided by a count or one, whichever is larger. -/
theorem agg_isReal (h : FVec Ideal S100000x128 .f32) (hh : ∀ i, Alg.IsReal (h i)) (e : IVec S2x1600000 32) :
    ∀ i, Alg.IsReal (agg h e i) := by
  intro i
  obtain ⟨p, q, rfl⟩ : ∃ (p : Fin 100000) (q : Fin 128), i = ix2 p q := ⟨i 0, i 1, eq_ix2 i⟩
  rw [agg_apply]
  obtain ⟨k, hk⟩ := degv_nat e p
  rw [hk]
  exact Alg.agg_real _ (summed_isReal h hh e p q) k

/-! ## A linear stage of real arrays is real -/

theorem lin128_isReal (a h : FVec Ideal S100000x128 .f32) (wl : FVec Ideal S128x128 .f32) (bl : FVec Ideal S128 .f32)
    (wr : FVec Ideal S128x128 .f32) (ha : ∀ i, Alg.IsReal (a i)) (hh : ∀ i, Alg.IsReal (h i))
    (hwl : ∀ i, Alg.IsReal (wl i)) (hbl : ∀ i, Alg.IsReal (bl i)) (hwr : ∀ i, Alg.IsReal (wr i)) :
    ∀ i, Alg.IsReal (lin128 a h wl bl wr i) := by
  intro i
  obtain ⟨p, q, rfl⟩ : ∃ (p : Fin 100000) (q : Fin 128), i = ix2 p q := ⟨i 0, i 1, eq_ix2 i⟩
  rw [lin128_apply]
  exact Alg.add_real (Alg.add_real (Alg.dot_real _ _ (fun k => ha _) (fun k => hwl _)) (hbl _))
    (Alg.dot_real _ _ (fun k => hh _) (fun k => hwr _))

theorem lin47_isReal (a h : FVec Ideal S100000x128 .f32) (wl : FVec Ideal S47x128 .f32) (bl : FVec Ideal S47 .f32)
    (wr : FVec Ideal S47x128 .f32) (ha : ∀ i, Alg.IsReal (a i)) (hh : ∀ i, Alg.IsReal (h i))
    (hwl : ∀ i, Alg.IsReal (wl i)) (hbl : ∀ i, Alg.IsReal (bl i)) (hwr : ∀ i, Alg.IsReal (wr i)) :
    ∀ i, Alg.IsReal (lin47 a h wl bl wr i) := by
  intro i
  obtain ⟨p, q, rfl⟩ : ∃ (p : Fin 100000) (q : Fin 47), i = ix2 p q := ⟨i 0, i 1, eq_ix2 i⟩
  rw [lin47_apply]
  exact Alg.add_real (Alg.add_real (Alg.dot_real _ _ (fun k => ha _) (fun k => hwl _)) (hbl _))
    (Alg.dot_real _ _ (fun k => hh _) (fun k => hwr _))

/-! ## The normalised layer is the centred arrangement of its column, and real on real arrays -/

/-- The normalised layer at (p, q) is the centre-normalise-scale-shift arrangement of column q, at the entry (p, q). -/
theorem bnrelu_outR (x : FVec Ideal S100000x128 .f32) (g b : FVec Ideal S128 .f32) (p : Fin 100000) (q : Fin 128) :
    bnrelu x g b (ix2 p q)
      = Alg.outR (fun r : Fin 100000 => x (ix2 r q)) (g (ix1 q)) (b (ix1 q)) (x (ix2 p q)) := by
  rw [bnrelu_apply]
  rfl

theorem bnrelu_isReal (x : FVec Ideal S100000x128 .f32) (g b : FVec Ideal S128 .f32) (hx : ∀ i, Alg.IsReal (x i))
    (hg : ∀ i, Alg.IsReal (g i)) (hb : ∀ i, Alg.IsReal (b i)) : ∀ i, Alg.IsReal (bnrelu x g b i) := by
  intro i
  obtain ⟨p, q, rfl⟩ : ∃ (p : Fin 100000) (q : Fin 128), i = ix2 p q := ⟨i 0, i 1, eq_ix2 i⟩
  rw [bnrelu_outR]
  exact Alg.outR_real (by simp) _ (fun r => hx _) _ _ _ (hg _) (hb _) (hx _)

/-- One whole layer — mean aggregation, linear stage, normalisation, positive part — of real arrays is real. -/
theorem layer_isReal (h : FVec Ideal S100000x128 .f32) (e : IVec S2x1600000 32) (wl : FVec Ideal S128x128 .f32)
    (bl : FVec Ideal S128 .f32) (wr : FVec Ideal S128x128 .f32) (g b : FVec Ideal S128 .f32)
    (hh : ∀ i, Alg.IsReal (h i)) (hwl : ∀ i, Alg.IsReal (wl i)) (hbl : ∀ i, Alg.IsReal (bl i))
    (hwr : ∀ i, Alg.IsReal (wr i)) (hg : ∀ i, Alg.IsReal (g i)) (hb : ∀ i, Alg.IsReal (b i)) :
    ∀ i, Alg.IsReal (bnrelu (lin128 (agg h e) h wl bl wr) g b i) :=
  bnrelu_isReal _ g b (lin128_isReal _ h wl bl wr (agg_isReal h hh e) hh hwl hbl hwr) hg hb

end Cert.Sage.Ref

end
-- ==== Proof.Bridge.lean ====
/-
  The kernel's side and the reference's side of the network are the same function of real arguments.

  The linear combines agree on all extended reals: the aggregates agree (the degree is a count), and the three terms
  are added in another order.  A whole layer agrees once its input and parameters are real: then the linear combine is
  real, and the batch norm folded into a scale and a shift is the batch norm written out.  Realness passes from layer
  to layer, so the whole network agrees.
-/
import proofs.«156934_j7851200217408_1_alg».proof.Proof.KHostIdx
import proofs.«156934_j7851200217408_1_alg».proof.Proof.AggBridge
import proofs.«156934_j7851200217408_1_alg».proof.Proof.RefReal

set_option maxRecDepth 16384

noncomputable section

open scoped BigOperators

namespace Cert.Sage.Bridge

open Idealize.ShloMosaic Idealize.ShloMosaic.ValueIdx Cert.KernelIdeal Cert.Sage Cert.Sage.KHost

/-- The linear combine with 128 columns: the kernel's (aggregate · Wlᵀ + h · Wrᵀ) + bl is the reference's
    (aggregate · Wlᵀ + bl) + h · Wrᵀ. -/
theorem linK_eq (h : FVec Ideal S100000x128 .f32) (e : IVec S2x1600000 32) (wl : FVec Ideal S128x128 .f32)
    (bl : FVec Ideal S128 .f32) (wr : FVec Ideal S128x128 .f32) :
    linK h e wl bl wr = Ref.lin128 (Ref.agg h e) h wl bl wr := by
  funext i
  obtain ⟨p, q, rfl⟩ : ∃ (p : Fin 100000) (q : Fin 128), i = ix2 p q := ⟨i 0, i 1, eq_ix2 i⟩
  rw [linK_apply, aggE_eq]
  exact (add_right_comm _ _ _).trans (Ref.lin128_apply (Ref.agg h e) h wl bl wr p q).symm

/-- The same with 47 columns. -/
theorem lin47K_eq (h : FVec Ideal S100000x128 .f32) (e : IVec S2x1600000 32) (wl : FVec Ideal S47x128 .f32)
    (bl : FVec Ideal S47 .f32) (wr : FVec Ideal S47x128 .f32) :
    lin47K h e wl bl wr = Ref.lin47 (Ref.agg h e) h wl bl wr := by
  funext i
  obtain ⟨p, q, rfl⟩ : ∃ (p : Fin 100000) (q : Fin 47), i = ix2 p q := ⟨i 0, i 1, eq_ix2 i⟩
  rw [lin47K_apply, aggE_eq]
  exact (add_right_comm _ _ _).trans (Ref.lin47_apply (Ref.agg h e) h wl bl wr p q).symm

/-- One layer on real data: scale-and-shift by the folded statistics is the batch norm written out. -/
theorem layer_eq (h : FVec Ideal S100000x128 .f32) (e : IVec S2x1600000 32) (wl : FVec Ideal S128x128 .f32)
    (bl : FVec Ideal S128 .f32) (wr : FVec Ideal S128x128 .f32) (g b : FVec Ideal S128 .f32)
    (hh : ∀ i, Alg.IsReal (h i)) (hwl : ∀ i, Alg.IsReal (wl i)) (hbl : ∀ i, Alg.IsReal (bl i))
    (hwr : ∀ i, Alg.IsReal (wr i)) (hg : ∀ i, Alg.IsReal (g i)) (hb : ∀ i, Alg.IsReal (b i)) :
    layerK h e wl bl wr g b = Ref.bnrelu (Ref.lin128 (Ref.agg h e) h wl bl wr) g b := by
  have hX : ∀ i, Alg.IsReal (Ref.lin128 (Ref.agg h e) h wl bl wr i) :=
    Ref.lin128_isReal (Ref.agg h e) h wl bl wr (Ref.agg_isReal h hh e) hh hwl hbl hwr
  funext i
  obtain ⟨p, q, rfl⟩ : ∃ (p : Fin 100000) (q : Fin 128), i = ix2 p q := ⟨i 0, i 1, eq_ix2 i⟩
  rw [layerK_apply, Ref.bnrelu_outR, linK_eq]
  exact Alg.bn_eq (by simp) _ (fun r => hX (ix2 r q)) _ _ _ (hg _) (hb _) (hX (ix2 p q))

/-- The whole network on real arguments. -/
theorem out_eq (x : FVec Ideal S100000x128 .f32) (e : IVec S2x1600000 32)
    (Wl0 : FVec Ideal S128x128 .f32) (bl0 : FVec Ideal S128 .f32) (Wr0 : FVec Ideal S128x128 .f32) (g0 b0 : FVec Ideal S128 .f32)
    (Wl1 : FVec Ideal S128x128 .f32) (bl1 : FVec Ideal S128 .f32) (Wr1 : FVec Ideal S128x128 .f32) (g1 b1 : FVec Ideal S128 .f32)
    (Wl2 : FVec Ideal S47x128 .f32) (bl2 : FVec Ideal S47 .f32) (Wr2 : FVec Ideal S47x128 .f32)
    (rx : ∀ i, ∃ r : ℝ, x i = (r : EReal))
    (rWl0 : ∀ i, ∃ r : ℝ, Wl0 i = (r : EReal)) (rbl0 : ∀ i, ∃ r : ℝ, bl0 i = (r : EReal))
    (rWr0 : ∀ i, ∃ r : ℝ, Wr0 i = (r : EReal)) (rg0 : ∀ i, ∃ r : ℝ, g0 i = (r : EReal))
    (rb0 : ∀ i, ∃ r : ℝ, b0 i = (r : EReal))
    (rWl1 : ∀ i, ∃ r : ℝ, Wl1 i = (r : EReal)) (rbl1 : ∀ i, ∃ r : ℝ, bl1 i = (r : EReal))
    (rWr1 : ∀ i, ∃ r : ℝ, Wr1 i = (r : EReal)) (rg1 : ∀ i, ∃ r : ℝ, g1 i = (r : EReal))
    (rb1 : ∀ i, ∃ r : ℝ, b1 i = (r : EReal))
    (rWl2 : ∀ i, ∃ r : ℝ, Wl2 i = (r : EReal)) (rbl2 : ∀ i, ∃ r : ℝ, bl2 i = (r : EReal))
    (rWr2 : ∀ i, ∃ r : ℝ, Wr2 i = (r : EReal)) :
    lin47K (layerK (layerK x e Wl0 bl0 Wr0 g0 b0) e Wl1 bl1 Wr1 g1 b1) e Wl2 bl2 Wr2
      = Ref.refOut x e Wl0 bl0 Wr0 g0 b0 Wl1 bl1 Wr1 g1 b1 Wl2 bl2 Wr2 := by
  have e1 := layer_eq x e Wl0 bl0 Wr0 g0 b0 rx rWl0 rbl0 rWr0 rg0 rb0
  have r1 := Ref.layer_isReal x e Wl0 bl0 Wr0 g0 b0 rx rWl0 rbl0 rWr0 rg0 rb0
  rw [e1]
  have e2 := layer_eq _ e Wl1 bl1 Wr1 g1 b1 r1 rWl1 rbl1 rWr1 rg1 rb1
  rw [e2, lin47K_eq]
  rfl

end Cert.Sage.Bridge

end
-- ==== Proof.lean ====
/-
  The certificate's claims for a three-layer GraphSAGE network (mean aggregation, batch norm, relu) computed by five
  kernel launches among host operations, against its plain array reference.

  The three frames: the two kernel programs by their generated frame certificates, the reference by its generated run.
  The idealization rewrote nothing.  The value claim: the idealized kernel's result buffer ends at one function of the
  arguments — each launch's output array read off its blocks as a whole-array function, each stretch of host
  operations applied, boundary by boundary —, the reference's at its composed term, and the two are the same function
  whenever every float argument is finite: then every intermediate number is a real (a gather reads some row, a
  scatter-add is a finite sum, the degree is a count, the variance plus ε is positive), and over the reals multiplying
  by 1/max(deg,1) is dividing by max(deg,1), the sum of three terms does not depend on their order, the mean of squares
  minus the squared mean is the mean squared deviation, and scaling by g·rsqrt(var+ε) then shifting by b − mean·that
  is centring, normalising, scaling and shifting.
-/
import proofs.«156934_j7851200217408_1_alg».proof.Defs
import proofs.«156934_j7851200217408_1_alg».proof.Proof.Gen.Kernel
import proofs.«156934_j7851200217408_1_alg».proof.Proof.Gen.Kernel.Frame
import proofs.«156934_j7851200217408_1_alg».proof.Proof.Gen.KernelIdeal
import proofs.«156934_j7851200217408_1_alg».proof.Proof.Gen.KernelIdeal.Frame
import proofs.«156934_j7851200217408_1_alg».proof.Proof.Gen.ReferenceIdeal
import proofs.«156934_j7851200217408_1_alg».proof.Proof.Gen.Pre_finite_inputs
import proofs.«156934_j7851200217408_1_alg».proof.Proof.Gen.ReferenceIdeal.Run
import proofs.«156934_j7851200217408_1_alg».proof.Proof.Gen.ReferenceIdeal.Read
import proofs.«156934_j7851200217408_1_alg».proof.Proof.KRun
import proofs.«156934_j7851200217408_1_alg».proof.Proof.KChain
import proofs.«156934_j7851200217408_1_alg».proof.Proof.RefLayer
import proofs.«156934_j7851200217408_1_alg».proof.Proof.RealArgs
import proofs.«156934_j7851200217408_1_alg».proof.Proof.Bridge
import Idealize.ShloMosaic.Adequacy
import Idealize.ShloMosaic.Init

set_option maxRecDepth 16384

noncomputable section

namespace Cert.Proof

open Idealize.ShloMosaic Idealize.SL.Sem

/-- The two idealized programs, from memories that agree on the arguments, end with the same result. -/
theorem algebraic : Cert.algebraic_KernelIdeal_ReferenceIdeal := by
  intro m ρ m' ρ' hpre hagree
  refine ⟨fun c => Cert.Sage.KChain.outK m c, ?_, ?_⟩
  · exact (θ_run Cert.KernelIdeal.defs _ _).mono
      (fun r h c => ⟨((h c).1).trans (Cert.Sage.KChain.W10_out m ρ c), (h c).2⟩)
      (Cert.Sage.KRun.run_value (F := Ideal) m ρ)
  · refine (θ_run Cert.ReferenceIdeal.defs _ _).mono (fun r h c => ⟨(h c).1.trans ?_, (h c).2⟩)
      (Cert.ReferenceIdeal.Value.run (F := Ideal) m' ρ')
    obtain ⟨a0, a1, a2, a3, a4, a5, a6, a7, a8, a9, a10, a11, a12, a13, a14⟩ := hagree c
    obtain ⟨r0, r2, r3, r4, r5, r6, r7, r8, r9, r10, r11, r12, r13, r14⟩ :=
      Cert.Sage.RealArgs.real_of_pre (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (hpre c)
    rw [Cert.Sage.Ref.res_eq, a0, a1, a2, a3, a4, a5, a6, a7, a8, a9, a10, a11, a12, a13, a14]
    exact (Cert.Sage.Bridge.out_eq _ _ _ _ _ _ _ _ _ _ _ _ _ _ _ r0 r2 r3 r4 r5 r6 r7 r8 r9 r10 r11 r12 r13 r14).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2)
    (Cert.ReferenceIdeal.Value.run (F := Ideal) m ρ),
  trivial,
  algebraic⟩

end Cert.Proof

end
